-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x3 : Shape := ⟨3, ![16, 1024, 3]⟩
abbrev S16x1024x1024 : Shape := ⟨3, ![16, 1024, 1024]⟩
abbrev S128x512 : Shape := ⟨2, ![128, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S256x256 : Shape := ⟨2, ![256, 256]⟩
abbrev S2x384x256 : Shape := ⟨3, ![2, 384, 256]⟩
abbrev S2x1x256 : Shape := ⟨3, ![2, 1, 256]⟩
abbrev S9x2x256x256 : Shape := ⟨4, ![9, 2, 256, 256]⟩
abbrev S9x2x1x256 : Shape := ⟨4, ![9, 2, 1, 256]⟩
abbrev S256x128 : Shape := ⟨2, ![256, 128]⟩
abbrev S1x128 : Shape := ⟨2, ![1, 128]⟩
abbrev S128x128 : Shape := ⟨2, ![128, 128]⟩
abbrev S_ : Shape := ⟨0, ![]⟩

class Facts : Prop where
  bcast_S_S16x1024x3 : S_.BroadcastsInDim S16x1024x3 (![] : Fin 0 → Fin S16x1024x3.rank)
  reducesTo_S16x1024x3_S_d0_1_2 : S16x1024x3.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S2x384x256 : S_.BroadcastsInDim S2x384x256 (![] : Fin 0 → Fin S2x384x256.rank)
  reducesTo_S2x384x256_S_d0_1_2 : S2x384x256.ReducesTo [0, 1, 2] S_
  bcast_S_S2x1x256 : S_.BroadcastsInDim S2x1x256 (![] : Fin 0 → Fin S2x1x256.rank)
  reducesTo_S2x1x256_S_d0_1_2 : S2x1x256.ReducesTo [0, 1, 2] S_
  bcast_S_S9x2x256x256 : S_.BroadcastsInDim S9x2x256x256 (![] : Fin 0 → Fin S9x2x256x256.rank)
  reducesTo_S9x2x256x256_S_d0_1_2_3 : S9x2x256x256.ReducesTo [0, 1, 2, 3] S_
  bcast_S_S9x2x1x256 : S_.BroadcastsInDim S9x2x1x256 (![] : Fin 0 → Fin S9x2x1x256.rank)
  reducesTo_S9x2x1x256_S_d0_1_2_3 : S9x2x1x256.ReducesTo [0, 1, 2, 3] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg21 : FVec F S1x128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  main_v108

def fn_part5 {F : FTy → Type} [FloatOps F] (main_arg18 : FVec F S128x128 .f32) (main_arg19 : FVec F S1x128 .f32) (main_arg20 : FVec F S128x128 .f32) (main_arg21 : FVec F S1x128 .f32) (main_v83 : IVec S_ 1) (main_v84 : FVec F S1x128 .f32) (main_cst_32 : FVec F S_ .f32) : IVec S_ 1 :=
  let main_v85 : FVec F S1x128 .f32 := broadcastInDim S1x128 ![] bcast_S_S1x128 main_cst_32
  let main_v86 : IVec S1x128 1 := cmpf .olt main_v84 main_v85
  let main_c_33 : IVec S_ 1 := constantI S_ 1 1#1
  let main_v87 : IVec S_ 1 := (fun x v => Host.reduce IntOp.andi x v reducesTo_S1x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S1x128 .f32 := Host.absf main_arg19
  let main_cst_36 : FVec F S_ .f32 := constant S_ .f32 0x7F800000#32
  let main_v95 : FVec F S1x128 .f32 := broadcastInDim S1x128 ![] bcast_S_S1x128 main_cst_36
  let main_v96 : IVec S1x128 1 := cmpf .olt main_v94 main_v95
  let main_c_37 : IVec S_ 1 := constantI S_ 1 1#1
  let main_v97 : IVec S_ 1 := (fun x v => Host.reduce IntOp.andi x v reducesTo_S1x128_S_d0_1 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S1x128 .f32 := Host.absf main_arg15
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S1x128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v48 : IVec S_ 1) (main_v49 : FVec F S2x384x256 .f32) (main_v50 : FVec F S2x384x256 .f32) : IVec S_ 1 :=
  let main_v51 : IVec S2x384x256 1 := cmpf .olt main_v49 main_v50
  let main_c_19 : IVec S_ 1 := constantI S_ 1 1#1
  let main_v52 : IVec S_ 1 := (fun x v => Host.reduce IntOp.andi x v reducesTo_S2x384x256_S_d0_1_2 h_S_) main_v51 main_c_19
  let main_v53 : IVec S_ 1 := andi main_v48 main_v52
  let main_v54 : FVec F S2x1x256 .f32 := Host.absf main_arg11
  let main_cst_20 : FVec F S_ .f32 := constant S_ .f32 0x7F800000#32
  let main_v55 : FVec F S2x1x256 .f32 := broadcastInDim S2x1x256 ![] bcast_S_S2x1x256 main_cst_20
  let main_v56 : IVec S2x1x256 1 := cmpf .olt main_v54 main_v55
  let main_c_21 : IVec S_ 1 := constantI S_ 1 1#1
  let main_v57 : IVec S_ 1 := (fun x v => Host.reduce IntOp.andi x v reducesTo_S2x1x256_S_d0_1_2 h_S_) main_v56 main_c_21
  let main_v58 : IVec S_ 1 := andi main_v53 main_v57
  let main_v59 : FVec F S9x2x256x256 .f32 := Host.absf main_arg12
  let main_cst_22 : FVec F S_ .f32 := constant S_ .f32 0x7F800000#32
  let main_v60 : FVec F S9x2x256x256 .f32 := broadcastInDim S9x2x256x256 ![] bcast_S_S9x2x256x256 main_cst_22
  let main_v61 : IVec S9x2x256x256 1 := cmpf .olt main_v59 main_v60
  let main_c_23 : IVec S_ 1 := constantI S_ 1 1#1
  let main_v62 : IVec S_ 1 := (fun x v => Host.reduce IntOp.andi x v reducesTo_S9x2x256x256_S_d0_1_2_3 h_S_) main_v61 main_c_23
  let main_v63 : IVec S_ 1 := andi main_v58 main_v62
  let main_v64 : FVec F S9x2x1x256 .f32 := Host.absf main_arg13
  let main_cst_24 : FVec F S_ .f32 := constant S_ .f32 0x7F800000#32
  let main_v65 : FVec F S9x2x1x256 .f32 := broadcastInDim S9x2x1x256 ![] bcast_S_S9x2x1x256 main_cst_24
  let main_v66 : IVec S9x2x1x256 1 := cmpf .olt main_v64 main_v65
  let main_c_25 : IVec S_ 1 := constantI S_ 1 1#1
  let main_v67 : IVec S_ 1 := (fun x v => Host.reduce IntOp.andi x v reducesTo_S9x2x1x256_S_d0_1_2_3 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1x256 .f32) (main_arg8 : FVec F S256x256 .f32) (main_arg9 : FVec F S1x256 .f32) (main_arg10 : FVec F S2x384x256 .f32) (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S2x384x256 .f32 := Host.absf main_arg10
  let main_cst_18 : FVec F S_ .f32 := constant S_ .f32 0x7F800000#32
  let main_v50 : FVec F S2x384x256 .f32 := broadcastInDim S2x384x256 ![] bcast_S_S2x384x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S512x512 .f32) (main_arg5 : FVec F S1x512 .f32) (main_arg6 : FVec F S512x256 .f32) (main_arg7 : FVec F S1x256 .f32) (main_arg8 : FVec F S256x256 .f32) (main_arg9 : FVec F S1x256 .f32) (main_arg10 : FVec F S2x384x256 .f32) (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16x1024x3 .f32) (main_arg1 : FVec F S16x1024x1024 .f32) (main_arg2 : FVec F S128x512 .f32) (main_arg3 : FVec F S1x512 .f32) (main_arg4 : FVec F S512x512 .f32) (main_arg5 : FVec F S1x512 .f32) (main_arg6 : FVec F S512x256 .f32) (main_arg7 : FVec F S1x256 .f32) (main_arg8 : FVec F S256x256 .f32) (main_arg9 : FVec F S1x256 .f32) (main_arg10 : FVec F S2x384x256 .f32) (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) : IVec S_ 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_c : IVec S_ 1 := constantI S_ 1 1#1
  let main_v3 : IVec S_ 1 := (fun x v => Host.reduce IntOp.andi x v reducesTo_S16x1024x3_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16x1024x3 : Shape := ⟨3, ![16, 1024, 3]⟩
abbrev S16x1024x1024 : Shape := ⟨3, ![16, 1024, 1024]⟩
abbrev S128x512 : Shape := ⟨2, ![128, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S256x256 : Shape := ⟨2, ![256, 256]⟩
abbrev S2x384x256 : Shape := ⟨3, ![2, 384, 256]⟩
abbrev S2x1x256 : Shape := ⟨3, ![2, 1, 256]⟩
abbrev S9x2x256x256 : Shape := ⟨4, ![9, 2, 256, 256]⟩
abbrev S9x2x1x256 : Shape := ⟨4, ![9, 2, 1, 256]⟩
abbrev S256x128 : Shape := ⟨2, ![256, 128]⟩
abbrev S1x128 : Shape := ⟨2, ![1, 128]⟩
abbrev S128x128 : Shape := ⟨2, ![128, 128]⟩
abbrev S_ : Shape := ⟨0, ![]⟩
abbrev S16x1024x128 : Shape := ⟨3, ![16, 1024, 128]⟩
abbrev S1x256x256 : Shape := ⟨3, ![1, 256, 256]⟩
abbrev S256x512 : Shape := ⟨2, ![256, 512]⟩
abbrev S1x128x256 : Shape := ⟨3, ![1, 128, 256]⟩
abbrev S128x256 : Shape := ⟨2, ![128, 256]⟩
abbrev S1x1x256 : Shape := ⟨3, ![1, 1, 256]⟩
abbrev S9x1x256x256 : Shape := ⟨4, ![9, 1, 256, 256]⟩
abbrev S9x256x256 : Shape := ⟨3, ![9, 256, 256]⟩
abbrev S9x256x512 : Shape := ⟨3, ![9, 256, 512]⟩
abbrev S9x1x1x256 : Shape := ⟨4, ![9, 1, 1, 256]⟩
abbrev S9x1x256 : Shape := ⟨3, ![9, 1, 256]⟩
abbrev S9x1x512 : Shape := ⟨3, ![9, 1, 512]⟩
abbrev S16x1024x8 : Shape := ⟨3, ![16, 1024, 8]⟩
abbrev S2x1024x128 : Shape := ⟨3, ![2, 1024, 128]⟩
abbrev S2x1024x1024 : Shape := ⟨3, ![2, 1024, 1024]⟩
abbrev S2x1024x8 : Shape := ⟨3, ![2, 1024, 8]⟩
abbrev S1x1024x128 : Shape := ⟨3, ![1, 1024, 128]⟩
abbrev S1024x128 : Shape := ⟨2, ![1024, 128]⟩
abbrev S1x1024x1024 : Shape := ⟨3, ![1, 1024, 1024]⟩
abbrev S1024x1024 : Shape := ⟨2, ![1024, 1024]⟩
abbrev S1024x512 : Shape := ⟨2, ![1024, 512]⟩
abbrev S1024x256 : Shape := ⟨2, ![1024, 256]⟩
abbrev S1x256x512 : Shape := ⟨3, ![1, 256, 512]⟩
abbrev S1x1x512 : Shape := ⟨3, ![1, 1, 512]⟩
abbrev S1024x8 : Shape := ⟨2, ![1024, 8]⟩
abbrev S1x1024x8 : Shape := ⟨3, ![1, 1024, 8]⟩
abbrev S16384x3 : Shape := ⟨2, ![16384, 3]⟩

abbrev nBuf : Space → Nat
  | .hbm => 65
  | .vmem => 27
  | .smem => 0
  | _ => 0

abbrev bufTy : (tb : Table) → Fin (tcTables nBuf tb) → BufTy
  | .hbm, ⟨0, _⟩ => ⟨S16x1024x3, .f32⟩
  | .hbm, ⟨1, _⟩ => ⟨S16x1024x1024, .f32⟩
  | .hbm, ⟨2, _⟩ => ⟨S128x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S512x256, .f32⟩
  | .hbm, ⟨7, _⟩ => ⟨S1x256, .f32⟩
  | .hbm, ⟨8, _⟩ => ⟨S256x256, .f32⟩
  | .hbm, ⟨9, _⟩ => ⟨S1x256, .f32⟩
  | .hbm, ⟨10, _⟩ => ⟨S2x384x256, .f32⟩
  | .hbm, ⟨11, _⟩ => ⟨S2x1x256, .f32⟩
  | .hbm, ⟨12, _⟩ => ⟨S9x2x256x256, .f32⟩
  | .hbm, ⟨13, _⟩ => ⟨S9x2x1x256, .f32⟩
  | .hbm, ⟨14, _⟩ => ⟨S256x128, .f32⟩
  | .hbm, ⟨15, _⟩ => ⟨S1x128, .f32⟩
  | .hbm, ⟨16, _⟩ => ⟨S128x128, .f32⟩
  | .hbm, ⟨17, _⟩ => ⟨S1x128, .f32⟩
  | .hbm, ⟨18, _⟩ => ⟨S128x128, .f32⟩
  | .hbm, ⟨19, _⟩ => ⟨S1x128, .f32⟩
  | .hbm, ⟨20, _⟩ => ⟨S128x128, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S16x1024x128, .f32⟩
  | .hbm, ⟨25, _⟩ => ⟨S16x1024x128, .bf16⟩
  | .hbm, ⟨26, _⟩ => ⟨S1x256x256, .f32⟩
  | .hbm, ⟨27, _⟩ => ⟨S256x256, .f32⟩
  | .hbm, ⟨28, _⟩ => ⟨S1x256x256, .f32⟩
  | .hbm, ⟨29, _⟩ => ⟨S256x256, .f32⟩
  | .hbm, ⟨30, _⟩ => ⟨S256x512, .f32⟩
  | .hbm, ⟨31, _⟩ => ⟨S256x512, .bf16⟩
  | .hbm, ⟨32, _⟩ => ⟨S1x128x256, .f32⟩
  | .hbm, ⟨33, _⟩ => ⟨S128x256, .f32⟩
  | .hbm, ⟨34, _⟩ => ⟨S1x128x256, .f32⟩
  | .hbm, ⟨35, _⟩ => ⟨S128x256, .f32⟩
  | .hbm, ⟨36, _⟩ => ⟨S128x512, .f32⟩
  | .hbm, ⟨37, _⟩ => ⟨S128x512, .bf16⟩
  | .hbm, ⟨38, _⟩ => ⟨S1x1x256, .f32⟩
  | .hbm, ⟨39, _⟩ => ⟨S1x256, .f32⟩
  | .hbm, ⟨40, _⟩ => ⟨S1x1x256, .f32⟩
  | .hbm, ⟨41, _⟩ => ⟨S1x256, .f32⟩
  | .hbm, ⟨42, _⟩ => ⟨S1x512, .f32⟩
  | .hbm, ⟨43, _⟩ => ⟨S9x1x256x256, .f32⟩
  | .hbm, ⟨44, _⟩ => ⟨S9x256x256, .f32⟩
  | .hbm, ⟨45, _⟩ => ⟨S9x1x256x256, .f32⟩
  | .hbm, ⟨46, _⟩ => ⟨S9x256x256, .f32⟩
  | .hbm, ⟨47, _⟩ => ⟨S9x256x512, .f32⟩
  | .hbm, ⟨48, _⟩ => ⟨S9x256x512, .bf16⟩
  | .hbm, ⟨49, _⟩ => ⟨S9x1x1x256, .f32⟩
  | .hbm, ⟨50, _⟩ => ⟨S9x1x256, .f32⟩
  | .hbm, ⟨51, _⟩ => ⟨S9x1x1x256, .f32⟩
  | .hbm, ⟨52, _⟩ => ⟨S9x1x256, .f32⟩
  | .hbm, ⟨53, _⟩ => ⟨S9x1x512, .f32⟩
  | .hbm, ⟨54, _⟩ => ⟨S128x512, .bf16⟩
  | .hbm, ⟨55, _⟩ => ⟨S512x512, .bf16⟩
  | .hbm, ⟨56, _⟩ => ⟨S512x256, .bf16⟩
  | .hbm, ⟨57, _⟩ => ⟨S256x256, .bf16⟩
  | .hbm, ⟨58, _⟩ => ⟨S256x128, .bf16⟩
  | .hbm, ⟨59, _⟩ => ⟨S128x128, .bf16⟩
  | .hbm, ⟨60, _⟩ => ⟨S128x128, .bf16⟩
  | .hbm, ⟨61, _⟩ => ⟨S128x128, .bf16⟩
  | .hbm, ⟨62, _⟩ => ⟨S16x1024x8, .f32⟩
  | .hbm, ⟨63, _⟩ => ⟨S16x1024x3, .f32⟩
  | .hbm, ⟨64, _⟩ => ⟨S16384x3, .f32⟩
  | .local _ .vmem, ⟨0, _⟩ => ⟨S2x1024x128, .bf16⟩
  | .local _ .vmem, ⟨1, _⟩ => ⟨S2x1024x128, .bf16⟩
  | .local _ .vmem, ⟨2, _⟩ => ⟨S2x1024x1024, .f32⟩
  | .local _ .vmem, ⟨3, _⟩ => ⟨S2x1024x1024, .f32⟩
  | .local _ .vmem, ⟨4, _⟩ => ⟨S128x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x512, .bf16⟩
  | .local _ .vmem, ⟨13, _⟩ => ⟨S128x512, .bf16⟩
  | .local _ .vmem, ⟨14, _⟩ => ⟨S1x512, .f32⟩
  | .local _ .vmem, ⟨15, _⟩ => ⟨S9x256x512, .bf16⟩
  | .local _ .vmem, ⟨16, _⟩ => ⟨S9x1x512, .f32⟩
  | .local _ .vmem, ⟨17, _⟩ => ⟨S256x128, .bf16⟩
  | .local _ .vmem, ⟨18, _⟩ => ⟨S1x128, .f32⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S128x128, .bf16⟩
  | .local _ .vmem, ⟨24, _⟩ => ⟨S1x128, .f32⟩
  | .local _ .vmem, ⟨25, _⟩ => ⟨S2x1024x8, .f32⟩
  | .local _ .vmem, ⟨26, _⟩ => ⟨S2x1024x8, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S9x256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S9x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2x1024x8 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  pads_S16x1024x3_S16x1024x128_000_000_01250 : S16x1024x3.Pads (![0, 0, 0] : Fin 3 → Nat) ![0, 0, 125] ![0, 0, 0] S16x1024x128
  h_S_ : 0 < S_.numel
  bitsLt_bf16_f32 : FTy.bits .bf16 < FTy.bits .f32
  slices_S2x384x256_S1x256x256_0_0_0 : S2x384x256.Slices ![0, 0, 0] S1x256x256
  shapeCasts_S1x256x256_S256x256 : S1x256x256.ShapeCasts S256x256
  slices_S2x384x256_S1x256x256_1_0_0 : S2x384x256.Slices ![1, 0, 0] S1x256x256
  concatenates_S256x256_S256x256_S256x512_d1 : Shape.Concatenates [S256x256, S256x256] S256x512 1
  slices_S2x384x256_S1x128x256_0_256_0 : S2x384x256.Slices ![0, 256, 0] S1x128x256
  shapeCasts_S1x128x256_S128x256 : S1x128x256.ShapeCasts S128x256
  slices_S2x384x256_S1x128x256_1_256_0 : S2x384x256.Slices ![1, 256, 0] S1x128x256
  concatenates_S128x256_S128x256_S128x512_d1 : Shape.Concatenates [S128x256, S128x256] S128x512 1
  slices_S2x1x256_S1x1x256_0_0_0 : S2x1x256.Slices ![0, 0, 0] S1x1x256
  shapeCasts_S1x1x256_S1x256 : S1x1x256.ShapeCasts S1x256
  slices_S2x1x256_S1x1x256_1_0_0 : S2x1x256.Slices ![1, 0, 0] S1x1x256
  concatenates_S1x256_S1x256_S1x512_d1 : Shape.Concatenates [S1x256, S1x256] S1x512 1
  slices_S9x2x256x256_S9x1x256x256_0_0_0_0 : S9x2x256x256.Slices ![0, 0, 0, 0] S9x1x256x256
  shapeCasts_S9x1x256x256_S9x256x256 : S9x1x256x256.ShapeCasts S9x256x256
  slices_S9x2x256x256_S9x1x256x256_0_1_0_0 : S9x2x256x256.Slices ![0, 1, 0, 0] S9x1x256x256
  concatenates_S9x256x256_S9x256x256_S9x256x512_d2 : Shape.Concatenates [S9x256x256, S9x256x256] S9x256x512 2
  slices_S9x2x1x256_S9x1x1x256_0_0_0_0 : S9x2x1x256.Slices ![0, 0, 0, 0] S9x1x1x256
  shapeCasts_S9x1x1x256_S9x1x256 : S9x1x1x256.ShapeCasts S9x1x256
  slices_S9x2x1x256_S9x1x1x256_0_1_0_0 : S9x2x1x256.Slices ![0, 1, 0, 0] S9x1x1x256
  concatenates_S9x1x256_S9x1x256_S9x1x512_d2 : Shape.Concatenates [S9x1x256, S9x1x256] S9x1x512 2
  inb_S2x1024x128_S1x1024x128_0_0_0 : ∀ a, (![0, 0, 0] : Fin 3 → Nat) a + S1x1024x128.size a ≤ S2x1024x128.size a
  h_S1x1024x128 : 0 < S1x1024x128.numel
  shapeCasts_S1x1024x128_S1024x128 : S1x1024x128.ShapeCasts S1024x128
  inb_S2x1024x128_S1x1024x128_1_0_0 : ∀ a, (![1, 0, 0] : Fin 3 → Nat) a + S1x1024x128.size a ≤ S2x1024x128.size a
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S2x1024x1024_S1x1024x1024_1_0_0 : ∀ a, (![1, 0, 0] : Fin 3 → Nat) a + S1x1024x1024.size a ≤ S2x1024x1024.size a
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1x512_S1x512 : S1x512.ShapeCasts S1x512
  slices_S1024x512_o0_256_S1024x256 : S1024x512.Slices ![0, 256] S1024x256
  slices_S1024x512_o0_0_S1024x256 : S1024x512.Slices ![0, 0] S1024x256
  inb_S9x256x512_S1x256x512_0_0_0 : ∀ a, (![0, 0, 0] : Fin 3 → Nat) a + S1x256x512.size a ≤ S9x256x512.size a
  h_S1x256x512 : 0 < S1x256x512.numel
  shapeCasts_S1x256x512_S256x512 : S1x256x512.ShapeCasts S256x512
  inb_S9x1x512_S1x1x512_0_0_0 : ∀ a, (![0, 0, 0] : Fin 3 → Nat) a + S1x1x512.size a ≤ S9x1x512.size a
  h_S1x1x512 : 0 < S1x1x512.numel
  shapeCasts_S1x1x512_S1x512 : S1x1x512.ShapeCasts S1x512
  inb_S9x256x512_S1x256x512_1_0_0 : ∀ a, (![1, 0, 0] : Fin 3 → Nat) a + S1x256x512.size a ≤ S9x256x512.size a
  inb_S9x1x512_S1x1x512_1_0_0 : ∀ a, (![1, 0, 0] : Fin 3 → Nat) a + S1x1x512.size a ≤ S9x1x512.size a
  inb_S9x256x512_S1x256x512_2_0_0 : ∀ a, (![2, 0, 0] : Fin 3 → Nat) a + S1x256x512.size a ≤ S9x256x512.size a
  inb_S9x1x512_S1x1x512_2_0_0 : ∀ a, (![2, 0, 0] : Fin 3 → Nat) a + S1x1x512.size a ≤ S9x1x512.size a
  inb_S9x256x512_S1x256x512_3_0_0 : ∀ a, (![3, 0, 0] : Fin 3 → Nat) a + S1x256x512.size a ≤ S9x256x512.size a
  inb_S9x1x512_S1x1x512_3_0_0 : ∀ a, (![3, 0, 0] : Fin 3 → Nat) a + S1x1x512.size a ≤ S9x1x512.size a
  inb_S9x256x512_S1x256x512_4_0_0 : ∀ a, (![4, 0, 0] : Fin 3 → Nat) a + S1x256x512.size a ≤ S9x256x512.size a
  inb_S9x1x512_S1x1x512_4_0_0 : ∀ a, (![4, 0, 0] : Fin 3 → Nat) a + S1x1x512.size a ≤ S9x1x512.size a
  inb_S9x256x512_S1x256x512_5_0_0 : ∀ a, (![5, 0, 0] : Fin 3 → Nat) a + S1x256x512.size a ≤ S9x256x512.size a
  inb_S9x1x512_S1x1x512_5_0_0 : ∀ a, (![5, 0, 0] : Fin 3 → Nat) a + S1x1x512.size a ≤ S9x1x512.size a
  inb_S9x256x512_S1x256x512_6_0_0 : ∀ a, (![6, 0, 0] : Fin 3 → Nat) a + S1x256x512.size a ≤ S9x256x512.size a
  inb_S9x1x512_S1x1x512_6_0_0 : ∀ a, (![6, 0, 0] : Fin 3 → Nat) a + S1x1x512.size a ≤ S9x1x512.size a
  inb_S9x256x512_S1x256x512_7_0_0 : ∀ a, (![7, 0, 0] : Fin 3 → Nat) a + S1x256x512.size a ≤ S9x256x512.size a
  inb_S9x1x512_S1x1x512_7_0_0 : ∀ a, (![7, 0, 0] : Fin 3 → Nat) a + S1x1x512.size a ≤ S9x1x512.size a
  inb_S9x256x512_S1x256x512_8_0_0 : ∀ a, (![8, 0, 0] : Fin 3 → Nat) a + S1x256x512.size a ≤ S9x256x512.size a
  inb_S9x1x512_S1x1x512_8_0_0 : ∀ a, (![8, 0, 0] : Fin 3 → Nat) a + S1x1x512.size a ≤ S9x1x512.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S1024x128_o0_0_S1024x8 : S1024x128.Slices ![0, 0] S1024x8
  inb_S2x1024x8_S1x1024x8_0_0_0 : ∀ a, (![0, 0, 0] : Fin 3 → Nat) a + S1x1024x8.size a ≤ S2x1024x8.size a
  h_S1x1024x8 : 0 < S1x1024x8.numel
  shapeCasts_S1x1024x8_S1024x8 : S1x1024x8.ShapeCasts S1024x8
  shapeCasts_S1024x8_S1x1024x8 : S1024x8.ShapeCasts S1x1024x8
  inb_S2x1024x8_S1x1024x8_1_0_0 : ∀ a, (![1, 0, 0] : Fin 3 → Nat) a + S1x1024x8.size a ≤ S2x1024x8.size a
  slices_S16x1024x8_S16x1024x3_0_0_0 : S16x1024x8.Slices ![0, 0, 0] S16x1024x3
  shapeCasts_S16x1024x3_S16384x3 : S16x1024x3.ShapeCasts S16384x3
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x128.size a ≤ S16x1024x128.size a
  hwx0_0 : ∀ i : grid0.Coords, EltTy.bits .bf16 = 32 ∨ (Rect.block (s := S16x1024x128) S2x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S16x1024x1024.size a
  hwx0_1 : ∀ i : grid0.Coords, EltTy.bits .f32 = 32 ∨ (Rect.block (s := S16x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .bf16 = 32 ∨ (Rect.block (s := S256x512) S256x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S128x512.size a
  hwx0_11 : ∀ i : grid0.Coords, EltTy.bits .bf16 = 32 ∨ (Rect.block (s := S128x512) S128x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S9x256x512.size a ≤ S9x256x512.size a
  hwx0_13 : ∀ i : grid0.Coords, EltTy.bits .bf16 = 32 ∨ (Rect.block (s := S9x256x512) S9x256x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S9x1x512.size a ≤ S9x1x512.size a
  hwx0_14 : ∀ i : grid0.Coords, EltTy.bits .f32 = 32 ∨ (Rect.block (s := S9x1x512) S9x1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .bf16 = 32 ∨ (Rect.block (s := S256x128) S256x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .bf16 = 32 ∨ (Rect.block (s := S128x128) S128x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .bf16 = 32 ∨ (Rect.block (s := S128x128) S128x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .bf16 = 32 ∨ (Rect.block (s := S128x128) S128x128.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2x1024x8.size a ≤ S16x1024x8.size a
  hwx0_23 : ∀ i : grid0.Coords, EltTy.bits .f32 = 32 ∨ (Rect.block (s := S16x1024x8) S2x1024x8.size (cc0_transform_23 i) (hinb0_23 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v1) S2x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S128x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S9x256x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v29) S9x1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v36) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v37) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg21) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v38) S2x1024x8.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S16x1024x3 : Shape := ⟨3, ![16, 1024, 3]⟩
abbrev S16x1024x1024 : Shape := ⟨3, ![16, 1024, 1024]⟩
abbrev S128x512 : Shape := ⟨2, ![128, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S256x256 : Shape := ⟨2, ![256, 256]⟩
abbrev S2x384x256 : Shape := ⟨3, ![2, 384, 256]⟩
abbrev S2x1x256 : Shape := ⟨3, ![2, 1, 256]⟩
abbrev S9x2x256x256 : Shape := ⟨4, ![9, 2, 256, 256]⟩
abbrev S9x2x1x256 : Shape := ⟨4, ![9, 2, 1, 256]⟩
abbrev S256x128 : Shape := ⟨2, ![256, 128]⟩
abbrev S1x128 : Shape := ⟨2, ![1, 128]⟩
abbrev S128x128 : Shape := ⟨2, ![128, 128]⟩
abbrev S_ : Shape := ⟨0, ![]⟩
abbrev S16x1024x128 : Shape := ⟨3, ![16, 1024, 128]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩
abbrev S1024x512 : Shape := ⟨2, ![1024, 512]⟩
abbrev S1024x256 : Shape := ⟨2, ![1024, 256]⟩
abbrev S1x384x256 : Shape := ⟨3, ![1, 384, 256]⟩
abbrev S384x256 : Shape := ⟨2, ![384, 256]⟩
abbrev S1x1x256 : Shape := ⟨3, ![1, 1, 256]⟩
abbrev S128x256 : Shape := ⟨2, ![128, 256]⟩
abbrev S1x1x256x256 : Shape := ⟨4, ![1, 1, 256, 256]⟩
abbrev S1x1x1x256 : Shape := ⟨4, ![1, 1, 1, 256]⟩
abbrev S16384x3 : Shape := ⟨2, ![16384, 3]⟩

abbrev nBuf : Space → Nat
  | .hbm => 28
  | .vmem => 26
  | .smem => 0
  | _ => 0

abbrev bufTy : (tb : Table) → Fin (tcTables nBuf tb) → BufTy
  | .hbm, ⟨0, _⟩ => ⟨S16x1024x3, .f32⟩
  | .hbm, ⟨1, _⟩ => ⟨S16x1024x1024, .f32⟩
  | .hbm, ⟨2, _⟩ => ⟨S128x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S512x256, .f32⟩
  | .hbm, ⟨7, _⟩ => ⟨S1x256, .f32⟩
  | .hbm, ⟨8, _⟩ => ⟨S256x256, .f32⟩
  | .hbm, ⟨9, _⟩ => ⟨S1x256, .f32⟩
  | .hbm, ⟨10, _⟩ => ⟨S2x384x256, .f32⟩
  | .hbm, ⟨11, _⟩ => ⟨S2x1x256, .f32⟩
  | .hbm, ⟨12, _⟩ => ⟨S9x2x256x256, .f32⟩
  | .hbm, ⟨13, _⟩ => ⟨S9x2x1x256, .f32⟩
  | .hbm, ⟨14, _⟩ => ⟨S256x128, .f32⟩
  | .hbm, ⟨15, _⟩ => ⟨S1x128, .f32⟩
  | .hbm, ⟨16, _⟩ => ⟨S128x128, .f32⟩
  | .hbm, ⟨17, _⟩ => ⟨S1x128, .f32⟩
  | .hbm, ⟨18, _⟩ => ⟨S128x128, .f32⟩
  | .hbm, ⟨19, _⟩ => ⟨S1x128, .f32⟩
  | .hbm, ⟨20, _⟩ => ⟨S128x128, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S16x1024x128, .f32⟩
  | .hbm, ⟨25, _⟩ => ⟨S16x1024x128, .f32⟩
  | .hbm, ⟨26, _⟩ => ⟨S16x1024x3, .f32⟩
  | .hbm, ⟨27, _⟩ => ⟨S16384x3, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S2x384x256, .f32⟩
  | .local _ .vmem, ⟨13, _⟩ => ⟨S2x1x256, .f32⟩
  | .local _ .vmem, ⟨14, _⟩ => ⟨S9x2x256x256, .f32⟩
  | .local _ .vmem, ⟨15, _⟩ => ⟨S9x2x1x256, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x1024x128, .f32⟩
  | .local _ .vmem, ⟨25, _⟩ => ⟨S1x1024x128, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x384x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9x2x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S9x2x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x1024x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  pads_S16x1024x3_S16x1024x128_000_000_01250 : S16x1024x3.Pads (![0, 0, 0] : Fin 3 → Nat) ![0, 0, 125] ![0, 0, 0] S16x1024x128
  h_S_ : 0 < S_.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S2x384x256_S1x384x256_0_0_0 : ∀ a, (![0, 0, 0] : Fin 3 → Nat) a + S1x384x256.size a ≤ S2x384x256.size a
  h_S1x384x256 : 0 < S1x384x256.numel
  shapeCasts_S1x384x256_S384x256 : S1x384x256.ShapeCasts S384x256
  inb_S2x384x256_S1x384x256_1_0_0 : ∀ a, (![1, 0, 0] : Fin 3 → Nat) a + S1x384x256.size a ≤ S2x384x256.size a
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  inb_S2x1x256_S1x1x256_1_0_0 : ∀ a, (![1, 0, 0] : Fin 3 → Nat) a + S1x1x256.size a ≤ S2x1x256.size a
  slices_S384x256_o0_0_S256x256 : S384x256.Slices ![0, 0] S256x256
  slices_S384x256_o256_0_S128x256 : S384x256.Slices ![256, 0] S128x256
  inb_S9x2x256x256_S1x1x256x256_0_0_0_0 : ∀ a, (![0, 0, 0, 0] : Fin 4 → Nat) a + S1x1x256x256.size a ≤ S9x2x256x256.size a
  h_S1x1x256x256 : 0 < S1x1x256x256.numel
  shapeCasts_S1x1x256x256_S256x256 : S1x1x256x256.ShapeCasts S256x256
  inb_S9x2x256x256_S1x1x256x256_0_1_0_0 : ∀ a, (![0, 1, 0, 0] : Fin 4 → Nat) a + S1x1x256x256.size a ≤ S9x2x256x256.size a
  inb_S9x2x1x256_S1x1x1x256_0_0_0_0 : ∀ a, (![0, 0, 0, 0] : Fin 4 → Nat) a + S1x1x1x256.size a ≤ S9x2x1x256.size a
  h_S1x1x1x256 : 0 < S1x1x1x256.numel
  shapeCasts_S1x1x1x256_S1x256 : S1x1x1x256.ShapeCasts S1x256
  inb_S9x2x1x256_S1x1x1x256_0_1_0_0 : ∀ a, (![0, 1, 0, 0] : Fin 4 → Nat) a + S1x1x1x256.size a ≤ S9x2x1x256.size a
  inb_S9x2x256x256_S1x1x256x256_1_0_0_0 : ∀ a, (![1, 0, 0, 0] : Fin 4 → Nat) a + S1x1x256x256.size a ≤ S9x2x256x256.size a
  inb_S9x2x256x256_S1x1x256x256_1_1_0_0 : ∀ a, (![1, 1, 0, 0] : Fin 4 → Nat) a + S1x1x256x256.size a ≤ S9x2x256x256.size a
  inb_S9x2x1x256_S1x1x1x256_1_0_0_0 : ∀ a, (![1, 0, 0, 0] : Fin 4 → Nat) a + S1x1x1x256.size a ≤ S9x2x1x256.size a
  inb_S9x2x1x256_S1x1x1x256_1_1_0_0 : ∀ a, (![1, 1, 0, 0] : Fin 4 → Nat) a + S1x1x1x256.size a ≤ S9x2x1x256.size a
  inb_S9x2x256x256_S1x1x256x256_2_0_0_0 : ∀ a, (![2, 0, 0, 0] : Fin 4 → Nat) a + S1x1x256x256.size a ≤ S9x2x256x256.size a
  inb_S9x2x256x256_S1x1x256x256_2_1_0_0 : ∀ a, (![2, 1, 0, 0] : Fin 4 → Nat) a + S1x1x256x256.size a ≤ S9x2x256x256.size a
  inb_S9x2x1x256_S1x1x1x256_2_0_0_0 : ∀ a, (![2, 0, 0, 0] : Fin 4 → Nat) a + S1x1x1x256.size a ≤ S9x2x1x256.size a
  inb_S9x2x1x256_S1x1x1x256_2_1_0_0 : ∀ a, (![2, 1, 0, 0] : Fin 4 → Nat) a + S1x1x1x256.size a ≤ S9x2x1x256.size a
  inb_S9x2x256x256_S1x1x256x256_3_0_0_0 : ∀ a, (![3, 0, 0, 0] : Fin 4 → Nat) a + S1x1x256x256.size a ≤ S9x2x256x256.size a
  inb_S9x2x256x256_S1x1x256x256_3_1_0_0 : ∀ a, (![3, 1, 0, 0] : Fin 4 → Nat) a + S1x1x256x256.size a ≤ S9x2x256x256.size a
  inb_S9x2x1x256_S1x1x1x256_3_0_0_0 : ∀ a, (![3, 0, 0, 0] : Fin 4 → Nat) a + S1x1x1x256.size a ≤ S9x2x1x256.size a
  inb_S9x2x1x256_S1x1x1x256_3_1_0_0 : ∀ a, (![3, 1, 0, 0] : Fin 4 → Nat) a + S1x1x1x256.size a ≤ S9x2x1x256.size a
  inb_S9x2x256x256_S1x1x256x256_4_0_0_0 : ∀ a, (![4, 0, 0, 0] : Fin 4 → Nat) a + S1x1x256x256.size a ≤ S9x2x256x256.size a
  inb_S9x2x256x256_S1x1x256x256_4_1_0_0 : ∀ a, (![4, 1, 0, 0] : Fin 4 → Nat) a + S1x1x256x256.size a ≤ S9x2x256x256.size a
  inb_S9x2x1x256_S1x1x1x256_4_0_0_0 : ∀ a, (![4, 0, 0, 0] : Fin 4 → Nat) a + S1x1x1x256.size a ≤ S9x2x1x256.size a
  inb_S9x2x1x256_S1x1x1x256_4_1_0_0 : ∀ a, (![4, 1, 0, 0] : Fin 4 → Nat) a + S1x1x1x256.size a ≤ S9x2x1x256.size a
  inb_S9x2x256x256_S1x1x256x256_5_0_0_0 : ∀ a, (![5, 0, 0, 0] : Fin 4 → Nat) a + S1x1x256x256.size a ≤ S9x2x256x256.size a
  inb_S9x2x256x256_S1x1x256x256_5_1_0_0 : ∀ a, (![5, 1, 0, 0] : Fin 4 → Nat) a + S1x1x256x256.size a ≤ S9x2x256x256.size a
  inb_S9x2x1x256_S1x1x1x256_5_0_0_0 : ∀ a, (![5, 0, 0, 0] : Fin 4 → Nat) a + S1x1x1x256.size a ≤ S9x2x1x256.size a
  inb_S9x2x1x256_S1x1x1x256_5_1_0_0 : ∀ a, (![5, 1, 0, 0] : Fin 4 → Nat) a + S1x1x1x256.size a ≤ S9x2x1x256.size a
  inb_S9x2x256x256_S1x1x256x256_6_0_0_0 : ∀ a, (![6, 0, 0, 0] : Fin 4 → Nat) a + S1x1x256x256.size a ≤ S9x2x256x256.size a
  inb_S9x2x256x256_S1x1x256x256_6_1_0_0 : ∀ a, (![6, 1, 0, 0] : Fin 4 → Nat) a + S1x1x256x256.size a ≤ S9x2x256x256.size a
  inb_S9x2x1x256_S1x1x1x256_6_0_0_0 : ∀ a, (![6, 0, 0, 0] : Fin 4 → Nat) a + S1x1x1x256.size a ≤ S9x2x1x256.size a
  inb_S9x2x1x256_S1x1x1x256_6_1_0_0 : ∀ a, (![6, 1, 0, 0] : Fin 4 → Nat) a + S1x1x1x256.size a ≤ S9x2x1x256.size a
  inb_S9x2x256x256_S1x1x256x256_7_0_0_0 : ∀ a, (![7, 0, 0, 0] : Fin 4 → Nat) a + S1x1x256x256.size a ≤ S9x2x256x256.size a
  inb_S9x2x256x256_S1x1x256x256_7_1_0_0 : ∀ a, (![7, 1, 0, 0] : Fin 4 → Nat) a + S1x1x256x256.size a ≤ S9x2x256x256.size a
  inb_S9x2x1x256_S1x1x1x256_7_0_0_0 : ∀ a, (![7, 0, 0, 0] : Fin 4 → Nat) a + S1x1x1x256.size a ≤ S9x2x1x256.size a
  inb_S9x2x1x256_S1x1x1x256_7_1_0_0 : ∀ a, (![7, 1, 0, 0] : Fin 4 → Nat) a + S1x1x1x256.size a ≤ S9x2x1x256.size a
  inb_S9x2x256x256_S1x1x256x256_8_0_0_0 : ∀ a, (![8, 0, 0, 0] : Fin 4 → Nat) a + S1x1x256x256.size a ≤ S9x2x256x256.size a
  inb_S9x2x256x256_S1x1x256x256_8_1_0_0 : ∀ a, (![8, 1, 0, 0] : Fin 4 → Nat) a + S1x1x256x256.size a ≤ S9x2x256x256.size a
  inb_S9x2x1x256_S1x1x1x256_8_0_0_0 : ∀ a, (![8, 0, 0, 0] : Fin 4 → Nat) a + S1x1x1x256.size a ≤ S9x2x1x256.size a
  inb_S9x2x1x256_S1x1x1x256_8_1_0_0 : ∀ a, (![8, 1, 0, 0] : Fin 4 → Nat) a + S1x1x1x256.size a ≤ S9x2x1x256.size a
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S1024x128_S1x1024x128 : S1024x128.ShapeCasts S1x1024x128
  slices_S16x1024x128_S16x1024x3_0_0_0 : S16x1024x128.Slices ![0, 0, 0] S16x1024x3
  shapeCasts_S16x1024x3_S16384x3 : S16x1024x3.ShapeCasts S16384x3
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x128_S128x256_S1024x256_1_0_0_1_n_n_wf : DotDims.WF S1024x128 S128x256 S1024x256 [1] [0] [0] [1] [] []
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x1024x128.size a
  hwx0_0 : ∀ i : grid0.Coords, EltTy.bits .f32 = 32 ∨ (Rect.block (s := S16x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x384x256.size a ≤ S2x384x256.size a
  hwx0_10 : ∀ i : grid0.Coords, EltTy.bits .f32 = 32 ∨ (Rect.block (s := S2x384x256) S2x384x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x1x256.size a ≤ S2x1x256.size a
  hwx0_11 : ∀ i : grid0.Coords, EltTy.bits .f32 = 32 ∨ (Rect.block (s := S2x1x256) S2x1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S9x2x256x256.size a ≤ S9x2x256x256.size a
  hwx0_12 : ∀ i : grid0.Coords, EltTy.bits .f32 = 32 ∨ (Rect.block (s := S9x2x256x256) S9x2x256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S9x2x1x256.size a ≤ S9x2x1x256.size a
  hwx0_13 : ∀ i : grid0.Coords, EltTy.bits .f32 = 32 ∨ (Rect.block (s := S9x2x1x256) S9x2x1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .f32 = 32 ∨ (Rect.block (s := S256x128) S256x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x1024x128.size a ≤ S16x1024x128.size a
  hwx0_22 : ∀ i : grid0.Coords, EltTy.bits .f32 = 32 ∨ (Rect.block (s := S16x1024x128) S1x1024x128.size (cc0_transform_22 i) (hinb0_22 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x384x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2x1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S9x2x256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S9x2x1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v1) S1x1024x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== Proof.Spec.lean ====
/-
  The network both programs compute, as ONE function of the argument arrays over the extended reals.

  Per mesh `b` (16 of them), with `X` the mesh's 1024 vertices' coordinates padded by zeros to 128 lanes and `A` its
  1024 × 1024 adjacency:
    four linear layers  h ↦ lrelu (h · W + bias)            (3→512→512→256→256; lrelu x = max x (slope · x)),
    graph convolution 0 h ↦ relu ((h · W0h + X · W0x + b0) + A · (h · W1h + X · W1x + b1)),
    nine graph convolutions h ↦ relu ((h · W0 + b0) + A · (h · W1 + b1)),
    four linear layers (256→128→128→128→128), lrelu after the first three,
  and the result is the first three lanes of the last layer, the meshes' rows stacked: row b · 1024 + v.
  Matrix products are sums over the contracted coordinate in the extended reals; nothing here is rounded.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals by its two coordinates. -/
abbrev Mat (a b : ℕ) := Fin a → Fin b → EReal

/-- The matrix product: entry (p, q) is the sum over the contracted coordinate. -/
def mm {a k b : ℕ} (A : Mat a k) (B : Mat k b) : Mat a b := fun p q => ∑ j : Fin k, A p j * B j q

/-- A row added to every row of a matrix. -/
def addRow {a b : ℕ} (M : Mat a b) (r : Fin b → EReal) : Mat a b := fun p q => M p q + r q

/-- A linear layer: product with the weights, then the bias row. -/
def lin {a k b : ℕ} (h : Mat a k) (W : Mat k b) (r : Fin b → EReal) : Mat a b := addRow (mm h W) r

/-- The leaky slope both programs spell: the f32 nearest to 1/100, read as the real number it denotes. -/
def slope : EReal := Ideal.ofBits .f32 0x3C23D70A#32

/-- Leaky ReLU in its maximum form, entry by entry. -/
def lrelu {a b : ℕ} (M : Mat a b) : Mat a b := fun p q => max (M p q) (slope * M p q)

/-- ReLU, entry by entry. -/
def relu {a b : ℕ} (M : Mat a b) : Mat a b := fun p q => max (M p q) 0

/-- One graph convolution from its two pre-activations: relu (h0 + A · h1). -/
def gmix {a b : ℕ} (A : Mat a a) (h0 h1 : Mat a b) : Mat a b := relu fun p q => h0 p q + mm A h1 p q

/-- A rank-2 array as a matrix. -/
def mat2 {a b : ℕ} (w : (⟨2, ![a, b]⟩ : Shape).Idx → EReal) : Mat a b := fun p q => w (ix2 p q)
/-- A [1, b] array as a row. -/
def row2 {b : ℕ} (w : (⟨2, ![1, b]⟩ : Shape).Idx → EReal) : Fin b → EReal := fun q => w (ix2 0 q)

section Net

variable (verts : (⟨3, ![16, 1024, 3]⟩ : Shape).Idx → EReal) (adj : (⟨3, ![16, 1024, 1024]⟩ : Shape).Idx → EReal)
  (p0 : (⟨2, ![128, 512]⟩ : Shape).Idx → EReal) (p1 : (⟨2, ![1, 512]⟩ : Shape).Idx → EReal)
  (p2 : (⟨2, ![512, 512]⟩ : Shape).Idx → EReal) (p3 : (⟨2, ![1, 512]⟩ : Shape).Idx → EReal)
  (p4 : (⟨2, ![512, 256]⟩ : Shape).Idx → EReal) (p5 : (⟨2, ![1, 256]⟩ : Shape).Idx → EReal)
  (p6 : (⟨2, ![256, 256]⟩ : Shape).Idx → EReal) (p7 : (⟨2, ![1, 256]⟩ : Shape).Idx → EReal)
  (p8 : (⟨3, ![2, 384, 256]⟩ : Shape).Idx → EReal) (p9 : (⟨3, ![2, 1, 256]⟩ : Shape).Idx → EReal)
  (p10 : (⟨4, ![9, 2, 256, 256]⟩ : Shape).Idx → EReal) (p11 : (⟨4, ![9, 2, 1, 256]⟩ : Shape).Idx → EReal)
  (p12 : (⟨2, ![256, 128]⟩ : Shape).Idx → EReal) (p13 : (⟨2, ![1, 128]⟩ : Shape).Idx → EReal)
  (p14 : (⟨2, ![128, 128]⟩ : Shape).Idx → EReal) (p15 : (⟨2, ![1, 128]⟩ : Shape).Idx → EReal)
  (p16 : (⟨2, ![128, 128]⟩ : Shape).Idx → EReal) (p17 : (⟨2, ![1, 128]⟩ : Shape).Idx → EReal)
  (p18 : (⟨2, ![128, 128]⟩ : Shape).Idx → EReal) (p19 : (⟨2, ![1, 128]⟩ : Shape).Idx → EReal)

/-- Mesh `b`'s vertex coordinates, padded with zeros from 3 to 128 lanes. -/
def X (b : Fin 16) : Mat 1024 128 := fun v l => if h : l.val < 3 then verts (ix3 b v ⟨l.val, h⟩) else 0
/-- Mesh `b`'s adjacency. -/
def A (b : Fin 16) : Mat 1024 1024 := fun v u => adj (ix3 b v u)

/-- Graph convolution 0's weights: branch `s`'s rows 0..255 act on the features, rows 256..383 on the padded coordinates. -/
def W0h (s : Fin 2) : Mat 256 256 := fun k n => p8 (ix3 s ⟨k.val, by have := k.isLt; omega⟩ n)
def W0x (s : Fin 2) : Mat 128 256 := fun k n => p8 (ix3 s ⟨256 + k.val, by have := k.isLt; omega⟩ n)
def B0 (s : Fin 2) : Fin 256 → EReal := fun n => p9 (ix3 s 0 n)
/-- Graph convolution `i + 1`'s weights and bias, branch `s`. -/
def Wg (i : Fin 9) (s : Fin 2) : Mat 256 256 := fun k n => p10 (ix4 i s k n)
def Bg (i : Fin 9) (s : Fin 2) : Fin 256 → EReal := fun n => p11 (ix4 i s 0 n)

/-- The first four linear layers of mesh `b`. -/
def mlp1 (b : Fin 16) : Mat 1024 256 :=
  lrelu (lin (lrelu (lin (lrelu (lin (lrelu (lin (X verts b) (mat2 p0) (row2 p1))) (mat2 p2) (row2 p3))) (mat2 p4) (row2 p5)))
    (mat2 p6) (row2 p7))

/-- Graph convolution 0's pre-activation of branch `s`: features and padded coordinates through their own rows of the weights. -/
def pre0 (b : Fin 16) (s : Fin 2) : Mat 1024 256 :=
  addRow (fun p q => mm (mlp1 verts p0 p1 p2 p3 p4 p5 p6 p7 b) (W0h p8 s) p q + mm (X verts b) (W0x p8 s) p q) (B0 p9 s)

/-- After graph convolution 0. -/
def g0 (b : Fin 16) : Mat 1024 256 :=
  gmix (A adj b) (pre0 verts p0 p1 p2 p3 p4 p5 p6 p7 p8 p9 b 0) (pre0 verts p0 p1 p2 p3 p4 p5 p6 p7 p8 p9 b 1)

/-- One of the nine later graph convolutions. -/
def gstep (b : Fin 16) (i : Fin 9) (h : Mat 1024 256) : Mat 1024 256 :=
  gmix (A adj b) (lin h (Wg p10 i 0) (Bg p11 i 0)) (lin h (Wg p10 i 1) (Bg p11 i 1))

/-- After all ten graph convolutions. -/
def gall (b : Fin 16) : Mat 1024 256 :=
  gstep adj p10 p11 b 8 (gstep adj p10 p11 b 7 (gstep adj p10 p11 b 6 (gstep adj p10 p11 b 5 (gstep adj p10 p11 b 4
    (gstep adj p10 p11 b 3 (gstep adj p10 p11 b 2 (gstep adj p10 p11 b 1 (gstep adj p10 p11 b 0
      (g0 verts adj p0 p1 p2 p3 p4 p5 p6 p7 p8 p9 b)))))))))

/-- The last four linear layers: mesh `b`'s 1024 × 128 slab. -/
def slab (b : Fin 16) : Mat 1024 128 :=
  lin (lrelu (lin (lrelu (lin (lrelu (lin (gall verts adj p0 p1 p2 p3 p4 p5 p6 p7 p8 p9 p10 p11 b) (mat2 p12) (row2 p13)))
    (mat2 p14) (row2 p15))) (mat2 p16) (row2 p17))) (mat2 p18) (row2 p19)

/-- The result: row `b · 1024 + v`, lane `j < 3`, is the slab of mesh `b` at (v, j). -/
def G : (⟨2, ![16384, 3]⟩ : Shape).Idx → EReal := fun i =>
  slab verts adj p0 p1 p2 p3 p4 p5 p6 p7 p8 p9 p10 p11 p12 p13 p14 p15 p16 p17 p18 p19
    ⟨(i 0).val / 1024, by have := idx2_lt0 i; omega⟩ ⟨(i 0).val % 1024, Nat.mod_lt _ (by norm_num)⟩
    ⟨(i 1).val, by have := idx2_lt1 i; omega⟩

end Net

end Cert.Spec

end
-- ==== Proof.KRun.lean ====
/-
  The kernel's run, read: the region's result array block by block, then the host operations after the region.

  Point t of the grid's eight writes rows 2t and 2t + 1 of a [16, 1024, 8] array; given that its two stores leave, at
  (μ, v, j), mesh 2t + μ's slab of the network at (v, j) (the hypothesis `SlabHyp`), the array ends holding, at
  (b, v, j), mesh b's slab at (v, j): every row block is some point's (mesh b's is point b / 2's). The slice to the first
  three lanes and the reshape to [16384, 3] then read row b · 1024 + v, lane j, as that slab entry: the specification's `G`.
-/
import proofs.«141170_g2000409237439836_pallaspilot1_247_36_alg».proof.Proof.Gen.KernelIdeal.Frame
import proofs.«141170_g2000409237439836_pallaspilot1_247_36_alg».proof.Proof.Spec
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Mesh `b`'s 1024 × 128 slab of the network, of the argument arrays core `c` was launched with. -/
abbrev slabAt (c : Dev nD) (b : Fin 16) : Cert.Spec.Mat 1024 128 :=
  Cert.Spec.slab (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) b

/-- The specification's result of the argument arrays core `c` was launched with. -/
abbrev GAt (c : Dev nD) : (⟨2, ![16384, 3]⟩ : Shape).Idx → EReal :=
  Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))

/-- The grid has 8 points. -/
theorem hN : cfg0.N = 8 := N_0

/-- A rank-3 index's coordinates are below the extents, the extents written as themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- A matrix entry depends on its coordinates' values only. -/
theorem mat_congr {a b : ℕ} (M : Cert.Spec.Mat a b) {p p' : Fin a} {q q' : Fin b} (hp : p.val = p'.val) (hq : q.val = q'.val) :
    M p q = M p' q' := by rw [Fin.ext hp, Fin.ext hq]

/-- What the region's result array ends holding: element (b, v, j) is mesh `b`'s slab at (v, j), j < 8. -/
def Garr (c : Dev nD) : (⟨3, ![16, 1024, 8]⟩ : Shape).Idx → EReal := fun i =>
  slabAt m c ⟨(i 0).val, idx3_lt0 i⟩ ⟨(i 1).val, idx3_lt1 i⟩ ⟨(i 2).val, by have := idx3_lt2 i; omega⟩

/-- The body's part: at every point `t` the two stores leave, at (μ, v, j), mesh `2t + μ`'s slab at (v, j). -/
def SlabHyp : Prop := ∀ (m : (ℓ : Loc nD τ sig) → Buf (Elt Ideal) ℓ) (c : Dev nD) (t : Fin cfg0.N) (μ : Fin 2) (v : Fin 1024) (j : Fin 8),
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix3 μ v j)
      = slabAt m c ⟨2 * t.val + μ.val, by have := t.isLt; have := hN; have := μ.isLt; omega⟩ v ⟨j.val, by have := j.isLt; omega⟩

/-- The output window's block index at point `t` is `(t, 0, 0)`. -/
theorem idx23 : ∀ t : Fin cfg0.N, win0_23.index t (0 : Fin 3) = t.val ∧ win0_23.index t (1 : Fin 3) = 0 ∧ win0_23.index t (2 : Fin 3) = 0 :=
  (by decide +kernel : ∀ t : Fin grid0.N, _)

/-- What point `t` writes back is block `t` of `Garr`. -/
theorem flushed_eq (H : SlabHyp) (c : Dev nD) (t : Fin cfg0.N) :
    (dats m 0 c).flushed 23 t = ((cfg0.win 23).blk t).view.read (Elt Ideal) (Garr m c) := by
  show (cfg0.win 23).cut (grid0.coords t) ((dats m 0 c).after 23 t) = _
  rw [after0_23]
  funext y
  obtain ⟨μ, v, j, rfl⟩ : ∃ (μ : Fin 2) (v : Fin 1024) (j : Fin 8), y = ix3 μ v j := ⟨y 0, y 1, y 2, eq_ix3 y⟩
  obtain ⟨e0, e1, e2⟩ := idx23 t
  show out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix3 μ v j) = Garr m c (((cfg0.win 23).blk t).view.emb (ix3 μ v j))
  refine (H m c t μ v j).trans ?_
  unfold Garr
  have h0 : ((((cfg0.win 23).blk t).view.emb (ix3 μ v j)) 0).val = 2 * t.val + μ.val := by
    show win0_23.index t (0 : Fin 3) * 2 + 1 * μ.val = _; rw [e0]; omega
  have h1 : ((((cfg0.win 23).blk t).view.emb (ix3 μ v j)) 1).val = v.val := by
    show win0_23.index t (1 : Fin 3) * 1024 + 1 * v.val = _; rw [e1]; omega
  have h2 : ((((cfg0.win 23).blk t).view.emb (ix3 μ v j)) 2).val = j.val := by
    show win0_23.index t (2 : Fin 3) * 8 + 1 * j.val = _; rw [e2]; omega
  exact (congrFun (congrFun (congrArg (slabAt m c) (Fin.ext h0.symm)) _) _).trans (mat_congr _ h1.symm h2.symm)

/-- An index of the result array is in point `t`'s block iff each coordinate is in the block's range on its axis. -/
theorem mem_blk (t : Fin cfg0.N) (i : S16x1024x8.Idx) :
    i ∈ ((cfg0.win 23).blk t).view.set ↔ ∀ a : Fin 3, win0_23.index t a * S2x1024x8.size a ≤ (i a).val ∧ (i a).val < win0_23.index t a * S2x1024x8.size a + S2x1024x8.size a := by
  show i ∈ ((View.whole main_v38).slice (win0_23.rect t)).set ↔ _
  rw [View.set_slice_whole, Rect.mem_set_unit]
  exact Iff.rfl

/-- Mesh `b`'s rows are written by point `b / 2`: the eight blocks cover the array. -/
theorem cover (i : S16x1024x8.Idx) :
    ∃ t : Fin cfg0.N, (cfg0.win 23).flush t = true ∧ i ∈ ((cfg0.win 23).blk t).view.set := by
  have h0 : (i 0).val < 16 := idx3_lt0 i
  have h1 : (i 1).val < 1024 := idx3_lt1 i
  have h2 : (i 2).val < 8 := idx3_lt2 i
  have ht : (i 0).val / 2 < cfg0.N := by rw [hN]; omega
  obtain ⟨e0, e1, e2⟩ := idx23 ⟨(i 0).val / 2, ht⟩
  refine ⟨⟨(i 0).val / 2, ht⟩, flush0_23 _, ?_⟩
  rw [mem_blk]
  intro a
  match a with
  | ⟨0, _⟩ => show win0_23.index ⟨(i 0).val / 2, ht⟩ (0 : Fin 3) * 2 ≤ (i 0).val ∧ (i 0).val < win0_23.index ⟨(i 0).val / 2, ht⟩ (0 : Fin 3) * 2 + 2; rw [e0]; show (i 0).val / 2 * 2 ≤ (i 0).val ∧ (i 0).val < (i 0).val / 2 * 2 + 2; omega
  | ⟨1, _⟩ => show win0_23.index ⟨(i 0).val / 2, ht⟩ (1 : Fin 3) * 1024 ≤ (i 1).val ∧ (i 1).val < win0_23.index ⟨(i 0).val / 2, ht⟩ (1 : Fin 3) * 1024 + 1024; rw [e1]; omega
  | ⟨2, _⟩ => show win0_23.index ⟨(i 0).val / 2, ht⟩ (2 : Fin 3) * 8 ≤ (i 2).val ∧ (i 2).val < win0_23.index ⟨(i 0).val / 2, ht⟩ (2 : Fin 3) * 8 + 8; rw [e2]; omega

/-- The region's result array after the run. -/
theorem final (H : SlabHyp) (c : Dev nD) : (dats m 0 c).arrAt 23 cfg0.N = Garr m c :=
  (dats m 0 c).arrAt_eq_of_cover 23 (Garr m c) (fun t _ => flushed_eq m H c t) cover

/-- The host operations after the region: the first three lanes, the meshes' rows stacked. -/
theorem tail_eq (H : SlabHyp) (c : Dev nD) :
    Pipeline.afterTail₀ cfgs (dats m) 0 (V0 m) [hostOps1] c main_v40 = GAt m c := by
  unfold Pipeline.afterTail₀
  show StableHlo.after hostOps1 _ (Proc.devRef .tc main_v40) = _
  after_results
  funext i
  obtain ⟨r, l, rfl⟩ : ∃ (r : Fin 16384) (l : Fin 3), i = ix2 r l := ⟨i 0, i 1, eq_ix2 i⟩
  show shapeCast S16384x3 (extractStridedSlice S16x1024x3 ![0, 0, 0] (_ : S16x1024x8.Idx → EReal) slices_S16x1024x8_S16x1024x3_0_0_0) shapeCasts_S16x1024x3_S16384x3 (ix2 r l) = _
  have hr : r.val < 16384 := r.isLt
  have hl : l.val < 3 := l.isLt
  -- the reshape: flat row r is mesh r / 1024, vertex r % 1024
  refine (shapeCast_apply _ shapeCasts_S16x1024x3_S16384x3 (ix2 r l)
    (ix3 (⟨r.val / 1024, by omega⟩ : Fin 16) (⟨r.val % 1024, Nat.mod_lt _ (by norm_num)⟩ : Fin 1024) l) ?_).trans ?_
  · rw [Shape.rowMajor_val_three, Shape.rowMajor_val_two]
    show (r.val / 1024 * 1024 + r.val % 1024) * 3 + l.val = r.val * 3 + l.val
    omega
  -- the slice keeps lanes 0, 1, 2
  refine (extractStridedSlice_apply _ _ slices_S16x1024x8_S16x1024x3_0_0_0 _
    (ix3 (⟨r.val / 1024, by omega⟩ : Fin 16) (⟨r.val % 1024, Nat.mod_lt _ (by norm_num)⟩ : Fin 1024) (⟨l.val, by omega⟩ : Fin 8)) ?_).trans ?_
  · intro a
    match a with
    | ⟨0, _⟩ => show r.val / 1024 = 0 + r.val / 1024; omega
    | ⟨1, _⟩ => show r.val % 1024 = 0 + r.val % 1024; omega
    | ⟨2, _⟩ => show l.val = 0 + l.val; omega
  -- the region's result array
  refine (congrFun ((Pipeline.withArrays_arr spec0 winFacts0.arr_inj c (V0 m c) _ 23).trans (final m H c)) _).trans ?_
  rfl

/-- THE KERNEL'S RUN, READ: the result is the specification's `G` of the arguments, the arguments unchanged. -/
theorem run_of (H : SlabHyp) :
    θ_run (defs (F := Ideal)) (onTc (τ := τ) (main (F := Ideal))) ⟨m, fun _ => 0, ρ⟩ (fun r => ∀ c : Dev nD,
      r.2.mem ((c.tc : Thread nD τ).loc main_v40) = GAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_v40 (Pipeline.mem_restRefs_of main_v40 (by decide) (by decide))).trans (tail_eq m H c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).1 16).trans (((dats m 0 c).arrAt_in 16 rfl _).trans ((A_eq m c 16).trans (V_main_arg15 m c))),
      ((h c).2 main_arg16 (Pipeline.mem_restRefs_of main_arg16 (by decide) (by decide))).trans (W_main_arg16 m (dats m) c),
      ((h c).1 18).trans (((dats m 0 c).arrAt_in 18 rfl _).trans ((A_eq m c 18).trans (V_main_arg17 m c))),
      ((h c).2 main_arg18 (Pipeline.mem_restRefs_of main_arg18 (by decide) (by decide))).trans (W_main_arg18 m (dats m) c),
      ((h c).1 20).trans (((dats m 0 c).arrAt_in 20 rfl _).trans ((A_eq m c 20).trans (V_main_arg19 m c))),
      ((h c).2 main_arg20 (Pipeline.mem_restRefs_of main_arg20 (by decide) (by decide))).trans (W_main_arg20 m (dats m) c),
      ((h c).1 22).trans (((dats m 0 c).arrAt_in 22 rfl _).trans ((A_eq m c 22).trans (V_main_arg21 m c)))⟩)
    (run_main m ρ)

end Cert.KernelIdeal.KValue

end
-- ==== Proof.RefNet.lean ====
/-
  The reference body regrouped into layers. The printed body of the reference is one chain of vector operations, cut by
  count into chunks; here the same operations, in the same order, are grouped as the network's layers: a linear layer
  (a matrix product into the zero accumulator plus the broadcast bias row), the leaky ReLU in its compare-and-select form,
  the ReLU as a maximum with the zero splat, graph convolution 0 (its weights split by rows into the part acting on the
  features and the part acting on the padded coordinates), a later graph convolution, and the stacks of these. The chunks
  are chains of local definitions, so the store's payload IS this composition, by unfolding.
-/
import proofs.«141170_g2000409237439836_pallaspilot1_247_36_alg».proof.Proof.Gen.ReferenceIdeal.Frame
import Idealize.ShloMosaic.PureOps.Ideal

set_option maxRecDepth 16384

noncomputable section

namespace Cert.ReferenceIdeal.RefNet

open Cert.ReferenceIdeal Cert.ReferenceIdeal.Gen Idealize.ShloMosaic Idealize.SL.Sem

/-- The leaky ReLU as the program spells it: where z ≥ 0 take z, elsewhere slope · z. -/
def lre {s : Shape} (z : FVec Ideal s .f32) : FVec Ideal s .f32 :=
  select (cmpf .oge z (broadcast s (Scalar.ofBits .f32 0x00000000#32))) z (mulf (broadcast s (Scalar.ofBits .f32 0x3C23D70A#32)) z)

/-- The ReLU as the program spells it: the maximum with the zero splat. -/
def vrelu {s : Shape} (z : FVec Ideal s .f32) : FVec Ideal s .f32 :=
  maximumf z (broadcast s (Scalar.ofBits .f32 0x00000000#32))

/-- A matrix product into the zero accumulator. -/
def zmm {sl sr so : Shape} (D : DotDims sl sr so) (h : FVec Ideal sl .f32) (w : FVec Ideal sr .f32) : FVec Ideal so .f32 :=
  matmul D none h w (constant so .f32 0x00000000#32)

/-- A linear layer: the product plus the bias row broadcast over the rows. -/
def zlin {sl sr sb so : Shape} (D : DotDims sl sr so) (hb : sb.Broadcasts so) (h : FVec Ideal sl .f32) (w : FVec Ideal sr .f32)
    (b : FVec Ideal sb .f32) : FVec Ideal so .f32 :=
  addf (zmm D h w) (broadcastTo so b hb)

/-- The first four linear layers, each followed by the leaky ReLU. -/
def mlp1V (x : FVec Ideal S1024x128 .f32) (w0 : FVec Ideal S128x512 .f32) (b0 : FVec Ideal S1x512 .f32) (w1 : FVec Ideal S512x512 .f32)
    (b1 : FVec Ideal S1x512 .f32) (w2 : FVec Ideal S512x256 .f32) (b2 : FVec Ideal S1x256 .f32) (w3 : FVec Ideal S256x256 .f32)
    (b3 : FVec Ideal S1x256 .f32) : FVec Ideal S1024x256 .f32 :=
  lre (zlin dot_S1024x256_S256x256_S1024x256_1_0_0_1_n_n broadcasts_S1x256_S1024x256
    (lre (zlin dot_S1024x512_S512x256_S1024x256_1_0_0_1_n_n broadcasts_S1x256_S1024x256
      (lre (zlin dot_S1024x512_S512x512_S1024x512_1_0_0_1_n_n broadcasts_S1x512_S1024x512
        (lre (zlin dot_S1024x128_S128x512_S1024x512_1_0_0_1_n_n broadcasts_S1x512_S1024x512 x w0 b0)) w1 b1)) w2 b2)) w3 b3)

/-- One branch of graph convolution 0 before the bias: the features through rows 0..255 of the branch's weights plus the
    padded coordinates through rows 256..383. -/
def g0pre (x : FVec Ideal S1024x128 .f32) (h : FVec Ideal S1024x256 .f32) (w : Vec Ideal S1x384x256 .f32) (b : Vec Ideal S1x1x256 .f32) :
    FVec Ideal S1024x256 .f32 :=
  addf (addf (zmm dot_S1024x256_S256x256_S1024x256_1_0_0_1_n_n h
        (extractStridedSlice S256x256 ![0, 0] (shapeCast S384x256 w shapeCasts_S1x384x256_S384x256) slices_S384x256_o0_0_S256x256))
      (zmm dot_S1024x128_S128x256_S1024x256_1_0_0_1_n_n x
        (extractStridedSlice S128x256 ![256, 0] (shapeCast S384x256 w shapeCasts_S1x384x256_S384x256) slices_S384x256_o256_0_S128x256)))
    (broadcastTo S1024x256 (shapeCast S1x256 b shapeCasts_S1x1x256_S1x256) broadcasts_S1x256_S1024x256)

/-- Graph convolution 0: relu (branch 0 + adjacency · branch 1). -/
def g0V (x : FVec Ideal S1024x128 .f32) (adj : FVec Ideal S1024x1024 .f32) (h : FVec Ideal S1024x256 .f32)
    (wa wb : Vec Ideal S1x384x256 .f32) (ba bb : Vec Ideal S1x1x256 .f32) : FVec Ideal S1024x256 .f32 :=
  vrelu (addf (g0pre x h wa ba) (zmm dot_S1024x1024_S1024x256_S1024x256_1_0_0_1_n_n adj (g0pre x h wb bb)))

/-- A later graph convolution on its loaded blocks: relu ((h · W0 + b0) + adjacency · (h · W1 + b1)). -/
def gcv (adj : FVec Ideal S1024x1024 .f32) (h : FVec Ideal S1024x256 .f32) (w0 w1 : Vec Ideal S1x1x256x256 .f32)
    (b0 b1 : Vec Ideal S1x1x1x256 .f32) : FVec Ideal S1024x256 .f32 :=
  vrelu (addf
    (zlin dot_S1024x256_S256x256_S1024x256_1_0_0_1_n_n broadcasts_S1x256_S1024x256 h
      (shapeCast S256x256 w0 shapeCasts_S1x1x256x256_S256x256) (shapeCast S1x256 b0 shapeCasts_S1x1x1x256_S1x256))
    (zmm dot_S1024x1024_S1024x256_S1024x256_1_0_0_1_n_n adj
      (zlin dot_S1024x256_S256x256_S1024x256_1_0_0_1_n_n broadcasts_S1x256_S1024x256 h
        (shapeCast S256x256 w1 shapeCasts_S1x1x256x256_S256x256) (shapeCast S1x256 b1 shapeCasts_S1x1x1x256_S1x256))))

/-- The nine later graph convolutions, each on its own blocks of the stacked weights and biases. -/
def gallV (adj : FVec Ideal S1024x1024 .f32) (h : FVec Ideal S1024x256 .f32) (x12 : Vec Ideal S9x2x256x256 .f32)
    (x13 : Vec Ideal S9x2x1x256 .f32) : FVec Ideal S1024x256 .f32 :=
  (gcv adj (gcv adj (gcv adj (gcv adj (gcv adj (gcv adj (gcv adj (gcv adj (gcv adj h (View.ld x12 r0_12) (View.ld x12 r0_13) (View.ld x13 r0_14) (View.ld x13 r0_15)) (View.ld x12 r0_16) (View.ld x12 r0_17) (View.ld x13 r0_18) (View.ld x13 r0_19)) (View.ld x12 r0_20) (View.ld x12 r0_21) (View.ld x13 r0_22) (View.ld x13 r0_23)) (View.ld x12 r0_24) (View.ld x12 r0_25) (View.ld x13 r0_26) (View.ld x13 r0_27)) (View.ld x12 r0_28) (View.ld x12 r0_29) (View.ld x13 r0_30) (View.ld x13 r0_31)) (View.ld x12 r0_32) (View.ld x12 r0_33) (View.ld x13 r0_34) (View.ld x13 r0_35)) (View.ld x12 r0_36) (View.ld x12 r0_37) (View.ld x13 r0_38) (View.ld x13 r0_39)) (View.ld x12 r0_40) (View.ld x12 r0_41) (View.ld x13 r0_42) (View.ld x13 r0_43)) (View.ld x12 r0_44) (View.ld x12 r0_45) (View.ld x13 r0_46) (View.ld x13 r0_47))

/-- The last four linear layers, the leaky ReLU after the first three. -/
def mlp3V (h : FVec Ideal S1024x256 .f32) (w0 : FVec Ideal S256x128 .f32) (b0 : FVec Ideal S1x128 .f32) (w1 : FVec Ideal S128x128 .f32)
    (b1 : FVec Ideal S1x128 .f32) (w2 : FVec Ideal S128x128 .f32) (b2 : FVec Ideal S1x128 .f32) (w3 : FVec Ideal S128x128 .f32)
    (b3 : FVec Ideal S1x128 .f32) : FVec Ideal S1024x128 .f32 :=
  zlin dot_S1024x128_S128x128_S1024x128_1_0_0_1_n_n broadcasts_S1x128_S1024x128
    (lre (zlin dot_S1024x128_S128x128_S1024x128_1_0_0_1_n_n broadcasts_S1x128_S1024x128
      (lre (zlin dot_S1024x128_S128x128_S1024x128_1_0_0_1_n_n broadcasts_S1x128_S1024x128
        (lre (zlin dot_S1024x256_S256x128_S1024x128_1_0_0_1_n_n broadcasts_S1x128_S1024x128 h w0 b0)) w1 b1)) w2 b2)) w3 b3

/-- The mesh's padded coordinates and adjacency as matrices: the loaded [1, ·, ·] blocks with the unit axis dropped. -/
def xV (x0 : Vec Ideal S1x1024x128 .f32) : FVec Ideal S1024x128 .f32 :=
  shapeCast S1024x128 (View.ld x0 r0_0) shapeCasts_S1x1024x128_S1024x128
def adjV (x1 : Vec Ideal S1x1024x1024 .f32) : FVec Ideal S1024x1024 .f32 :=
  shapeCast S1024x1024 (View.ld x1 r0_1) shapeCasts_S1x1024x1024_S1024x1024

/-- The mesh's slab as a matrix, from the windows' contents. -/
def netV (x0 : Vec Ideal S1x1024x128 .f32) (x1 : Vec Ideal S1x1024x1024 .f32) (x2 : Vec Ideal S128x512 .f32) (x3 : Vec Ideal S1x512 .f32) (x4 : Vec Ideal S512x512 .f32) (x5 : Vec Ideal S1x512 .f32) (x6 : Vec Ideal S512x256 .f32) (x7 : Vec Ideal S1x256 .f32) (x8 : Vec Ideal S256x256 .f32) (x9 : Vec Ideal S1x256 .f32) (x10 : Vec Ideal S2x384x256 .f32) (x11 : Vec Ideal S2x1x256 .f32) (x12 : Vec Ideal S9x2x256x256 .f32) (x13 : Vec Ideal S9x2x1x256 .f32) (x14 : Vec Ideal S256x128 .f32) (x15 : Vec Ideal S1x128 .f32) (x16 : Vec Ideal S128x128 .f32) (x17 : Vec Ideal S1x128 .f32) (x18 : Vec Ideal S128x128 .f32) (x19 : Vec Ideal S1x128 .f32) (x20 : Vec Ideal S128x128 .f32) (x21 : Vec Ideal S1x128 .f32) : FVec Ideal S1024x128 .f32 :=
  mlp3V (gallV (adjV x1)
      (g0V (xV x0) (adjV x1)
        (mlp1V (xV x0) (View.ld x2 r0_2) (View.ld x3 r0_3) (View.ld x4 r0_4) (View.ld x5 r0_3) (View.ld x6 r0_5) (View.ld x7 r0_6)
          (View.ld x8 r0_7) (View.ld x9 r0_6))
        (View.ld x10 r0_8) (View.ld x10 r0_9) (View.ld x11 r0_10) (View.ld x11 r0_11))
      x12 x13)
    (View.ld x14 r0_48) (View.ld x15 r0_49) (View.ld x16 r0_50) (View.ld x17 r0_49) (View.ld x18 r0_50) (View.ld x19 r0_49)
    (View.ld x20 r0_50) (View.ld x21 r0_49)

/-- What the body's one store leaves in the output window's buffer is the network of the windows' contents, with the
    unit axis put back: the chunks' local definitions unfold to the layers. -/
theorem out_eq (x0 : Vec Ideal S1x1024x128 .f32) (x1 : Vec Ideal S1x1024x1024 .f32) (x2 : Vec Ideal S128x512 .f32) (x3 : Vec Ideal S1x512 .f32) (x4 : Vec Ideal S512x512 .f32) (x5 : Vec Ideal S1x512 .f32) (x6 : Vec Ideal S512x256 .f32) (x7 : Vec Ideal S1x256 .f32) (x8 : Vec Ideal S256x256 .f32) (x9 : Vec Ideal S1x256 .f32) (x10 : Vec Ideal S2x384x256 .f32) (x11 : Vec Ideal S2x1x256 .f32) (x12 : Vec Ideal S9x2x256x256 .f32) (x13 : Vec Ideal S9x2x1x256 .f32) (x14 : Vec Ideal S256x128 .f32) (x15 : Vec Ideal S1x128 .f32) (x16 : Vec Ideal S128x128 .f32) (x17 : Vec Ideal S1x128 .f32) (x18 : Vec Ideal S128x128 .f32) (x19 : Vec Ideal S1x128 .f32) (x20 : Vec Ideal S128x128 .f32) (x21 : Vec Ideal S1x128 .f32) :
    out0_22 (F := Ideal) x0 x1 x2 x3 x4 x5 x6 x7 x8 x9 x10 x11 x12 x13 x14 x15 x16 x17 x18 x19 x20 x21
      = View.canon [⟨r0_0, (shapeCast S1x1024x128 (netV x0 x1 x2 x3 x4 x5 x6 x7 x8 x9 x10 x11 x12 x13 x14 x15 x16 x17 x18 x19 x20 x21) shapeCasts_S1024x128_S1x1024x128 : FVec Ideal S1x1024x128 .f32)⟩] :=
  rfl

end Cert.ReferenceIdeal.RefNet

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.RefLayers.lean ====
/-
  The layers read as matrices. With a rank-2 array read as the matrix of its entries, each layer of the regrouped body is
  the corresponding layer of the specification: a matrix product into the zero accumulator is the sum over the contracted
  coordinate; the bias broadcast adds the bias row to every row; the compare-and-select leaky ReLU is the maximum of x and
  slope · x, because 0 ≤ slope ≤ 1 (for x ≥ 0, slope · x ≤ x; for x < 0, x ≤ slope · x; at the two infinities both forms
  agree since slope > 0 or the product is 0); the maximum with the zero splat is the ReLU.
-/
import proofs.«141170_g2000409237439836_pallaspilot1_247_36_alg».proof.Proof.RefNet
import proofs.«141170_g2000409237439836_pallaspilot1_247_36_alg».proof.Proof.Spec
import proofs.«141170_g2000409237439836_pallaspilot1_247_36_alg».proof.Proof.LibMat

set_option maxRecDepth 16384

noncomputable section

open scoped BigOperators

namespace Cert.ReferenceIdeal.RefLayers

open Cert.ReferenceIdeal Cert.ReferenceIdeal.Gen Cert.ReferenceIdeal.RefNet Idealize.ShloMosaic Idealize.ShloMosaic.ValueIdx Cert.Spec

/-- The slope's pattern denotes the real 10737418 / 2 ^ 30. -/
theorem slope_eq : Spec.slope = ((10737418 / 2 ^ 30 : ℝ) : EReal) := by
  unfold Spec.slope
  simp [Ideal.ofBits, Ideal.ieee, -EReal.coe_mul]
  norm_num

/-- The slope is a real between 0 and 1. -/
theorem slope_real : ∃ r : ℝ, Spec.slope = (r : EReal) ∧ 0 ≤ r ∧ r ≤ 1 :=
  ⟨10737418 / 2 ^ 30, slope_eq, by norm_num, by norm_num⟩

/-- For x ≥ 0 and 0 ≤ r ≤ 1, r · x ≤ x in the extended reals. -/
theorem mul_le_self_of_nonneg {r : ℝ} (h0 : 0 ≤ r) (h1 : r ≤ 1) (x : EReal) (hx : 0 ≤ x) : (r : EReal) * x ≤ x := by
  induction x using EReal.rec with
  | bot => exact absurd hx (by simp)
  | coe y =>
    have hy : 0 ≤ y := by exact_mod_cast hx
    rw [← EReal.coe_mul]
    exact_mod_cast (by nlinarith : r * y ≤ y)
  | top => exact le_top

/-- For x < 0 and 0 ≤ r ≤ 1, x ≤ r · x in the extended reals. -/
theorem self_le_mul_of_neg {r : ℝ} (h0 : 0 ≤ r) (h1 : r ≤ 1) (x : EReal) (hx : ¬ (0 : EReal) ≤ x) : x ≤ (r : EReal) * x := by
  induction x using EReal.rec with
  | bot => exact bot_le
  | coe y =>
    have hy : y < 0 := by
      by_contra h
      exact hx (by exact_mod_cast (not_lt.mp h))
    rw [← EReal.coe_mul]
    exact_mod_cast (by nlinarith : y ≤ r * y)
  | top => exact absurd le_top hx

/-- The compare-and-select leaky ReLU of one entry is the maximum of the entry and slope times it. -/
theorem lre_scalar (x : EReal) : Scalar.select (Ideal.cmp .oge x 0) x (Spec.slope * x) = max x (Spec.slope * x) := by
  obtain ⟨r, hr, h0, h1⟩ := slope_real
  rw [hr]
  by_cases h : (0 : EReal) ≤ x
  · have e : Ideal.cmp .oge x 0 = 1#1 := by simp [Ideal.cmp, h]
    rw [e, select_one, max_eq_left (mul_le_self_of_nonneg h0 h1 x h)]
  · have e : Ideal.cmp .oge x 0 = 0#1 := by simp [Ideal.cmp, h]
    rw [e, select_zero, max_eq_right (self_le_mul_of_neg h0 h1 x h)]

/-- The leaky ReLU layer as a matrix. -/
theorem mat2_lre {a b : ℕ} (z : FVec Ideal ⟨2, ![a, b]⟩ .f32) : mat2 (lre z) = lrelu (mat2 z) := by
  funext p q
  show Scalar.select (Ideal.cmp .oge (z (ix2 p q)) (Ideal.ofBits .f32 0x00000000#32)) (z (ix2 p q))
      (Ideal.ofBits .f32 0x3C23D70A#32 * z (ix2 p q)) = max (z (ix2 p q)) (Spec.slope * z (ix2 p q))
  rw [Ideal.ofBits_zero_f32]
  exact lre_scalar _

/-- The ReLU layer as a matrix. -/
theorem mat2_vrelu {a b : ℕ} (z : FVec Ideal ⟨2, ![a, b]⟩ .f32) : mat2 (vrelu z) = relu (mat2 z) := by
  funext p q
  show max (z (ix2 p q)) (Ideal.ofBits .f32 0x00000000#32) = max (z (ix2 p q)) 0
  rw [Ideal.ofBits_zero_f32]

/-- An entrywise sum as a matrix. -/
theorem mat2_addf {a b : ℕ} (u v : FVec Ideal ⟨2, ![a, b]⟩ .f32) : mat2 (addf u v) = fun p q => mat2 u p q + mat2 v p q := rfl

/-! ## The matrix products, one statement per printed dimension record -/

theorem mat2_zmm_S1024x128_S128x512_S1024x512 (h : FVec Ideal S1024x128 .f32) (W : FVec Ideal S128x512 .f32) :
    mat2 (zmm dot_S1024x128_S128x512_S1024x512_1_0_0_1_n_n h W) = mm (mat2 h) (mat2 W) :=
  funext fun p => funext fun q => LibMat.matmul_plain_apply dot_S1024x128_S128x512_S1024x512_1_0_0_1_n_n_wf none h W p q
theorem mat2_zmm_S1024x512_S512x512_S1024x512 (h : FVec Ideal S1024x512 .f32) (W : FVec Ideal S512x512 .f32) :
    mat2 (zmm dot_S1024x512_S512x512_S1024x512_1_0_0_1_n_n h W) = mm (mat2 h) (mat2 W) :=
  funext fun p => funext fun q => LibMat.matmul_plain_apply dot_S1024x512_S512x512_S1024x512_1_0_0_1_n_n_wf none h W p q
theorem mat2_zmm_S1024x512_S512x256_S1024x256 (h : FVec Ideal S1024x512 .f32) (W : FVec Ideal S512x256 .f32) :
    mat2 (zmm dot_S1024x512_S512x256_S1024x256_1_0_0_1_n_n h W) = mm (mat2 h) (mat2 W) :=
  funext fun p => funext fun q => LibMat.matmul_plain_apply dot_S1024x512_S512x256_S1024x256_1_0_0_1_n_n_wf none h W p q
theorem mat2_zmm_S1024x256_S256x256_S1024x256 (h : FVec Ideal S1024x256 .f32) (W : FVec Ideal S256x256 .f32) :
    mat2 (zmm dot_S1024x256_S256x256_S1024x256_1_0_0_1_n_n h W) = mm (mat2 h) (mat2 W) :=
  funext fun p => funext fun q => LibMat.matmul_plain_apply dot_S1024x256_S256x256_S1024x256_1_0_0_1_n_n_wf none h W p q
theorem mat2_zmm_S1024x128_S128x256_S1024x256 (h : FVec Ideal S1024x128 .f32) (W : FVec Ideal S128x256 .f32) :
    mat2 (zmm dot_S1024x128_S128x256_S1024x256_1_0_0_1_n_n h W) = mm (mat2 h) (mat2 W) :=
  funext fun p => funext fun q => LibMat.matmul_plain_apply dot_S1024x128_S128x256_S1024x256_1_0_0_1_n_n_wf none h W p q
theorem mat2_zmm_S1024x1024_S1024x256_S1024x256 (h : FVec Ideal S1024x1024 .f32) (W : FVec Ideal S1024x256 .f32) :
    mat2 (zmm dot_S1024x1024_S1024x256_S1024x256_1_0_0_1_n_n h W) = mm (mat2 h) (mat2 W) :=
  funext fun p => funext fun q => LibMat.matmul_plain_apply dot_S1024x1024_S1024x256_S1024x256_1_0_0_1_n_n_wf none h W p q
theorem mat2_zmm_S1024x256_S256x128_S1024x128 (h : FVec Ideal S1024x256 .f32) (W : FVec Ideal S256x128 .f32) :
    mat2 (zmm dot_S1024x256_S256x128_S1024x128_1_0_0_1_n_n h W) = mm (mat2 h) (mat2 W) :=
  funext fun p => funext fun q => LibMat.matmul_plain_apply dot_S1024x256_S256x128_S1024x128_1_0_0_1_n_n_wf none h W p q
theorem mat2_zmm_S1024x128_S128x128_S1024x128 (h : FVec Ideal S1024x128 .f32) (W : FVec Ideal S128x128 .f32) :
    mat2 (zmm dot_S1024x128_S128x128_S1024x128_1_0_0_1_n_n h W) = mm (mat2 h) (mat2 W) :=
  funext fun p => funext fun q => LibMat.matmul_plain_apply dot_S1024x128_S128x128_S1024x128_1_0_0_1_n_n_wf none h W p q

/-- A linear layer as a matrix, given its product as one. -/
theorem mat2_zlin {m k n : ℕ} (D : DotDims ⟨2, ![m, k]⟩ ⟨2, ![k, n]⟩ ⟨2, ![m, n]⟩)
    (hD : ∀ (h : FVec Ideal ⟨2, ![m, k]⟩ .f32) (W : FVec Ideal ⟨2, ![k, n]⟩ .f32), mat2 (zmm D h W) = mm (mat2 h) (mat2 W))
    (hb : (⟨2, ![1, n]⟩ : Shape).Broadcasts ⟨2, ![m, n]⟩) (h : FVec Ideal ⟨2, ![m, k]⟩ .f32) (W : FVec Ideal ⟨2, ![k, n]⟩ .f32)
    (b : FVec Ideal ⟨2, ![1, n]⟩ .f32) : mat2 (zlin D hb h W b) = lin (mat2 h) (mat2 W) (row2 b) := by
  funext p q
  show zmm D h W (ix2 p q) + broadcastTo ⟨2, ![m, n]⟩ b hb (ix2 p q) = mm (mat2 h) (mat2 W) p q + b (ix2 0 q)
  rw [broadcastTo_1b_ab_apply]
  exact congrArg (· + b (ix2 (0 : Fin 1) q)) (congrFun (congrFun (hD h W) p) q)

end Cert.ReferenceIdeal.RefLayers

end
-- ==== Proof.RefMat.lean ====
/-
  The regrouped body as a function of matrices. The specification's per-mesh network is restated over an abstract
  coordinate matrix X and adjacency matrix A (the specification instantiates them at a mesh of the argument arrays), and
  the vector-level network of the windows' contents is shown to be that function of the contents read as matrices:
  a [1, a, b] block with its unit axis dropped is the matrix of its entries; a [1, 1, 256, 256] block of the stacked
  weights loaded at (i, s, 0, 0) is the matrix Wg i s; a [1, 384, 256] block of graph convolution 0's weights loaded at
  (s, 0, 0) splits by rows into W0h s (rows 0..255) and W0x s (rows 256..383).
-/
import proofs.«141170_g2000409237439836_pallaspilot1_247_36_alg».proof.Proof.RefLayers

set_option maxRecDepth 16384

noncomputable section

open scoped BigOperators

namespace Cert.ReferenceIdeal.RefMat

open Cert.ReferenceIdeal Cert.ReferenceIdeal.Gen Cert.ReferenceIdeal.RefNet Cert.ReferenceIdeal.RefLayers
open Idealize.ShloMosaic Idealize.ShloMosaic.ValueIdx Cert.Spec

/-! ## The network over an abstract mesh -/

section NetM
variable (X : Mat 1024 128) (A : Mat 1024 1024) (p0 : (⟨2, ![128, 512]⟩ : Shape).Idx → EReal) (p1 : (⟨2, ![1, 512]⟩ : Shape).Idx → EReal) (p2 : (⟨2, ![512, 512]⟩ : Shape).Idx → EReal) (p3 : (⟨2, ![1, 512]⟩ : Shape).Idx → EReal) (p4 : (⟨2, ![512, 256]⟩ : Shape).Idx → EReal) (p5 : (⟨2, ![1, 256]⟩ : Shape).Idx → EReal) (p6 : (⟨2, ![256, 256]⟩ : Shape).Idx → EReal) (p7 : (⟨2, ![1, 256]⟩ : Shape).Idx → EReal) (p8 : (⟨3, ![2, 384, 256]⟩ : Shape).Idx → EReal) (p9 : (⟨3, ![2, 1, 256]⟩ : Shape).Idx → EReal) (p10 : (⟨4, ![9, 2, 256, 256]⟩ : Shape).Idx → EReal) (p11 : (⟨4, ![9, 2, 1, 256]⟩ : Shape).Idx → EReal) (p12 : (⟨2, ![256, 128]⟩ : Shape).Idx → EReal) (p13 : (⟨2, ![1, 128]⟩ : Shape).Idx → EReal) (p14 : (⟨2, ![128, 128]⟩ : Shape).Idx → EReal) (p15 : (⟨2, ![1, 128]⟩ : Shape).Idx → EReal) (p16 : (⟨2, ![128, 128]⟩ : Shape).Idx → EReal) (p17 : (⟨2, ![1, 128]⟩ : Shape).Idx → EReal) (p18 : (⟨2, ![128, 128]⟩ : Shape).Idx → EReal) (p19 : (⟨2, ![1, 128]⟩ : Shape).Idx → EReal)

def mlp1M : Mat 1024 256 :=
  lrelu (lin (lrelu (lin (lrelu (lin (lrelu (lin X (mat2 p0) (row2 p1))) (mat2 p2) (row2 p3))) (mat2 p4) (row2 p5))) (mat2 p6) (row2 p7))
def pre0M (h : Mat 1024 256) (s : Fin 2) : Mat 1024 256 :=
  addRow (fun p q => mm h (W0h p8 s) p q + mm X (W0x p8 s) p q) (B0 p9 s)
def g0M (h : Mat 1024 256) : Mat 1024 256 := gmix A (pre0M X p8 p9 h 0) (pre0M X p8 p9 h 1)
def gstepM (i : Fin 9) (h : Mat 1024 256) : Mat 1024 256 :=
  gmix A (lin h (Wg p10 i 0) (Bg p11 i 0)) (lin h (Wg p10 i 1) (Bg p11 i 1))
def gallM (h : Mat 1024 256) : Mat 1024 256 :=
  (gstepM A p10 p11 8 (gstepM A p10 p11 7 (gstepM A p10 p11 6 (gstepM A p10 p11 5 (gstepM A p10 p11 4 (gstepM A p10 p11 3 (gstepM A p10 p11 2 (gstepM A p10 p11 1 (gstepM A p10 p11 0 h)))))))))
def mlp3M (h : Mat 1024 256) : Mat 1024 128 :=
  lin (lrelu (lin (lrelu (lin (lrelu (lin h (mat2 p12) (row2 p13))) (mat2 p14) (row2 p15))) (mat2 p16) (row2 p17))) (mat2 p18) (row2 p19)
/-- The slab of a mesh with coordinate matrix X and adjacency A. -/
def netM : Mat 1024 128 :=
  mlp3M p12 p13 p14 p15 p16 p17 p18 p19 (gallM A p10 p11 (g0M X A p8 p9 (mlp1M X p0 p1 p2 p3 p4 p5 p6 p7)))

end NetM

/-- The specification's slab of mesh b is the network at that mesh's matrices. -/
theorem slab_eq (verts : (⟨3, ![16, 1024, 3]⟩ : Shape).Idx → EReal) (adj : (⟨3, ![16, 1024, 1024]⟩ : Shape).Idx → EReal)
    (p0 : (⟨2, ![128, 512]⟩ : Shape).Idx → EReal) (p1 : (⟨2, ![1, 512]⟩ : Shape).Idx → EReal) (p2 : (⟨2, ![512, 512]⟩ : Shape).Idx → EReal) (p3 : (⟨2, ![1, 512]⟩ : Shape).Idx → EReal) (p4 : (⟨2, ![512, 256]⟩ : Shape).Idx → EReal) (p5 : (⟨2, ![1, 256]⟩ : Shape).Idx → EReal) (p6 : (⟨2, ![256, 256]⟩ : Shape).Idx → EReal) (p7 : (⟨2, ![1, 256]⟩ : Shape).Idx → EReal) (p8 : (⟨3, ![2, 384, 256]⟩ : Shape).Idx → EReal) (p9 : (⟨3, ![2, 1, 256]⟩ : Shape).Idx → EReal) (p10 : (⟨4, ![9, 2, 256, 256]⟩ : Shape).Idx → EReal) (p11 : (⟨4, ![9, 2, 1, 256]⟩ : Shape).Idx → EReal) (p12 : (⟨2, ![256, 128]⟩ : Shape).Idx → EReal) (p13 : (⟨2, ![1, 128]⟩ : Shape).Idx → EReal) (p14 : (⟨2, ![128, 128]⟩ : Shape).Idx → EReal) (p15 : (⟨2, ![1, 128]⟩ : Shape).Idx → EReal) (p16 : (⟨2, ![128, 128]⟩ : Shape).Idx → EReal) (p17 : (⟨2, ![1, 128]⟩ : Shape).Idx → EReal) (p18 : (⟨2, ![128, 128]⟩ : Shape).Idx → EReal) (p19 : (⟨2, ![1, 128]⟩ : Shape).Idx → EReal) (b : Fin 16) :
    Spec.slab verts adj p0 p1 p2 p3 p4 p5 p6 p7 p8 p9 p10 p11 p12 p13 p14 p15 p16 p17 p18 p19 b = netM (Spec.X verts b) (Spec.A adj b) p0 p1 p2 p3 p4 p5 p6 p7 p8 p9 p10 p11 p12 p13 p14 p15 p16 p17 p18 p19 := rfl

/-! ## Layout facts -/

theorem hz2 : (![0, 0] : Fin 2 → Nat) = fun _ => 0 := funext fun a => by fin_cases a <;> rfl
theorem hz3 : (![0, 0, 0] : Fin 3 → Nat) = fun _ => 0 := funext fun a => by fin_cases a <;> rfl

/-- A [1, 1, a, b] array cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A [1, 1, 256, 256] block of the stacked weights loaded at (o0, o1, 0, 0) reads the array at (o0, o1, ·, ·). -/
theorem ld_w4 (x : Vec Ideal S9x2x256x256 .f32) (o0 o1 : ℕ)
    (inb : ∀ a, (![o0, o1, 0, 0] : Fin 4 → Nat) a + S1x1x256x256.size a ≤ S9x2x256x256.size a)
    (i : Fin 9) (s : Fin 2) (hi : i.val = o0) (hs : s.val = o1) (k n : Fin 256) :
    View.ld x (Rect.unit (s := S9x2x256x256) ![o0, o1, 0, 0] S1x1x256x256.size inb) (ix4 (0 : Fin 1) (0 : Fin 1) k n) = x (ix4 i s k n) := by
  show x _ = x _
  congr 1; funext a; apply Fin.ext
  match a with
  | ⟨0, _⟩ => show o0 + 1 * 0 = i.val; omega
  | ⟨1, _⟩ => show o1 + 1 * 0 = s.val; omega
  | ⟨2, _⟩ => show 0 + 1 * k.val = k.val; omega
  | ⟨3, _⟩ => show 0 + 1 * n.val = n.val; omega

/-- A [1, 1, 1, 256] block of the stacked biases loaded at (o0, o1, 0, 0) reads the array at (o0, o1, 0, ·). -/
theorem ld_b4 (x : Vec Ideal S9x2x1x256 .f32) (o0 o1 : ℕ)
    (inb : ∀ a, (![o0, o1, 0, 0] : Fin 4 → Nat) a + S1x1x1x256.size a ≤ S9x2x1x256.size a)
    (i : Fin 9) (s : Fin 2) (hi : i.val = o0) (hs : s.val = o1) (n : Fin 256) :
    View.ld x (Rect.unit (s := S9x2x1x256) ![o0, o1, 0, 0] S1x1x1x256.size inb) (ix4 (0 : Fin 1) (0 : Fin 1) (0 : Fin 1) n) = x (ix4 i s (0 : Fin 1) n) := by
  show x _ = x _
  congr 1; funext a; apply Fin.ext
  match a with
  | ⟨0, _⟩ => show o0 + 1 * 0 = i.val; omega
  | ⟨1, _⟩ => show o1 + 1 * 0 = s.val; omega
  | ⟨2, _⟩ => show 0 + 1 * 0 = 0; omega
  | ⟨3, _⟩ => show 0 + 1 * n.val = n.val; omega

/-- The loaded weight block, its unit axes dropped, is the matrix Wg i s. -/
theorem Wg_blk (x : Vec Ideal S9x2x256x256 .f32) (o0 o1 : ℕ)
    (inb : ∀ a, (![o0, o1, 0, 0] : Fin 4 → Nat) a + S1x1x256x256.size a ≤ S9x2x256x256.size a)
    (i : Fin 9) (s : Fin 2) (hi : i.val = o0) (hs : s.val = o1) :
    mat2 (shapeCast S256x256 (View.ld x (Rect.unit (s := S9x2x256x256) ![o0, o1, 0, 0] S1x1x256x256.size inb)) shapeCasts_S1x1x256x256_S256x256)
      = Wg x i s := by
  funext k n
  exact (shapeCast_11ab_ab_apply _ _ k n).trans (ld_w4 x o0 o1 inb i s hi hs k n)

/-- The loaded bias block, its unit axes dropped, is the row Bg i s. -/
theorem Bg_blk (x : Vec Ideal S9x2x1x256 .f32) (o0 o1 : ℕ)
    (inb : ∀ a, (![o0, o1, 0, 0] : Fin 4 → Nat) a + S1x1x1x256.size a ≤ S9x2x1x256.size a)
    (i : Fin 9) (s : Fin 2) (hi : i.val = o0) (hs : s.val = o1) :
    row2 (shapeCast S1x256 (View.ld x (Rect.unit (s := S9x2x1x256) ![o0, o1, 0, 0] S1x1x1x256.size inb)) shapeCasts_S1x1x1x256_S1x256)
      = Bg x i s := by
  funext n
  exact (shapeCast_11ab_ab_apply _ _ (0 : Fin 1) n).trans (ld_b4 x o0 o1 inb i s hi hs n)

/-! ## The layers' stacks as matrices -/

theorem mat2_mlp1V (x : FVec Ideal S1024x128 .f32) (w0 : FVec Ideal S128x512 .f32) (b0 : FVec Ideal S1x512 .f32) (w1 : FVec Ideal S512x512 .f32)
    (b1 : FVec Ideal S1x512 .f32) (w2 : FVec Ideal S512x256 .f32) (b2 : FVec Ideal S1x256 .f32) (w3 : FVec Ideal S256x256 .f32)
    (b3 : FVec Ideal S1x256 .f32) : mat2 (mlp1V x w0 b0 w1 b1 w2 b2 w3 b3) = mlp1M (mat2 x) w0 b0 w1 b1 w2 b2 w3 b3 := by
  unfold mlp1V mlp1M
  rw [mat2_lre, mat2_zlin _ mat2_zmm_S1024x256_S256x256_S1024x256, mat2_lre, mat2_zlin _ mat2_zmm_S1024x512_S512x256_S1024x256,
    mat2_lre, mat2_zlin _ mat2_zmm_S1024x512_S512x512_S1024x512, mat2_lre, mat2_zlin _ mat2_zmm_S1024x128_S128x512_S1024x512]

theorem mat2_mlp3V (h : FVec Ideal S1024x256 .f32) (w0 : FVec Ideal S256x128 .f32) (b0 : FVec Ideal S1x128 .f32) (w1 : FVec Ideal S128x128 .f32)
    (b1 : FVec Ideal S1x128 .f32) (w2 : FVec Ideal S128x128 .f32) (b2 : FVec Ideal S1x128 .f32) (w3 : FVec Ideal S128x128 .f32)
    (b3 : FVec Ideal S1x128 .f32) : mat2 (mlp3V h w0 b0 w1 b1 w2 b2 w3 b3) = mlp3M w0 b0 w1 b1 w2 b2 w3 b3 (mat2 h) := by
  unfold mlp3V mlp3M
  rw [mat2_zlin _ mat2_zmm_S1024x128_S128x128_S1024x128, mat2_lre, mat2_zlin _ mat2_zmm_S1024x128_S128x128_S1024x128,
    mat2_lre, mat2_zlin _ mat2_zmm_S1024x128_S128x128_S1024x128, mat2_lre, mat2_zlin _ mat2_zmm_S1024x256_S256x128_S1024x128]

/-- A later graph convolution on the blocks loaded at (o, 0, 0, 0), (o, 1, 0, 0) is the specification's step i = o. -/
theorem mat2_gcv_blk (adj : FVec Ideal S1024x1024 .f32) (h : FVec Ideal S1024x256 .f32) (x12 : Vec Ideal S9x2x256x256 .f32)
    (x13 : Vec Ideal S9x2x1x256 .f32) (o : ℕ) (i : Fin 9) (hi : i.val = o)
    (inb0 : ∀ a, (![o, 0, 0, 0] : Fin 4 → Nat) a + S1x1x256x256.size a ≤ S9x2x256x256.size a)
    (inb1 : ∀ a, (![o, 1, 0, 0] : Fin 4 → Nat) a + S1x1x256x256.size a ≤ S9x2x256x256.size a)
    (jnb0 : ∀ a, (![o, 0, 0, 0] : Fin 4 → Nat) a + S1x1x1x256.size a ≤ S9x2x1x256.size a)
    (jnb1 : ∀ a, (![o, 1, 0, 0] : Fin 4 → Nat) a + S1x1x1x256.size a ≤ S9x2x1x256.size a) :
    mat2 (gcv adj h (View.ld x12 (Rect.unit (s := S9x2x256x256) ![o, 0, 0, 0] S1x1x256x256.size inb0))
        (View.ld x12 (Rect.unit (s := S9x2x256x256) ![o, 1, 0, 0] S1x1x256x256.size inb1))
        (View.ld x13 (Rect.unit (s := S9x2x1x256) ![o, 0, 0, 0] S1x1x1x256.size jnb0))
        (View.ld x13 (Rect.unit (s := S9x2x1x256) ![o, 1, 0, 0] S1x1x1x256.size jnb1)))
      = gstepM (mat2 adj) x12 x13 i (mat2 h) := by
  unfold gcv gstepM
  rw [mat2_vrelu, mat2_addf, mat2_zmm_S1024x1024_S1024x256_S1024x256, mat2_zlin _ mat2_zmm_S1024x256_S256x256_S1024x256,
    mat2_zlin _ mat2_zmm_S1024x256_S256x256_S1024x256, Wg_blk x12 o 0 inb0 i 0 hi rfl, Wg_blk x12 o 1 inb1 i 1 hi rfl,
    Bg_blk x13 o 0 jnb0 i 0 hi rfl, Bg_blk x13 o 1 jnb1 i 1 hi rfl]
  rfl

theorem mat2_gallV (adj : FVec Ideal S1024x1024 .f32) (h : FVec Ideal S1024x256 .f32) (x12 : Vec Ideal S9x2x256x256 .f32)
    (x13 : Vec Ideal S9x2x1x256 .f32) : mat2 (gallV adj h x12 x13) = gallM (mat2 adj) x12 x13 (mat2 h) := by
  unfold gallV gallM
  rw [mat2_gcv_blk _ _ x12 x13 8 8 rfl, mat2_gcv_blk _ _ x12 x13 7 7 rfl, mat2_gcv_blk _ _ x12 x13 6 6 rfl, mat2_gcv_blk _ _ x12 x13 5 5 rfl, mat2_gcv_blk _ _ x12 x13 4 4 rfl, mat2_gcv_blk _ _ x12 x13 3 3 rfl, mat2_gcv_blk _ _ x12 x13 2 2 rfl, mat2_gcv_blk _ _ x12 x13 1 1 rfl, mat2_gcv_blk _ _ x12 x13 0 0 rfl]

/-! ## Graph convolution 0 -/

/-- A [1, 384, 256] block of graph convolution 0's weights loaded at (o, 0, 0) reads the array at (o, ·, ·). -/
theorem ld_g0w (x : Vec Ideal S2x384x256 .f32) (o : ℕ)
    (inb : ∀ a, (![o, 0, 0] : Fin 3 → Nat) a + S1x384x256.size a ≤ S2x384x256.size a)
    (s : Fin 2) (hs : s.val = o) (k : Fin 384) (n : Fin 256) :
    View.ld x (Rect.unit (s := S2x384x256) ![o, 0, 0] S1x384x256.size inb) (ix3 (0 : Fin 1) k n) = x (ix3 s k n) := by
  show x _ = x _
  congr 1; funext a; apply Fin.ext
  match a with
  | ⟨0, _⟩ => show o + 1 * 0 = s.val; omega
  | ⟨1, _⟩ => show 0 + 1 * k.val = k.val; omega
  | ⟨2, _⟩ => show 0 + 1 * n.val = n.val; omega

/-- A [1, 1, 256] block of graph convolution 0's biases loaded at (o, 0, 0) reads the array at (o, 0, ·). -/
theorem ld_g0b (x : Vec Ideal S2x1x256 .f32) (o : ℕ)
    (inb : ∀ a, (![o, 0, 0] : Fin 3 → Nat) a + S1x1x256.size a ≤ S2x1x256.size a)
    (s : Fin 2) (hs : s.val = o) (n : Fin 256) :
    View.ld x (Rect.unit (s := S2x1x256) ![o, 0, 0] S1x1x256.size inb) (ix3 (0 : Fin 1) (0 : Fin 1) n) = x (ix3 s (0 : Fin 1) n) := by
  show x _ = x _
  congr 1; funext a; apply Fin.ext
  match a with
  | ⟨0, _⟩ => show o + 1 * 0 = s.val; omega
  | ⟨1, _⟩ => show 0 + 1 * 0 = 0; omega
  | ⟨2, _⟩ => show 0 + 1 * n.val = n.val; omega

/-- Rows 0..255 of the loaded block are the weights acting on the features. -/
theorem W0h_blk (x : Vec Ideal S2x384x256 .f32) (o : ℕ)
    (inb : ∀ a, (![o, 0, 0] : Fin 3 → Nat) a + S1x384x256.size a ≤ S2x384x256.size a) (s : Fin 2) (hs : s.val = o) :
    mat2 (extractStridedSlice S256x256 ![0, 0]
        (shapeCast S384x256 (View.ld x (Rect.unit (s := S2x384x256) ![o, 0, 0] S1x384x256.size inb)) shapeCasts_S1x384x256_S384x256)
        slices_S384x256_o0_0_S256x256) = W0h x s := by
  funext k n
  refine (slice2_axis0_eq 0 _ _ k n).trans ?_
  refine (shapeCast_1ab_ab_apply _ _ _ n).trans ?_
  refine (ld_g0w x o inb s hs _ n).trans ?_
  show x (ix3 s ⟨0 + k.val, _⟩ n) = x (ix3 s ⟨k.val, _⟩ n)
  simp only [Nat.zero_add]

/-- Rows 256..383 of the loaded block are the weights acting on the padded coordinates. -/
theorem W0x_blk (x : Vec Ideal S2x384x256 .f32) (o : ℕ)
    (inb : ∀ a, (![o, 0, 0] : Fin 3 → Nat) a + S1x384x256.size a ≤ S2x384x256.size a) (s : Fin 2) (hs : s.val = o) :
    mat2 (extractStridedSlice S128x256 ![256, 0]
        (shapeCast S384x256 (View.ld x (Rect.unit (s := S2x384x256) ![o, 0, 0] S1x384x256.size inb)) shapeCasts_S1x384x256_S384x256)
        slices_S384x256_o256_0_S128x256) = W0x x s := by
  funext k n
  refine (slice2_axis0_eq 256 _ _ k n).trans ?_
  refine (shapeCast_1ab_ab_apply _ _ _ n).trans ?_
  exact ld_g0w x o inb s hs _ n

/-- The loaded bias block, its unit axis dropped, is the row B0 s. -/
theorem B0_blk (x : Vec Ideal S2x1x256 .f32) (o : ℕ)
    (inb : ∀ a, (![o, 0, 0] : Fin 3 → Nat) a + S1x1x256.size a ≤ S2x1x256.size a) (s : Fin 2) (hs : s.val = o) :
    row2 (shapeCast S1x256 (View.ld x (Rect.unit (s := S2x1x256) ![o, 0, 0] S1x1x256.size inb)) shapeCasts_S1x1x256_S1x256) = B0 x s := by
  funext n
  exact (shapeCast_1ab_ab_apply _ _ (0 : Fin 1) n).trans (ld_g0b x o inb s hs n)

/-- A bias row broadcast over the rows, as a matrix. -/
theorem mat2_bcast {a b : ℕ} (r : FVec Ideal ⟨2, ![1, b]⟩ .f32) (hb : (⟨2, ![1, b]⟩ : Shape).Broadcasts ⟨2, ![a, b]⟩) :
    mat2 (broadcastTo ⟨2, ![a, b]⟩ r hb) = fun _ q => row2 r q := by
  funext p q
  exact broadcastTo_1b_ab_apply r hb p q

/-- One branch of graph convolution 0 on the blocks loaded at (o, 0, 0) is the specification's pre-activation of branch s = o. -/
theorem mat2_g0pre (xm : FVec Ideal S1024x128 .f32) (h : FVec Ideal S1024x256 .f32) (x10 : Vec Ideal S2x384x256 .f32)
    (x11 : Vec Ideal S2x1x256 .f32) (o : ℕ) (s : Fin 2) (hs : s.val = o)
    (inb : ∀ a, (![o, 0, 0] : Fin 3 → Nat) a + S1x384x256.size a ≤ S2x384x256.size a)
    (jnb : ∀ a, (![o, 0, 0] : Fin 3 → Nat) a + S1x1x256.size a ≤ S2x1x256.size a) :
    mat2 (g0pre xm h (View.ld x10 (Rect.unit (s := S2x384x256) ![o, 0, 0] S1x384x256.size inb))
        (View.ld x11 (Rect.unit (s := S2x1x256) ![o, 0, 0] S1x1x256.size jnb)))
      = pre0M (mat2 xm) x10 x11 (mat2 h) s := by
  unfold g0pre pre0M
  rw [mat2_addf, mat2_addf, mat2_zmm_S1024x256_S256x256_S1024x256, mat2_zmm_S1024x128_S128x256_S1024x256,
    W0h_blk x10 o inb s hs, W0x_blk x10 o inb s hs, mat2_bcast, B0_blk x11 o jnb s hs]
  rfl

theorem mat2_g0V (xm : FVec Ideal S1024x128 .f32) (adj : FVec Ideal S1024x1024 .f32) (h : FVec Ideal S1024x256 .f32)
    (x10 : Vec Ideal S2x384x256 .f32) (x11 : Vec Ideal S2x1x256 .f32) :
    mat2 (g0V xm adj h (View.ld x10 r0_8) (View.ld x10 r0_9) (View.ld x11 r0_10) (View.ld x11 r0_11))
      = g0M (mat2 xm) (mat2 adj) x10 x11 (mat2 h) := by
  unfold g0V g0M
  rw [mat2_vrelu, mat2_addf, mat2_zmm_S1024x1024_S1024x256_S1024x256, mat2_g0pre xm h x10 x11 0 0 rfl,
    mat2_g0pre xm h x10 x11 1 1 rfl]
  rfl

/-! ## The whole network -/

/-- The loaded coordinate block, its unit axis dropped, is the matrix of the block's entries. -/
theorem mat2_xV (x0 : Vec Ideal S1x1024x128 .f32) : mat2 (xV x0) = fun v l => x0 (ix3 (0 : Fin 1) v l) := by
  unfold xV
  rw [View.ld_unit_zero hz3]
  funext v l
  exact shapeCast_1ab_ab_apply _ _ v l

/-- The loaded adjacency block, its unit axis dropped, is the matrix of the block's entries. -/
theorem mat2_adjV (x1 : Vec Ideal S1x1024x1024 .f32) : mat2 (adjV x1) = fun v u => x1 (ix3 (0 : Fin 1) v u) := by
  unfold adjV
  rw [View.ld_unit_zero hz3]
  funext v u
  exact shapeCast_1ab_ab_apply _ _ v u

/-- THE BODY AS A FUNCTION OF MATRICES: the network of the windows' contents is the specification's network at the
    matrices of the coordinate and adjacency blocks and the parameter arrays. -/
theorem mat2_netV (x0 : Vec Ideal S1x1024x128 .f32) (x1 : Vec Ideal S1x1024x1024 .f32) (x2 : Vec Ideal S128x512 .f32) (x3 : Vec Ideal S1x512 .f32) (x4 : Vec Ideal S512x512 .f32) (x5 : Vec Ideal S1x512 .f32) (x6 : Vec Ideal S512x256 .f32) (x7 : Vec Ideal S1x256 .f32) (x8 : Vec Ideal S256x256 .f32) (x9 : Vec Ideal S1x256 .f32) (x10 : Vec Ideal S2x384x256 .f32) (x11 : Vec Ideal S2x1x256 .f32) (x12 : Vec Ideal S9x2x256x256 .f32) (x13 : Vec Ideal S9x2x1x256 .f32) (x14 : Vec Ideal S256x128 .f32) (x15 : Vec Ideal S1x128 .f32) (x16 : Vec Ideal S128x128 .f32) (x17 : Vec Ideal S1x128 .f32) (x18 : Vec Ideal S128x128 .f32) (x19 : Vec Ideal S1x128 .f32) (x20 : Vec Ideal S128x128 .f32) (x21 : Vec Ideal S1x128 .f32) :
    mat2 (netV x0 x1 x2 x3 x4 x5 x6 x7 x8 x9 x10 x11 x12 x13 x14 x15 x16 x17 x18 x19 x20 x21)
      = netM (fun v l => x0 (ix3 (0 : Fin 1) v l)) (fun v u => x1 (ix3 (0 : Fin 1) v u)) x2 x3 x4 x5 x6 x7 x8 x9 x10 x11 x12 x13 x14 x15 x16 x17 x18 x19 x20 x21 := by
  have e2 : View.ld x2 r0_2 = x2 := View.ld_unit_zero hz2 _ x2
  have e3 : View.ld x3 r0_3 = x3 := View.ld_unit_zero hz2 _ x3
  have e4 : View.ld x4 r0_4 = x4 := View.ld_unit_zero hz2 _ x4
  have e5 : View.ld x5 r0_3 = x5 := View.ld_unit_zero hz2 _ x5
  have e6 : View.ld x6 r0_5 = x6 := View.ld_unit_zero hz2 _ x6
  have e7 : View.ld x7 r0_6 = x7 := View.ld_unit_zero hz2 _ x7
  have e8 : View.ld x8 r0_7 = x8 := View.ld_unit_zero hz2 _ x8
  have e9 : View.ld x9 r0_6 = x9 := View.ld_unit_zero hz2 _ x9
  have e14 : View.ld x14 r0_48 = x14 := View.ld_unit_zero hz2 _ x14
  have e15 : View.ld x15 r0_49 = x15 := View.ld_unit_zero hz2 _ x15
  have e16 : View.ld x16 r0_50 = x16 := View.ld_unit_zero hz2 _ x16
  have e17 : View.ld x17 r0_49 = x17 := View.ld_unit_zero hz2 _ x17
  have e18 : View.ld x18 r0_50 = x18 := View.ld_unit_zero hz2 _ x18
  have e19 : View.ld x19 r0_49 = x19 := View.ld_unit_zero hz2 _ x19
  have e20 : View.ld x20 r0_50 = x20 := View.ld_unit_zero hz2 _ x20
  have e21 : View.ld x21 r0_49 = x21 := View.ld_unit_zero hz2 _ x21
  unfold netV netM
  rw [e2, e3, e4, e5, e6, e7, e8, e9, e14, e15, e16, e17, e18, e19, e20, e21, mat2_mlp3V, mat2_gallV, mat2_g0V, mat2_mlp1V,
    mat2_xV, mat2_adjV]

end Cert.ReferenceIdeal.RefMat

end
-- ==== Proof.RefBlocks.lean ====
/-
  The windows' blocks in terms of the argument arrays. The grid has one axis of 16 points, the point being the mesh. The
  coordinate window's array is the host's pad of the vertex array from 3 to 128 lanes with the padding value 0 (the
  integer 0 converted), and its block at point t is rows (t, ·, ·) of it: lanes below 3 read the vertex array, the other
  lanes read 0 — the specification's matrix X of mesh t. The adjacency window's block at point t is rows (t, ·, ·) of the
  adjacency array: the matrix A of mesh t. Every parameter window's index map is constant zero and its block is its
  whole array.
-/
import proofs.«141170_g2000409237439836_pallaspilot1_247_36_alg».proof.Proof.RefMat
import Idealize.ShloMosaic.Lib.KernelVsHost

set_option maxRecDepth 16384

noncomputable section
open scoped BigOperators
namespace Cert.ReferenceIdeal.RefBlocks

open Cert.ReferenceIdeal Cert.ReferenceIdeal.Gen Cert.ReferenceIdeal.RefNet Cert.ReferenceIdeal.RefLayers Cert.ReferenceIdeal.RefMat
open Idealize.ShloMosaic Idealize.ShloMosaic.TcCoe Idealize.ShloMosaic.ValueIdx Idealize.ShloMosaic.Tactic Idealize.SL.Sem Cert.Spec
open Idealize.ShloMosaic.Pipeline (Dat Cfg Window BodyObligation cellOf)

variable (m : (ℓ : Loc nD τ sig) → Buf (Elt Ideal) ℓ)

/-- The block indices of the three windows that move with the point: block t along the mesh axis, block 0 elsewhere. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_22.index t (0 : Fin 3) = t.val ∧ win0_22.index t (1 : Fin 3) = 0 ∧ win0_22.index t (2 : Fin 3) = 0 :=
  (by decide +kernel : ∀ t : Fin grid0.N, _)

/-- A point is a mesh. -/
def meshOf (t : Fin cfg0.N) : Fin 16 := ⟨t.val, by have := t.isLt; have hN : cfg0.N = 16 := N_0; omega⟩

/-- The coordinate window's array when the region is entered: the vertex array padded to 128 lanes with the converted integer 0. -/
theorem V_v0 (c : Dev nD) : (V m c main_v0 : S16x1024x128.Idx → EReal)
    = pad S16x1024x128 ![0, 0, 0] ![0, 0, 125] ![0, 0, 0] (m ((c : Thread nD τ).loc main_arg0))
        (sitofp (F := Ideal) .f32 (constantI S_ 32 0#32)) pads_S16x1024x3_S16x1024x128_000_000_01250 h_S_ := by
  dsimp only [Gen.V, Gen.V0]
  simp only [Gen.hostOps0, Gen.hostOps0_1, List.flatten_cons, List.flatten_nil, List.append_nil, List.cons_append, List.nil_append]
  after_results
  rfl

/-- The padded array at (b, v, l): the vertex array for l < 3, else 0. -/
theorem pad_at (verts : S16x1024x3.Idx → EReal) (b : Fin 16) (v : Fin 1024) (l : Fin 128) :
    pad S16x1024x128 ![0, 0, 0] ![0, 0, 125] ![0, 0, 0] verts (sitofp (F := Ideal) .f32 (constantI S_ 32 0#32))
        pads_S16x1024x3_S16x1024x128_000_000_01250 h_S_ (ix3 b v l) = Spec.X verts b v l := by
  unfold Spec.X
  by_cases hl : l.val < 3
  · rw [dif_pos hl]
    refine pad_apply_of_inside _ _ _ verts _ _ _ (ix3 b v l) (ix3 b v ⟨l.val, hl⟩) fun a => ?_
    match a with
    | ⟨0, _⟩ => show b.val = 0 + b.val * (0 + 1); omega
    | ⟨1, _⟩ => show v.val = 0 + v.val * (0 + 1); omega
    | ⟨2, _⟩ => show l.val = 0 + l.val * (0 + 1); omega
  · rw [dif_neg hl]
    refine (pad_apply_of_not_inside _ _ _ verts _ _ _ (ix3 b v l) (2 : Fin 3) ?_).trans ?_
    · show ¬(0 ≤ l.val ∧ (l.val - 0) % (0 + 1) = 0 ∧ (l.val - 0) / (0 + 1) < 3)
      omega
    · show (((0#32 : BitVec 32).toInt : ℝ) : EReal) = 0
      simp

/-- The coordinate window's block at point t, read as a matrix, is the specification's X of mesh t. -/
theorem iblk_0 (c : Dev nD) (t : Fin cfg0.N) :
    (fun v l => (iblk m c 0 t : Vec Ideal S1x1024x128 .f32) (ix3 (0 : Fin 1) v l)) = Spec.X (m ((c : Thread nD τ).loc main_arg0)) (meshOf t) := by
  funext v l
  obtain ⟨e0, e1, e2, -⟩ := idx_facts t
  unfold iblk
  rw [View.read_apply]
  show V m c main_v0 _ = _
  rw [V_v0]
  refine Eq.trans (congrArg _ ?_) (pad_at _ (meshOf t) v l)
  funext a
  apply Fin.ext
  match a with
  | ⟨0, _⟩ => show win0_0.index t 0 * 1 + 1 * 0 = t.val; rw [e0]; omega
  | ⟨1, _⟩ => show win0_0.index t 1 * 1024 + 1 * v.val = v.val; rw [e1]; omega
  | ⟨2, _⟩ => show win0_0.index t 2 * 128 + 1 * l.val = l.val; rw [e2]; omega

/-- The adjacency window's block at point t, read as a matrix, is the specification's A of mesh t. -/
theorem iblk_1 (c : Dev nD) (t : Fin cfg0.N) :
    (fun v u => (iblk m c 1 t : Vec Ideal S1x1024x1024 .f32) (ix3 (0 : Fin 1) v u)) = Spec.A (m ((c : Thread nD τ).loc main_arg1)) (meshOf t) := by
  funext v u
  obtain ⟨-, -, -, e0, e1, e2, -⟩ := idx_facts t
  unfold iblk
  rw [View.read_apply]
  show V m c main_arg1 _ = m (c.tc.loc main_arg1) (ix3 (meshOf t) v u)
  rw [V_main_arg1]
  congr 1
  funext a
  apply Fin.ext
  match a with
  | ⟨0, _⟩ => show win0_1.index t 0 * 1 + 1 * 0 = t.val; rw [e0]; omega
  | ⟨1, _⟩ => show win0_1.index t 1 * 1024 + 1 * v.val = v.val; rw [e1]; omega
  | ⟨2, _⟩ => show win0_1.index t 2 * 1024 + 1 * u.val = u.val; rw [e2]; omega

/-- Window 2's block at any point is the whole of its argument array (its index map is constant zero). -/
theorem iblk_2 (c : Dev nD) (t : Fin cfg0.N) : (iblk m c 2 t : Vec Ideal S128x512 .f32) = m ((c : Thread nD τ).loc main_arg2) := by
  funext y
  unfold iblk
  rw [View.read_apply]
  show V m c main_arg2 _ = m (c.tc.loc main_arg2) y
  rw [V_main_arg2]
  congr 1
  funext a
  apply Fin.ext
  match a with
  | ⟨0, _⟩ => show win0_2.index t 0 * 128 + 1 * (y 0).val = (y 0).val; rw [show win0_2.index t (0 : Fin 2) = 0 from rfl]; omega
  | ⟨1, _⟩ => show win0_2.index t 1 * 512 + 1 * (y 1).val = (y 1).val; rw [show win0_2.index t (1 : Fin 2) = 0 from rfl]; omega

/-- Window 3's block at any point is the whole of its argument array (its index map is constant zero). -/
theorem iblk_3 (c : Dev nD) (t : Fin cfg0.N) : (iblk m c 3 t : Vec Ideal S1x512 .f32) = m ((c : Thread nD τ).loc main_arg3) := by
  funext y
  unfold iblk
  rw [View.read_apply]
  show V m c main_arg3 _ = m (c.tc.loc main_arg3) y
  rw [V_main_arg3]
  congr 1
  funext a
  apply Fin.ext
  match a with
  | ⟨0, _⟩ => show win0_3.index t 0 * 1 + 1 * (y 0).val = (y 0).val; rw [show win0_3.index t (0 : Fin 2) = 0 from rfl]; omega
  | ⟨1, _⟩ => show win0_3.index t 1 * 512 + 1 * (y 1).val = (y 1).val; rw [show win0_3.index t (1 : Fin 2) = 0 from rfl]; omega

/-- Window 4's block at any point is the whole of its argument array (its index map is constant zero). -/
theorem iblk_4 (c : Dev nD) (t : Fin cfg0.N) : (iblk m c 4 t : Vec Ideal S512x512 .f32) = m ((c : Thread nD τ).loc main_arg4) := by
  funext y
  unfold iblk
  rw [View.read_apply]
  show V m c main_arg4 _ = m (c.tc.loc main_arg4) y
  rw [V_main_arg4]
  congr 1
  funext a
  apply Fin.ext
  match a with
  | ⟨0, _⟩ => show win0_4.index t 0 * 512 + 1 * (y 0).val = (y 0).val; rw [show win0_4.index t (0 : Fin 2) = 0 from rfl]; omega
  | ⟨1, _⟩ => show win0_4.index t 1 * 512 + 1 * (y 1).val = (y 1).val; rw [show win0_4.index t (1 : Fin 2) = 0 from rfl]; omega

/-- Window 5's block at any point is the whole of its argument array (its index map is constant zero). -/
theorem iblk_5 (c : Dev nD) (t : Fin cfg0.N) : (iblk m c 5 t : Vec Ideal S1x512 .f32) = m ((c : Thread nD τ).loc main_arg5) := by
  funext y
  unfold iblk
  rw [View.read_apply]
  show V m c main_arg5 _ = m (c.tc.loc main_arg5) y
  rw [V_main_arg5]
  congr 1
  funext a
  apply Fin.ext
  match a with
  | ⟨0, _⟩ => show win0_5.index t 0 * 1 + 1 * (y 0).val = (y 0).val; rw [show win0_5.index t (0 : Fin 2) = 0 from rfl]; omega
  | ⟨1, _⟩ => show win0_5.index t 1 * 512 + 1 * (y 1).val = (y 1).val; rw [show win0_5.index t (1 : Fin 2) = 0 from rfl]; omega

/-- Window 6's block at any point is the whole of its argument array (its index map is constant zero). -/
theorem iblk_6 (c : Dev nD) (t : Fin cfg0.N) : (iblk m c 6 t : Vec Ideal S512x256 .f32) = m ((c : Thread nD τ).loc main_arg6) := by
  funext y
  unfold iblk
  rw [View.read_apply]
  show V m c main_arg6 _ = m (c.tc.loc main_arg6) y
  rw [V_main_arg6]
  congr 1
  funext a
  apply Fin.ext
  match a with
  | ⟨0, _⟩ => show win0_6.index t 0 * 512 + 1 * (y 0).val = (y 0).val; rw [show win0_6.index t (0 : Fin 2) = 0 from rfl]; omega
  | ⟨1, _⟩ => show win0_6.index t 1 * 256 + 1 * (y 1).val = (y 1).val; rw [show win0_6.index t (1 : Fin 2) = 0 from rfl]; omega

/-- Window 7's block at any point is the whole of its argument array (its index map is constant zero). -/
theorem iblk_7 (c : Dev nD) (t : Fin cfg0.N) : (iblk m c 7 t : Vec Ideal S1x256 .f32) = m ((c : Thread nD τ).loc main_arg7) := by
  funext y
  unfold iblk
  rw [View.read_apply]
  show V m c main_arg7 _ = m (c.tc.loc main_arg7) y
  rw [V_main_arg7]
  congr 1
  funext a
  apply Fin.ext
  match a with
  | ⟨0, _⟩ => show win0_7.index t 0 * 1 + 1 * (y 0).val = (y 0).val; rw [show win0_7.index t (0 : Fin 2) = 0 from rfl]; omega
  | ⟨1, _⟩ => show win0_7.index t 1 * 256 + 1 * (y 1).val = (y 1).val; rw [show win0_7.index t (1 : Fin 2) = 0 from rfl]; omega

/-- Window 8's block at any point is the whole of its argument array (its index map is constant zero). -/
theorem iblk_8 (c : Dev nD) (t : Fin cfg0.N) : (iblk m c 8 t : Vec Ideal S256x256 .f32) = m ((c : Thread nD τ).loc main_arg8) := by
  funext y
  unfold iblk
  rw [View.read_apply]
  show V m c main_arg8 _ = m (c.tc.loc main_arg8) y
  rw [V_main_arg8]
  congr 1
  funext a
  apply Fin.ext
  match a with
  | ⟨0, _⟩ => show win0_8.index t 0 * 256 + 1 * (y 0).val = (y 0).val; rw [show win0_8.index t (0 : Fin 2) = 0 from rfl]; omega
  | ⟨1, _⟩ => show win0_8.index t 1 * 256 + 1 * (y 1).val = (y 1).val; rw [show win0_8.index t (1 : Fin 2) = 0 from rfl]; omega

/-- Window 9's block at any point is the whole of its argument array (its index map is constant zero). -/
theorem iblk_9 (c : Dev nD) (t : Fin cfg0.N) : (iblk m c 9 t : Vec Ideal S1x256 .f32) = m ((c : Thread nD τ).loc main_arg9) := by
  funext y
  unfold iblk
  rw [View.read_apply]
  show V m c main_arg9 _ = m (c.tc.loc main_arg9) y
  rw [V_main_arg9]
  congr 1
  funext a
  apply Fin.ext
  match a with
  | ⟨0, _⟩ => show win0_9.index t 0 * 1 + 1 * (y 0).val = (y 0).val; rw [show win0_9.index t (0 : Fin 2) = 0 from rfl]; omega
  | ⟨1, _⟩ => show win0_9.index t 1 * 256 + 1 * (y 1).val = (y 1).val; rw [show win0_9.index t (1 : Fin 2) = 0 from rfl]; omega

/-- Window 10's block at any point is the whole of its argument array (its index map is constant zero). -/
theorem iblk_10 (c : Dev nD) (t : Fin cfg0.N) : (iblk m c 10 t : Vec Ideal S2x384x256 .f32) = m ((c : Thread nD τ).loc main_arg10) := by
  funext y
  unfold iblk
  rw [View.read_apply]
  show V m c main_arg10 _ = m (c.tc.loc main_arg10) y
  rw [V_main_arg10]
  congr 1
  funext a
  apply Fin.ext
  match a with
  | ⟨0, _⟩ => show win0_10.index t 0 * 2 + 1 * (y 0).val = (y 0).val; rw [show win0_10.index t (0 : Fin 3) = 0 from rfl]; omega
  | ⟨1, _⟩ => show win0_10.index t 1 * 384 + 1 * (y 1).val = (y 1).val; rw [show win0_10.index t (1 : Fin 3) = 0 from rfl]; omega
  | ⟨2, _⟩ => show win0_10.index t 2 * 256 + 1 * (y 2).val = (y 2).val; rw [show win0_10.index t (2 : Fin 3) = 0 from rfl]; omega

/-- Window 11's block at any point is the whole of its argument array (its index map is constant zero). -/
theorem iblk_11 (c : Dev nD) (t : Fin cfg0.N) : (iblk m c 11 t : Vec Ideal S2x1x256 .f32) = m ((c : Thread nD τ).loc main_arg11) := by
  funext y
  unfold iblk
  rw [View.read_apply]
  show V m c main_arg11 _ = m (c.tc.loc main_arg11) y
  rw [V_main_arg11]
  congr 1
  funext a
  apply Fin.ext
  match a with
  | ⟨0, _⟩ => show win0_11.index t 0 * 2 + 1 * (y 0).val = (y 0).val; rw [show win0_11.index t (0 : Fin 3) = 0 from rfl]; omega
  | ⟨1, _⟩ => show win0_11.index t 1 * 1 + 1 * (y 1).val = (y 1).val; rw [show win0_11.index t (1 : Fin 3) = 0 from rfl]; omega
  | ⟨2, _⟩ => show win0_11.index t 2 * 256 + 1 * (y 2).val = (y 2).val; rw [show win0_11.index t (2 : Fin 3) = 0 from rfl]; omega

/-- Window 12's block at any point is the whole of its argument array (its index map is constant zero). -/
theorem iblk_12 (c : Dev nD) (t : Fin cfg0.N) : (iblk m c 12 t : Vec Ideal S9x2x256x256 .f32) = m ((c : Thread nD τ).loc main_arg12) := by
  funext y
  unfold iblk
  rw [View.read_apply]
  show V m c main_arg12 _ = m (c.tc.loc main_arg12) y
  rw [V_main_arg12]
  congr 1
  funext a
  apply Fin.ext
  match a with
  | ⟨0, _⟩ => show win0_12.index t 0 * 9 + 1 * (y 0).val = (y 0).val; rw [show win0_12.index t (0 : Fin 4) = 0 from rfl]; omega
  | ⟨1, _⟩ => show win0_12.index t 1 * 2 + 1 * (y 1).val = (y 1).val; rw [show win0_12.index t (1 : Fin 4) = 0 from rfl]; omega
  | ⟨2, _⟩ => show win0_12.index t 2 * 256 + 1 * (y 2).val = (y 2).val; rw [show win0_12.index t (2 : Fin 4) = 0 from rfl]; omega
  | ⟨3, _⟩ => show win0_12.index t 3 * 256 + 1 * (y 3).val = (y 3).val; rw [show win0_12.index t (3 : Fin 4) = 0 from rfl]; omega

/-- Window 13's block at any point is the whole of its argument array (its index map is constant zero). -/
theorem iblk_13 (c : Dev nD) (t : Fin cfg0.N) : (iblk m c 13 t : Vec Ideal S9x2x1x256 .f32) = m ((c : Thread nD τ).loc main_arg13) := by
  funext y
  unfold iblk
  rw [View.read_apply]
  show V m c main_arg13 _ = m (c.tc.loc main_arg13) y
  rw [V_main_arg13]
  congr 1
  funext a
  apply Fin.ext
  match a with
  | ⟨0, _⟩ => show win0_13.index t 0 * 9 + 1 * (y 0).val = (y 0).val; rw [show win0_13.index t (0 : Fin 4) = 0 from rfl]; omega
  | ⟨1, _⟩ => show win0_13.index t 1 * 2 + 1 * (y 1).val = (y 1).val; rw [show win0_13.index t (1 : Fin 4) = 0 from rfl]; omega
  | ⟨2, _⟩ => show win0_13.index t 2 * 1 + 1 * (y 2).val = (y 2).val; rw [show win0_13.index t (2 : Fin 4) = 0 from rfl]; omega
  | ⟨3, _⟩ => show win0_13.index t 3 * 256 + 1 * (y 3).val = (y 3).val; rw [show win0_13.index t (3 : Fin 4) = 0 from rfl]; omega

/-- Window 14's block at any point is the whole of its argument array (its index map is constant zero). -/
theorem iblk_14 (c : Dev nD) (t : Fin cfg0.N) : (iblk m c 14 t : Vec Ideal S256x128 .f32) = m ((c : Thread nD τ).loc main_arg14) := by
  funext y
  unfold iblk
  rw [View.read_apply]
  show V m c main_arg14 _ = m (c.tc.loc main_arg14) y
  rw [V_main_arg14]
  congr 1
  funext a
  apply Fin.ext
  match a with
  | ⟨0, _⟩ => show win0_14.index t 0 * 256 + 1 * (y 0).val = (y 0).val; rw [show win0_14.index t (0 : Fin 2) = 0 from rfl]; omega
  | ⟨1, _⟩ => show win0_14.index t 1 * 128 + 1 * (y 1).val = (y 1).val; rw [show win0_14.index t (1 : Fin 2) = 0 from rfl]; omega

/-- Window 15's block at any point is the whole of its argument array (its index map is constant zero). -/
theorem iblk_15 (c : Dev nD) (t : Fin cfg0.N) : (iblk m c 15 t : Vec Ideal S1x128 .f32) = m ((c : Thread nD τ).loc main_arg15) := by
  funext y
  unfold iblk
  rw [View.read_apply]
  show V m c main_arg15 _ = m (c.tc.loc main_arg15) y
  rw [V_main_arg15]
  congr 1
  funext a
  apply Fin.ext
  match a with
  | ⟨0, _⟩ => show win0_15.index t 0 * 1 + 1 * (y 0).val = (y 0).val; rw [show win0_15.index t (0 : Fin 2) = 0 from rfl]; omega
  | ⟨1, _⟩ => show win0_15.index t 1 * 128 + 1 * (y 1).val = (y 1).val; rw [show win0_15.index t (1 : Fin 2) = 0 from rfl]; omega

/-- Window 16's block at any point is the whole of its argument array (its index map is constant zero). -/
theorem iblk_16 (c : Dev nD) (t : Fin cfg0.N) : (iblk m c 16 t : Vec Ideal S128x128 .f32) = m ((c : Thread nD τ).loc main_arg16) := by
  funext y
  unfold iblk
  rw [View.read_apply]
  show V m c main_arg16 _ = m (c.tc.loc main_arg16) y
  rw [V_main_arg16]
  congr 1
  funext a
  apply Fin.ext
  match a with
  | ⟨0, _⟩ => show win0_16.index t 0 * 128 + 1 * (y 0).val = (y 0).val; rw [show win0_16.index t (0 : Fin 2) = 0 from rfl]; omega
  | ⟨1, _⟩ => show win0_16.index t 1 * 128 + 1 * (y 1).val = (y 1).val; rw [show win0_16.index t (1 : Fin 2) = 0 from rfl]; omega

/-- Window 17's block at any point is the whole of its argument array (its index map is constant zero). -/
theorem iblk_17 (c : Dev nD) (t : Fin cfg0.N) : (iblk m c 17 t : Vec Ideal S1x128 .f32) = m ((c : Thread nD τ).loc main_arg17) := by
  funext y
  unfold iblk
  rw [View.read_apply]
  show V m c main_arg17 _ = m (c.tc.loc main_arg17) y
  rw [V_main_arg17]
  congr 1
  funext a
  apply Fin.ext
  match a with
  | ⟨0, _⟩ => show win0_17.index t 0 * 1 + 1 * (y 0).val = (y 0).val; rw [show win0_17.index t (0 : Fin 2) = 0 from rfl]; omega
  | ⟨1, _⟩ => show win0_17.index t 1 * 128 + 1 * (y 1).val = (y 1).val; rw [show win0_17.index t (1 : Fin 2) = 0 from rfl]; omega

/-- Window 18's block at any point is the whole of its argument array (its index map is constant zero). -/
theorem iblk_18 (c : Dev nD) (t : Fin cfg0.N) : (iblk m c 18 t : Vec Ideal S128x128 .f32) = m ((c : Thread nD τ).loc main_arg18) := by
  funext y
  unfold iblk
  rw [View.read_apply]
  show V m c main_arg18 _ = m (c.tc.loc main_arg18) y
  rw [V_main_arg18]
  congr 1
  funext a
  apply Fin.ext
  match a with
  | ⟨0, _⟩ => show win0_18.index t 0 * 128 + 1 * (y 0).val = (y 0).val; rw [show win0_18.index t (0 : Fin 2) = 0 from rfl]; omega
  | ⟨1, _⟩ => show win0_18.index t 1 * 128 + 1 * (y 1).val = (y 1).val; rw [show win0_18.index t (1 : Fin 2) = 0 from rfl]; omega

/-- Window 19's block at any point is the whole of its argument array (its index map is constant zero). -/
theorem iblk_19 (c : Dev nD) (t : Fin cfg0.N) : (iblk m c 19 t : Vec Ideal S1x128 .f32) = m ((c : Thread nD τ).loc main_arg19) := by
  funext y
  unfold iblk
  rw [View.read_apply]
  show V m c main_arg19 _ = m (c.tc.loc main_arg19) y
  rw [V_main_arg19]
  congr 1
  funext a
  apply Fin.ext
  match a with
  | ⟨0, _⟩ => show win0_19.index t 0 * 1 + 1 * (y 0).val = (y 0).val; rw [show win0_19.index t (0 : Fin 2) = 0 from rfl]; omega
  | ⟨1, _⟩ => show win0_19.index t 1 * 128 + 1 * (y 1).val = (y 1).val; rw [show win0_19.index t (1 : Fin 2) = 0 from rfl]; omega

/-- Window 20's block at any point is the whole of its argument array (its index map is constant zero). -/
theorem iblk_20 (c : Dev nD) (t : Fin cfg0.N) : (iblk m c 20 t : Vec Ideal S128x128 .f32) = m ((c : Thread nD τ).loc main_arg20) := by
  funext y
  unfold iblk
  rw [View.read_apply]
  show V m c main_arg20 _ = m (c.tc.loc main_arg20) y
  rw [V_main_arg20]
  congr 1
  funext a
  apply Fin.ext
  match a with
  | ⟨0, _⟩ => show win0_20.index t 0 * 128 + 1 * (y 0).val = (y 0).val; rw [show win0_20.index t (0 : Fin 2) = 0 from rfl]; omega
  | ⟨1, _⟩ => show win0_20.index t 1 * 128 + 1 * (y 1).val = (y 1).val; rw [show win0_20.index t (1 : Fin 2) = 0 from rfl]; omega

/-- Window 21's block at any point is the whole of its argument array (its index map is constant zero). -/
theorem iblk_21 (c : Dev nD) (t : Fin cfg0.N) : (iblk m c 21 t : Vec Ideal S1x128 .f32) = m ((c : Thread nD τ).loc main_arg21) := by
  funext y
  unfold iblk
  rw [View.read_apply]
  show V m c main_arg21 _ = m (c.tc.loc main_arg21) y
  rw [V_main_arg21]
  congr 1
  funext a
  apply Fin.ext
  match a with
  | ⟨0, _⟩ => show win0_21.index t 0 * 1 + 1 * (y 0).val = (y 0).val; rw [show win0_21.index t (0 : Fin 2) = 0 from rfl]; omega
  | ⟨1, _⟩ => show win0_21.index t 1 * 128 + 1 * (y 1).val = (y 1).val; rw [show win0_21.index t (1 : Fin 2) = 0 from rfl]; omega

end Cert.ReferenceIdeal.RefBlocks

end
-- ==== Proof.RefRun.lean ====
/-
  The reference's run, read. Point t of the grid writes, into rows (t, ·, ·) of the region's [16, 1024, 128] output array,
  the slab of mesh t: the body's payload is the network of the windows' blocks, the blocks are the mesh's matrices and the
  parameter arrays, and the network of those is the specification's slab. The 16 blocks tile the array (row block b is
  written by point b), so after the region the array holds slab b at (b, v, l). The host then keeps lanes 0..2 and
  flattens the two leading axes: flat row r is (r / 1024, r % 1024), which is the specification's G.
-/
import proofs.«141170_g2000409237439836_pallaspilot1_247_36_alg».proof.Proof.RefBlocks
import Idealize.ShloMosaic.Lib.KernelVsHost

set_option maxRecDepth 16384

noncomputable section
open scoped BigOperators
namespace Cert.ReferenceIdeal.RefValue

open Cert.ReferenceIdeal Cert.ReferenceIdeal.Gen Cert.ReferenceIdeal.RefNet Cert.ReferenceIdeal.RefLayers Cert.ReferenceIdeal.RefMat Cert.ReferenceIdeal.RefBlocks
open Idealize.ShloMosaic Idealize.ShloMosaic.TcCoe Idealize.ShloMosaic.ValueIdx Idealize.ShloMosaic.Tactic Idealize.SL.Sem Cert.Spec
open Idealize.ShloMosaic.Pipeline (Dat Cfg Window BodyObligation cellOf)

variable (m : (ℓ : Loc nD τ sig) → Buf (Elt Ideal) ℓ) (ρ : Dev nD → PrngReg)

/-- The region's output array after the run: the slab of mesh (i 0) at (i 1, i 2). -/
def slabAll (c : Dev nD) : S16x1024x128.Idx → EReal := fun i =>
  Spec.slab (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    ⟨(i 0).val, (i 0).isLt⟩ ⟨(i 1).val, (i 1).isLt⟩ ⟨(i 2).val, (i 2).isLt⟩

theorem slabAll_at (c : Dev nD) (i : S16x1024x128.Idx) (b : Fin 16) (v : Fin 1024) (l : Fin 128)
    (h0 : (i 0).val = b.val) (h1 : (i 1).val = v.val) (h2 : (i 2).val = l.val) :
    slabAll m c i = Spec.slab (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) b v l := by
  have e0 : (⟨(i 0).val, (i 0).isLt⟩ : Fin 16) = b := Fin.ext h0
  have e1 : (⟨(i 1).val, (i 1).isLt⟩ : Fin 1024) = v := Fin.ext h1
  have e2 : (⟨(i 2).val, (i 2).isLt⟩ : Fin 128) = l := Fin.ext h2
  unfold slabAll
  rw [e0, e1, e2]

/-- One point: the payload over blocks that are a mesh's matrices and the parameter arrays is that mesh's slab. -/
theorem point (x0 : Vec Ideal S1x1024x128 .f32) (x1 : Vec Ideal S1x1024x1024 .f32) (x2 : Vec Ideal S128x512 .f32) (x3 : Vec Ideal S1x512 .f32) (x4 : Vec Ideal S512x512 .f32) (x5 : Vec Ideal S1x512 .f32) (x6 : Vec Ideal S512x256 .f32) (x7 : Vec Ideal S1x256 .f32) (x8 : Vec Ideal S256x256 .f32) (x9 : Vec Ideal S1x256 .f32) (x10 : Vec Ideal S2x384x256 .f32) (x11 : Vec Ideal S2x1x256 .f32) (x12 : Vec Ideal S9x2x256x256 .f32) (x13 : Vec Ideal S9x2x1x256 .f32) (x14 : Vec Ideal S256x128 .f32) (x15 : Vec Ideal S1x128 .f32) (x16 : Vec Ideal S128x128 .f32) (x17 : Vec Ideal S1x128 .f32) (x18 : Vec Ideal S128x128 .f32) (x19 : Vec Ideal S1x128 .f32) (x20 : Vec Ideal S128x128 .f32) (x21 : Vec Ideal S1x128 .f32)
    (verts : (⟨3, ![16, 1024, 3]⟩ : Shape).Idx → EReal) (adj : (⟨3, ![16, 1024, 1024]⟩ : Shape).Idx → EReal) (p0 : (⟨2, ![128, 512]⟩ : Shape).Idx → EReal) (p1 : (⟨2, ![1, 512]⟩ : Shape).Idx → EReal) (p2 : (⟨2, ![512, 512]⟩ : Shape).Idx → EReal) (p3 : (⟨2, ![1, 512]⟩ : Shape).Idx → EReal) (p4 : (⟨2, ![512, 256]⟩ : Shape).Idx → EReal) (p5 : (⟨2, ![1, 256]⟩ : Shape).Idx → EReal) (p6 : (⟨2, ![256, 256]⟩ : Shape).Idx → EReal) (p7 : (⟨2, ![1, 256]⟩ : Shape).Idx → EReal) (p8 : (⟨3, ![2, 384, 256]⟩ : Shape).Idx → EReal) (p9 : (⟨3, ![2, 1, 256]⟩ : Shape).Idx → EReal) (p10 : (⟨4, ![9, 2, 256, 256]⟩ : Shape).Idx → EReal) (p11 : (⟨4, ![9, 2, 1, 256]⟩ : Shape).Idx → EReal) (p12 : (⟨2, ![256, 128]⟩ : Shape).Idx → EReal) (p13 : (⟨2, ![1, 128]⟩ : Shape).Idx → EReal) (p14 : (⟨2, ![128, 128]⟩ : Shape).Idx → EReal) (p15 : (⟨2, ![1, 128]⟩ : Shape).Idx → EReal) (p16 : (⟨2, ![128, 128]⟩ : Shape).Idx → EReal) (p17 : (⟨2, ![1, 128]⟩ : Shape).Idx → EReal) (p18 : (⟨2, ![128, 128]⟩ : Shape).Idx → EReal) (p19 : (⟨2, ![1, 128]⟩ : Shape).Idx → EReal) (b : Fin 16)
    (hX : (fun v l => x0 (ix3 (0 : Fin 1) v l)) = Spec.X verts b) (hA : (fun v u => x1 (ix3 (0 : Fin 1) v u)) = Spec.A adj b)
    (h2 : x2 = p0) (h3 : x3 = p1) (h4 : x4 = p2) (h5 : x5 = p3) (h6 : x6 = p4) (h7 : x7 = p5) (h8 : x8 = p6) (h9 : x9 = p7) (h10 : x10 = p8) (h11 : x11 = p9) (h12 : x12 = p10) (h13 : x13 = p11) (h14 : x14 = p12) (h15 : x15 = p13) (h16 : x16 = p14) (h17 : x17 = p15) (h18 : x18 = p16) (h19 : x19 = p17) (h20 : x20 = p18) (h21 : x21 = p19) (u : Fin 1) (v : Fin 1024) (l : Fin 128) :
    (shapeCast S1x1024x128 (netV x0 x1 x2 x3 x4 x5 x6 x7 x8 x9 x10 x11 x12 x13 x14 x15 x16 x17 x18 x19 x20 x21) shapeCasts_S1024x128_S1x1024x128 : FVec Ideal S1x1024x128 .f32) (ix3 u v l)
      = Spec.slab verts adj p0 p1 p2 p3 p4 p5 p6 p7 p8 p9 p10 p11 p12 p13 p14 p15 p16 p17 p18 p19 b v l := by
  subst h2; subst h3; subst h4; subst h5; subst h6; subst h7; subst h8; subst h9; subst h10; subst h11; subst h12; subst h13; subst h14; subst h15; subst h16; subst h17; subst h18; subst h19; subst h20; subst h21
  rw [shapeCast_ab_1ab_apply]
  show mat2 (netV x0 x1 x2 x3 x4 x5 x6 x7 x8 x9 x10 x11 x12 x13 x14 x15 x16 x17 x18 x19 x20 x21) v l = _
  rw [mat2_netV, hX, hA, slab_eq]

/-- WHAT POINT t WRITES BACK is block t of the slabs. -/
theorem flushed_eq (c : Dev nD) (t : Fin cfg0.N) :
    (dats m 0 c).flushed 22 t = ((cfg0.win 22).blk t).view.read (Elt Ideal) (slabAll m c) := by
  show (cfg0.win 22).cut (grid0.coords t) ((dats m 0 c).after 22 t) = _
  rw [after0_22, RefNet.out_eq, View.canon_unit_zero hz3]
  funext j
  obtain ⟨e0, e1, e2⟩ := (idx_facts t).2.2.2.2.2.2
  have hj0 : (j 0).val < 1 := (j 0).isLt
  show (shapeCast S1x1024x128 (netV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) shapeCasts_S1024x128_S1x1024x128 : FVec Ideal S1x1024x128 .f32) j
      = slabAll m c (((cfg0.win 22).blk t).view.emb j)
  refine Eq.trans (congrArg _ (eq_ix3 j)) ?_
  refine (point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (meshOf t) (iblk_0 m c t) (iblk_1 m c t) (iblk_2 m c t) (iblk_3 m c t) (iblk_4 m c t) (iblk_5 m c t) (iblk_6 m c t) (iblk_7 m c t) (iblk_8 m c t) (iblk_9 m c t) (iblk_10 m c t) (iblk_11 m c t) (iblk_12 m c t) (iblk_13 m c t) (iblk_14 m c t) (iblk_15 m c t) (iblk_16 m c t) (iblk_17 m c t) (iblk_18 m c t) (iblk_19 m c t) (iblk_20 m c t) (iblk_21 m c t) (j 0) (j 1) (j 2)).trans ?_
  refine (slabAll_at m c _ (meshOf t) (j 1) (j 2) ?_ ?_ ?_).symm
  · show win0_22.index t 0 * 1 + 1 * (j 0).val = t.val; rw [e0]; omega
  · show win0_22.index t 1 * 1024 + 1 * (j 1).val = (j 1).val; rw [e1]; omega
  · show win0_22.index t 2 * 128 + 1 * (j 2).val = (j 2).val; rw [e2]; omega

/-- An index of the output array is in point t's block iff each coordinate is in the block's range on its axis. -/
theorem mem_blk (t : Fin cfg0.N) (i : S16x1024x128.Idx) :
    i ∈ ((cfg0.win 22).blk t).view.set ↔ ∀ a : Fin 3, win0_22.index t a * S1x1024x128.size a ≤ (i a).val ∧ (i a).val < win0_22.index t a * S1x1024x128.size a + S1x1024x128.size a := by
  show i ∈ ((View.whole main_v1).slice (win0_22.rect t)).set ↔ _
  rw [View.set_slice_whole, Rect.mem_set_unit]
  exact Iff.rfl

/-- Row block b of the output array is written by point b: the blocks cover the array. -/
theorem cover (i : S16x1024x128.Idx) : ∃ t : Fin cfg0.N, (cfg0.win 22).flush t = true ∧ i ∈ ((cfg0.win 22).blk t).view.set := by
  have hN : cfg0.N = 16 := N_0
  have hi0 : (i 0).val < 16 := (i 0).isLt
  have hi1 : (i 1).val < 1024 := (i 1).isLt
  have hi2 : (i 2).val < 128 := (i 2).isLt
  obtain ⟨t, ht⟩ : ∃ t : Fin cfg0.N, t.val = (i 0).val := ⟨⟨(i 0).val, by omega⟩, rfl⟩
  refine ⟨t, flush0_22 t, ?_⟩
  obtain ⟨e0, e1, e2⟩ := (idx_facts t).2.2.2.2.2.2
  rw [mem_blk]
  intro a
  match a with
  | ⟨0, _⟩ => show win0_22.index t 0 * 1 ≤ (i 0).val ∧ (i 0).val < win0_22.index t 0 * 1 + 1; rw [e0]; omega
  | ⟨1, _⟩ => show win0_22.index t 1 * 1024 ≤ (i 1).val ∧ (i 1).val < win0_22.index t 1 * 1024 + 1024; rw [e1]; omega
  | ⟨2, _⟩ => show win0_22.index t 2 * 128 ≤ (i 2).val ∧ (i 2).val < win0_22.index t 2 * 128 + 128; rw [e2]; omega

/-- THE OUTPUT ARRAY after the region: the slabs. -/
theorem final (c : Dev nD) : (dats m 0 c).arrAt 22 cfg0.N = slabAll m c :=
  (dats m 0 c).arrAt_eq_of_cover 22 (slabAll m c) (fun t _ => flushed_eq m c t) cover

/-- The host tail: lanes 0..2 kept and the two leading axes flattened. -/
theorem tail_eq (c : Dev nD) :
    Pipeline.afterTail₀ cfgs (dats m) 0 (V0 m) [hostOps1] c main_v3 = Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold Pipeline.afterTail₀
  show StableHlo.after hostOps1 _ (Proc.devRef .tc main_v3) = _
  after_results
  refine funext fun (i : S16384x3.Idx) => ?_
  obtain ⟨r, j, rfl⟩ : ∃ (r : Fin 16384) (j : Fin 3), i = ix2 r j := ⟨i 0, i 1, eq_ix2 i⟩
  have hr : r.val < 16384 := r.isLt
  have hj : j.val < 3 := j.isLt
  have hW : Pipeline.withArrays (cfgs 0).spec c (V0 m c) (fun w => (dats m 0 c).arrAt w (cfgs 0).N) (Proc.devRef .tc main_v1) = slabAll m c :=
    (Pipeline.withArrays_arr spec0 launch0.win.arr_inj c _ _ 22).trans (final m c)
  show shapeCast S16384x3 (extractStridedSlice S16x1024x3 ![0, 0, 0]
      (Pipeline.withArrays (cfgs 0).spec c (V0 m c) (fun w => (dats m 0 c).arrAt w (cfgs 0).N) (Proc.devRef .tc main_v1))
      slices_S16x1024x128_S16x1024x3_0_0_0) shapeCasts_S16x1024x3_S16384x3 (ix2 r j) = _
  rw [hW]
  refine (shapeCast_apply _ _ (ix2 r j) (ix3 (⟨r.val / 1024, by omega⟩ : Fin 16) (⟨r.val % 1024, Nat.mod_lt _ (by norm_num)⟩ : Fin 1024) j) ?_).trans ?_
  · rw [Shape.rowMajor_val_three, Shape.rowMajor_val_two]
    show (r.val / 1024 * 1024 + r.val % 1024) * 3 + j.val = r.val * 3 + j.val
    omega
  refine (extractStridedSlice_apply _ _ _ _ (ix3 (⟨r.val / 1024, by omega⟩ : Fin 16) (⟨r.val % 1024, Nat.mod_lt _ (by norm_num)⟩ : Fin 1024) (⟨j.val, by omega⟩ : Fin 128)) ?_).trans ?_
  · intro a
    match a with
    | ⟨0, _⟩ => show r.val / 1024 = 0 + r.val / 1024; omega
    | ⟨1, _⟩ => show r.val % 1024 = 0 + r.val % 1024; omega
    | ⟨2, _⟩ => show j.val = 0 + j.val; omega
  rfl

set_option maxHeartbeats 4000000 in
/-- THE REFERENCE'S RUN, READ: the result array is the specification's G of the argument arrays, and the arguments end as
    launched. -/
theorem run : θ_run (defs (F := Ideal)) (onTc (τ := τ) (main (F := Ideal))) ⟨m, fun _ => 0, ρ⟩ (fun r => ∀ c : Dev nD,
      r.2.mem ((c.tc : Thread nD τ).loc main_v3)
          = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨((h c).2 main_v3 (Pipeline.mem_restRefs_of main_v3 (by decide) (by decide))).trans (tail_eq m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c))),
      ((h c).1 8).trans ((((dats m) 0 c).arrAt_in 8 rfl _).trans ((A_eq m c 8).trans (V_main_arg8 m c))),
      ((h c).1 9).trans ((((dats m) 0 c).arrAt_in 9 rfl _).trans ((A_eq m c 9).trans (V_main_arg9 m c))),
      ((h c).1 10).trans ((((dats m) 0 c).arrAt_in 10 rfl _).trans ((A_eq m c 10).trans (V_main_arg10 m c))),
      ((h c).1 11).trans ((((dats m) 0 c).arrAt_in 11 rfl _).trans ((A_eq m c 11).trans (V_main_arg11 m c))),
      ((h c).1 12).trans ((((dats m) 0 c).arrAt_in 12 rfl _).trans ((A_eq m c 12).trans (V_main_arg12 m c))),
      ((h c).1 13).trans ((((dats m) 0 c).arrAt_in 13 rfl _).trans ((A_eq m c 13).trans (V_main_arg13 m c))),
      ((h c).1 14).trans ((((dats m) 0 c).arrAt_in 14 rfl _).trans ((A_eq m c 14).trans (V_main_arg14 m c))),
      ((h c).1 15).trans ((((dats m) 0 c).arrAt_in 15 rfl _).trans ((A_eq m c 15).trans (V_main_arg15 m c))),
      ((h c).1 16).trans ((((dats m) 0 c).arrAt_in 16 rfl _).trans ((A_eq m c 16).trans (V_main_arg16 m c))),
      ((h c).1 17).trans ((((dats m) 0 c).arrAt_in 17 rfl _).trans ((A_eq m c 17).trans (V_main_arg17 m c))),
      ((h c).1 18).trans ((((dats m) 0 c).arrAt_in 18 rfl _).trans ((A_eq m c 18).trans (V_main_arg18 m c))),
      ((h c).1 19).trans ((((dats m) 0 c).arrAt_in 19 rfl _).trans ((A_eq m c 19).trans (V_main_arg19 m c))),
      ((h c).1 20).trans ((((dats m) 0 c).arrAt_in 20 rfl _).trans ((A_eq m c 20).trans (V_main_arg20 m c))),
      ((h c).1 21).trans ((((dats m) 0 c).arrAt_in 21 rfl _).trans ((A_eq m c 21).trans (V_main_arg21 m c)))⟩) (run_main m ρ)

end Cert.ReferenceIdeal.RefValue

end
-- ==== Proof.Assemble.lean ====
/-
  The claims assembled. The three frame claims are the generated frames. The idealization rewrote no operation, so
  what it must preserve is nothing. The algebraic claim: both programs, at the ideal values, end with the
  specification's result G of their own argument arrays; the two memories agree on the arguments, so the two results are
  one function of equal arguments.
-/
import proofs.«141170_g2000409237439836_pallaspilot1_247_36_alg».proof.Defs
import proofs.«141170_g2000409237439836_pallaspilot1_247_36_alg».proof.Proof.Gen.Kernel.Frame
import proofs.«141170_g2000409237439836_pallaspilot1_247_36_alg».proof.Proof.Gen.KernelIdeal.Frame
import proofs.«141170_g2000409237439836_pallaspilot1_247_36_alg».proof.Proof.Gen.ReferenceIdeal.Frame
import proofs.«141170_g2000409237439836_pallaspilot1_247_36_alg».proof.Proof.Gen.Pre_finite_inputs
import proofs.«141170_g2000409237439836_pallaspilot1_247_36_alg».proof.Proof.KRun
import proofs.«141170_g2000409237439836_pallaspilot1_247_36_alg».proof.Proof.RefRun

noncomputable section

namespace Cert.Proof.Parts

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization is the program's own text read at the ideal values: nothing was rewritten. -/
theorem preserves : Cert.preserves_Kernel_KernelIdeal := trivial

set_option maxHeartbeats 4000000 in
/-- Given the kernel's per-point slab fact, both runs end with G of arguments that agree. -/
theorem algebraic_of (H : Cert.KernelIdeal.KValue.SlabHyp) : Cert.algebraic_KernelIdeal_ReferenceIdeal := by
  intro m ρ m' ρ' _ hagree
  refine ⟨fun c => Cert.KernelIdeal.KValue.GAt m c, Cert.KernelIdeal.KValue.run_of (m := m) (ρ := ρ) H, ?_⟩
  refine (θ_run Cert.ReferenceIdeal.defs _ _).mono (fun r h c => ⟨(h c).1.trans ?_, (h c).2⟩)
    (Cert.ReferenceIdeal.RefValue.run m' ρ')
  obtain ⟨a0, a1, a2, a3, a4, a5, a6, a7, a8, a9, a10, a11, a12, a13, a14, a15, a16, a17, a18, a19, a20, a21⟩ := hagree c
  rw [a0, a1, a2, a3, a4, a5, a6, a7, a8, a9, a10, a11, a12, a13, a14, a15, a16, a17, a18, a19, a20, a21]

end Cert.Proof.Parts

end
-- ==== Proof.KLayers.lean ====
/-
  The layers of the network as vector operations at the ideal values, each read as a matrix.

  A rank-2 vector `v` is the matrix `toM v` of its entries. Read that way: a matrix product into the zero
  accumulator followed by a broadcast bias row is `Spec.lin`; the maximum of `v` and `slope · v` is `Spec.lrelu`; the
  maximum with the zero splat is `Spec.relu`; a change of float format is the identity; a column slice keeps the
  columns from its offset on; dropping a leading unit axis keeps the entries. A graph convolution computed from ONE
  pre-activation of doubled width (the two branches side by side) is `Spec.gmix` of its left and right halves.
-/
import Idealize.ShloMosaic.Lib.ValueLayout
import Idealize.ShloMosaic.Lib.Pipeline.Value
import proofs.«141170_g2000409237439836_pallaspilot1_247_36_alg».proof.Proof.LibMat
import proofs.«141170_g2000409237439836_pallaspilot1_247_36_alg».proof.Proof.Spec

noncomputable section

open scoped BigOperators

namespace Cert.KLayer

open Idealize.ShloMosaic Idealize.ShloMosaic.ValueIdx Cert.LibMat Cert.Spec

/-- A rank-2 vector at the ideal values. -/
abbrev V2 (a b : ℕ) (φ : FTy) := FVec Ideal ⟨2, ![a, b]⟩ φ

/-- Its matrix of entries. -/
def toM {a b : ℕ} {φ : FTy} (v : V2 a b φ) : Mat a b := fun p q => v (ix2 p q)

theorem toM_apply {a b : ℕ} {φ : FTy} (v : V2 a b φ) (p : Fin a) (q : Fin b) : toM v p q = v (ix2 p q) := rfl

/-- A change of float format keeps the entries. -/
theorem toM_truncf {a b : ℕ} {φ ψ : FTy} (v : V2 a b φ) (h : ψ.bits < φ.bits) : toM (truncf ψ v h : V2 a b ψ) = toM v := rfl

/-- The trivial shape cast keeps the entries. -/
theorem toM_shapeCast_self {a b : ℕ} {φ : FTy} (v : V2 a b φ) (h : (⟨2, ![a, b]⟩ : Shape).ShapeCasts ⟨2, ![a, b]⟩) :
    toM (shapeCast ⟨2, ![a, b]⟩ v h : V2 a b φ) = toM v := by
  rw [shapeCast_self]

/-- Dropping a leading unit axis: entry (p, q) is the operand's (0, p, q). -/
theorem toM_shapeCast_drop {a b : ℕ} {φ : FTy} (v : FVec Ideal ⟨3, ![1, a, b]⟩ φ)
    (h : (⟨3, ![1, a, b]⟩ : Shape).ShapeCasts ⟨2, ![a, b]⟩) :
    toM (shapeCast ⟨2, ![a, b]⟩ v h : V2 a b φ) = fun p q => v (ix3 (0 : Fin 1) p q) := by
  funext p q
  exact shapeCast_1ab_ab_apply v h p q

/-- Matrix product into the zero accumulator, then the bias row broadcast over the rows. -/
def linV {m k n : ℕ} {φ φ' : FTy} (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (h : V2 m k φ) (W : V2 k n φ') (b : V2 1 n .f32) : V2 m n .f32 :=
  addf (matmul (plainDims w) none h W (constant ⟨2, ![m, n]⟩ .f32 0x00000000#32)) (broadcastTo ⟨2, ![m, n]⟩ b hb)

theorem toM_linV {m k n : ℕ} {φ φ' : FTy} (w : DotDims.WF ⟨2, ![m, k]⟩ ⟨2, ![k, n]⟩ ⟨2, ![m, n]⟩ [1] [0] [0] [1] [] [])
    (hb : (⟨2, ![1, n]⟩ : Shape).Broadcasts ⟨2, ![m, n]⟩) (h : V2 m k φ) (W : V2 k n φ') (b : V2 1 n .f32) :
    toM (linV w hb h W b) = lin (toM h) (toM W) (toM b 0) := by
  funext p q
  show addf _ _ (ix2 p q) = _
  rw [addf_apply, matmul_plain_apply, broadcastTo_1b_ab_apply]
  rfl

/-- Two products summed, then the bias row: the pre-activation of a layer fed by two inputs. -/
def lin2V {m k k' n : ℕ} {φ φ' ψ ψ' : FTy} (w : DotDims.WF ⟨2, ![m, k]⟩ ⟨2, ![k, n]⟩ ⟨2, ![m, n]⟩ [1] [0] [0] [1] [] [])
    (w' : DotDims.WF ⟨2, ![m, k']⟩ ⟨2, ![k', n]⟩ ⟨2, ![m, n]⟩ [1] [0] [0] [1] [] [])
    (hb : (⟨2, ![1, n]⟩ : Shape).Broadcasts ⟨2, ![m, n]⟩)
    (h : V2 m k φ) (W : V2 k n φ') (x : V2 m k' ψ) (W' : V2 k' n ψ') (b : V2 1 n .f32) : V2 m n .f32 :=
  addf (addf (matmul (plainDims w) none h W (constant ⟨2, ![m, n]⟩ .f32 0x00000000#32))
    (matmul (plainDims w') none x W' (constant ⟨2, ![m, n]⟩ .f32 0x00000000#32))) (broadcastTo ⟨2, ![m, n]⟩ b hb)

theorem toM_lin2V {m k k' n : ℕ} {φ φ' ψ ψ' : FTy} (w : DotDims.WF ⟨2, ![m, k]⟩ ⟨2, ![k, n]⟩ ⟨2, ![m, n]⟩ [1] [0] [0] [1] [] [])
    (w' : DotDims.WF ⟨2, ![m, k']⟩ ⟨2, ![k', n]⟩ ⟨2, ![m, n]⟩ [1] [0] [0] [1] [] [])
    (hb : (⟨2, ![1, n]⟩ : Shape).Broadcasts ⟨2, ![m, n]⟩)
    (h : V2 m k φ) (W : V2 k n φ') (x : V2 m k' ψ) (W' : V2 k' n ψ') (b : V2 1 n .f32) :
    toM (lin2V w w' hb h W x W' b)
      = addRow (fun p q => mm (toM h) (toM W) p q + mm (toM x) (toM W') p q) (toM b 0) := by
  funext p q
  show addf (addf _ _) _ (ix2 p q) = _
  rw [addf_apply, addf_apply, matmul_plain_apply, matmul_plain_apply, broadcastTo_1b_ab_apply]
  rfl

/-- Leaky ReLU in its maximum form. -/
def leakyV {m n : ℕ} (v : V2 m n .f32) : V2 m n .f32 :=
  maximumf v (mulf (broadcast ⟨2, ![m, n]⟩ (Scalar.ofBits (F := Ideal) .f32 0x3C23D70A#32)) v)

theorem toM_leakyV {m n : ℕ} (v : V2 m n .f32) : toM (leakyV v) = lrelu (toM v) := rfl

/-- ReLU: the maximum with the zero splat. -/
def reluV {m n : ℕ} (v : V2 m n .f32) : V2 m n .f32 :=
  maximumf v (broadcast ⟨2, ![m, n]⟩ (Scalar.ofBits (F := Ideal) .f32 0x00000000#32))

theorem toM_reluV {m n : ℕ} (v : V2 m n .f32) : toM (reluV v) = relu (toM v) := by
  funext p q
  show max (v (ix2 p q)) (Ideal.ofBits .f32 0x00000000#32) = max (v (ix2 p q)) 0
  rw [Ideal.ofBits_zero_f32]

/-- The columns of a matrix from `o` on, `n` of them. -/
def cols {m c : ℕ} (o n : ℕ) (h : o + n ≤ c) (M : Mat m c) : Mat m n :=
  fun p q => M p ⟨o + q.val, by have := q.isLt; omega⟩

theorem toM_slice {m c n : ℕ} {φ : FTy} (o : ℕ) (v : V2 m c φ) (hs : (⟨2, ![m, c]⟩ : Shape).Slices ![0, o] ⟨2, ![m, n]⟩)
    (hle : o + n ≤ c) :
    toM (extractStridedSlice ⟨2, ![m, n]⟩ ![0, o] v hs : V2 m n φ) = cols o n hle (toM v) := by
  funext p q
  exact slice2_axis1_eq o v hs p q

/-- A graph convolution from ONE pre-activation of doubled width: relu (left half + adjacency · right half). -/
def gmixV {m c n : ℕ} {φ : FTy} (o : ℕ) (hs0 : (⟨2, ![m, c]⟩ : Shape).Slices ![0, 0] ⟨2, ![m, n]⟩)
    (hs1 : (⟨2, ![m, c]⟩ : Shape).Slices ![0, o] ⟨2, ![m, n]⟩)
    (wA : DotDims.WF ⟨2, ![m, m]⟩ ⟨2, ![m, n]⟩ ⟨2, ![m, n]⟩ [1] [0] [0] [1] [] [])
    (hlt : FTy.bits .bf16 < FTy.bits .f32) (adj : V2 m m φ) (hx : V2 m c .f32) : V2 m n .f32 :=
  reluV (addf (extractStridedSlice ⟨2, ![m, n]⟩ ![0, 0] hx hs0)
    (matmul (plainDims wA) none adj (truncf .bf16 (extractStridedSlice ⟨2, ![m, n]⟩ ![0, o] hx hs1) hlt)
      (constant ⟨2, ![m, n]⟩ .f32 0x00000000#32)))

theorem toM_gmixV {m c n : ℕ} {φ : FTy} (o : ℕ) (hs0 : (⟨2, ![m, c]⟩ : Shape).Slices ![0, 0] ⟨2, ![m, n]⟩)
    (hs1 : (⟨2, ![m, c]⟩ : Shape).Slices ![0, o] ⟨2, ![m, n]⟩)
    (wA : DotDims.WF ⟨2, ![m, m]⟩ ⟨2, ![m, n]⟩ ⟨2, ![m, n]⟩ [1] [0] [0] [1] [] [])
    (hlt : FTy.bits .bf16 < FTy.bits .f32) (adj : V2 m m φ) (hx : V2 m c .f32) (hle0 : 0 + n ≤ c) (hle1 : o + n ≤ c) :
    toM (gmixV o hs0 hs1 wA hlt adj hx)
      = gmix (toM adj) (cols 0 n hle0 (toM hx)) (cols o n hle1 (toM hx)) := by
  unfold gmixV
  rw [toM_reluV]
  unfold gmix
  congr 1
  funext p q
  show addf _ _ (ix2 p q) = _
  rw [addf_apply, matmul_plain_apply]
  have e0 := congrFun (congrFun (toM_slice 0 hx hs0 hle0) p) q
  rw [toM_apply] at e0
  rw [e0]
  refine congrArg (cols 0 n hle0 (toM hx) p q + ·) (Finset.sum_congr rfl fun j _ => ?_)
  have e1 := congrFun (congrFun (toM_slice o hx hs1 hle1) j) q
  rw [toM_apply] at e1
  rw [truncf_apply, e1]
  rfl

/-- A linear layer's columns are the linear layer of the weights' and the bias's columns. -/
theorem cols_lin {m k c : ℕ} (o n : ℕ) (h : o + n ≤ c) (H : Mat m k) (W : Mat k c) (r : Fin c → EReal) :
    cols o n h (lin H W r) = lin H (cols o n h W) (fun q => r ⟨o + q.val, by have := q.isLt; omega⟩) := rfl

/-- The same for a pre-activation fed by two inputs. -/
theorem cols_lin2 {m k k' c : ℕ} (o n : ℕ) (h : o + n ≤ c) (H : Mat m k) (W : Mat k c) (X : Mat m k') (W' : Mat k' c)
    (r : Fin c → EReal) :
    cols o n h (addRow (fun p q => mm H W p q + mm X W' p q) r)
      = addRow (fun p q => mm H (cols o n h W) p q + mm X (cols o n h W') p q)
          (fun q => r ⟨o + q.val, by have := q.isLt; omega⟩) := rfl

end Cert.KLayer

end
-- ==== Proof.KNet.lean ====
/-
  The kernel's body, regrouped by layers. One mesh of the body's two applies, to the mesh's [1,1024,128] block of padded
  coordinates and its [1,1024,1024] block of adjacency, the layers of KLayers.lean in the network's order, with the
  weights as the body loads them; `kNet` is that composition — four leaky layers, graph convolution 0, the nine later
  graph convolutions, four more layers — written with the SAME operations in the SAME order as the printed body, so that
  each of the body's two stored values is `kNet` of its mesh's loads by unfolding alone.
-/
import proofs.«141170_g2000409237439836_pallaspilot1_247_36_alg».proof.Proof.Gen.KernelIdeal.Frame
import proofs.«141170_g2000409237439836_pallaspilot1_247_36_alg».proof.Proof.KLayers

set_option maxRecDepth 16384

noncomputable section

namespace Cert.KernelIdeal.KNet

open Idealize.ShloMosaic Idealize.ShloMosaic.ValueIdx Cert.KernelIdeal Cert.KernelIdeal.Gen Cert.KLayer

/-- A linear layer with leaky ReLU, its result in the narrow format. -/
def leakyLayer {m k n : ℕ} (w : DotDims.WF ⟨2, ![m, k]⟩ ⟨2, ![k, n]⟩ ⟨2, ![m, n]⟩ [1] [0] [0] [1] [] [])
    (hb : (⟨2, ![1, n]⟩ : Shape).Broadcasts ⟨2, ![m, n]⟩) (hc : (⟨2, ![k, n]⟩ : Shape).ShapeCasts ⟨2, ![k, n]⟩)
    (h : V2 m k .bf16) (W : V2 k n .bf16) (b : V2 1 n .f32) : V2 m n .bf16 :=
  truncf .bf16 (leakyV (linV w hb h (shapeCast ⟨2, ![k, n]⟩ W hc) b)) bitsLt_bf16_f32

/-- One of the nine later graph convolutions: the fused product, the fused bias, the mix. -/
def gconvLayer (A : V2 1024 1024 .bf16) (h : V2 1024 256 .bf16) (g : FVec Ideal S1x256x512 .bf16) (c : FVec Ideal S1x1x512 .f32) :
    V2 1024 256 .bf16 :=
  truncf .bf16 (gmixV 256 slices_S1024x512_o0_0_S1024x256 slices_S1024x512_o0_256_S1024x256
    dot_S1024x1024_S1024x256_S1024x256_1_0_0_1_n_n_wf bitsLt_bf16_f32 A
    (linV dot_S1024x256_S256x512_S1024x512_1_0_0_1_n_n_wf broadcasts_S1x512_S1024x512 h
      (shapeCast S256x512 g shapeCasts_S1x256x512_S256x512) (shapeCast S1x512 c shapeCasts_S1x1x512_S1x512))) bitsLt_bf16_f32

/-- The mesh's block of padded coordinates as a matrix. -/
def castX (x : FVec Ideal S1x1024x128 .bf16) : V2 1024 128 .bf16 := shapeCast S1024x128 x shapeCasts_S1x1024x128_S1024x128
/-- The mesh's block of adjacency as a matrix, in the narrow format. -/
def castA (a : FVec Ideal S1x1024x1024 .f32) : V2 1024 1024 .bf16 :=
  truncf .bf16 (shapeCast S1024x1024 a shapeCasts_S1x1024x1024_S1024x1024) bitsLt_bf16_f32

/-- The first four layers. -/
def stage1 (X : V2 1024 128 .bf16)
    (w2 : FVec Ideal S128x512 .bf16) (w3 : FVec Ideal S1x512 .f32) (w4 : FVec Ideal S512x512 .bf16) (w5 : FVec Ideal S1x512 .f32)
    (w6 : FVec Ideal S512x256 .bf16) (w7 : FVec Ideal S1x256 .f32) (w8 : FVec Ideal S256x256 .bf16) (w9 : FVec Ideal S1x256 .f32) :
    V2 1024 256 .bf16 :=
  leakyLayer dot_S1024x256_S256x256_S1024x256_1_0_0_1_n_n_wf broadcasts_S1x256_S1024x256 shapeCasts_S256x256_S256x256
    (leakyLayer dot_S1024x512_S512x256_S1024x256_1_0_0_1_n_n_wf broadcasts_S1x256_S1024x256 shapeCasts_S512x256_S512x256
      (leakyLayer dot_S1024x512_S512x512_S1024x512_1_0_0_1_n_n_wf broadcasts_S1x512_S1024x512 shapeCasts_S512x512_S512x512
        (leakyLayer dot_S1024x128_S128x512_S1024x512_1_0_0_1_n_n_wf broadcasts_S1x512_S1024x512 shapeCasts_S128x512_S128x512 X w2 w3)
        w4 w5) w6 w7) w8 w9

/-- Graph convolution 0. -/
def stage2 (X : V2 1024 128 .bf16) (A : V2 1024 1024 .bf16) (h4 : V2 1024 256 .bf16)
    (w10 : FVec Ideal S256x512 .bf16) (w11 : FVec Ideal S128x512 .bf16) (w12 : FVec Ideal S1x512 .f32) : V2 1024 256 .bf16 :=
  truncf .bf16 (gmixV 256 slices_S1024x512_o0_0_S1024x256 slices_S1024x512_o0_256_S1024x256
    dot_S1024x1024_S1024x256_S1024x256_1_0_0_1_n_n_wf bitsLt_bf16_f32 A
    (lin2V dot_S1024x256_S256x512_S1024x512_1_0_0_1_n_n_wf dot_S1024x128_S128x512_S1024x512_1_0_0_1_n_n_wf broadcasts_S1x512_S1024x512
      h4 (shapeCast S256x512 w10 shapeCasts_S256x512_S256x512) X (shapeCast S128x512 w11 shapeCasts_S128x512_S128x512)
      (shapeCast S1x512 w12 shapeCasts_S1x512_S1x512))) bitsLt_bf16_f32

/-- The nine later graph convolutions. -/
def stage3 (A : V2 1024 1024 .bf16) (q0 : V2 1024 256 .bf16)
    (g1 : FVec Ideal S1x256x512 .bf16) (c1 : FVec Ideal S1x1x512 .f32)
    (g2 : FVec Ideal S1x256x512 .bf16) (c2 : FVec Ideal S1x1x512 .f32)
    (g3 : FVec Ideal S1x256x512 .bf16) (c3 : FVec Ideal S1x1x512 .f32)
    (g4 : FVec Ideal S1x256x512 .bf16) (c4 : FVec Ideal S1x1x512 .f32)
    (g5 : FVec Ideal S1x256x512 .bf16) (c5 : FVec Ideal S1x1x512 .f32)
    (g6 : FVec Ideal S1x256x512 .bf16) (c6 : FVec Ideal S1x1x512 .f32)
    (g7 : FVec Ideal S1x256x512 .bf16) (c7 : FVec Ideal S1x1x512 .f32)
    (g8 : FVec Ideal S1x256x512 .bf16) (c8 : FVec Ideal S1x1x512 .f32)
    (g9 : FVec Ideal S1x256x512 .bf16) (c9 : FVec Ideal S1x1x512 .f32) : V2 1024 256 .bf16 :=
  gconvLayer A (gconvLayer A (gconvLayer A (gconvLayer A (gconvLayer A (gconvLayer A (gconvLayer A (gconvLayer A
    (gconvLayer A q0 g1 c1) g2 c2) g3 c3) g4 c4) g5 c5) g6 c6) g7 c7) g8 c8) g9 c9

/-- The last four layers, of which the first eight columns are kept. -/
def stage4 (q9 : V2 1024 256 .bf16)
    (w15 : FVec Ideal S256x128 .bf16) (w16 : FVec Ideal S1x128 .f32) (w17 : FVec Ideal S128x128 .bf16) (w18 : FVec Ideal S1x128 .f32)
    (w19 : FVec Ideal S128x128 .bf16) (w20 : FVec Ideal S1x128 .f32) (w21 : FVec Ideal S128x128 .bf16) (w22 : FVec Ideal S1x128 .f32) :
    FVec Ideal S1024x8 .f32 :=
  extractStridedSlice S1024x8 ![0, 0]
    (linV dot_S1024x128_S128x128_S1024x128_1_0_0_1_n_n_wf broadcasts_S1x128_S1024x128
      (leakyLayer dot_S1024x128_S128x128_S1024x128_1_0_0_1_n_n_wf broadcasts_S1x128_S1024x128 shapeCasts_S128x128_S128x128
        (leakyLayer dot_S1024x128_S128x128_S1024x128_1_0_0_1_n_n_wf broadcasts_S1x128_S1024x128 shapeCasts_S128x128_S128x128
          (leakyLayer dot_S1024x256_S256x128_S1024x128_1_0_0_1_n_n_wf broadcasts_S1x128_S1024x128 shapeCasts_S256x128_S256x128 q9 w15 w16)
          w17 w18) w19 w20)
      (shapeCast S128x128 w21 shapeCasts_S128x128_S128x128) w22)
    slices_S1024x128_o0_0_S1024x8

/-- One mesh of the body: from its two blocks and the loaded weights to the [1024, 8] value it stores. -/
def kNet (x : FVec Ideal S1x1024x128 .bf16) (a : FVec Ideal S1x1024x1024 .f32)
    (w2 : FVec Ideal S128x512 .bf16) (w3 : FVec Ideal S1x512 .f32) (w4 : FVec Ideal S512x512 .bf16) (w5 : FVec Ideal S1x512 .f32)
    (w6 : FVec Ideal S512x256 .bf16) (w7 : FVec Ideal S1x256 .f32) (w8 : FVec Ideal S256x256 .bf16) (w9 : FVec Ideal S1x256 .f32)
    (w10 : FVec Ideal S256x512 .bf16) (w11 : FVec Ideal S128x512 .bf16) (w12 : FVec Ideal S1x512 .f32)
    (g1 : FVec Ideal S1x256x512 .bf16) (c1 : FVec Ideal S1x1x512 .f32)
    (g2 : FVec Ideal S1x256x512 .bf16) (c2 : FVec Ideal S1x1x512 .f32)
    (g3 : FVec Ideal S1x256x512 .bf16) (c3 : FVec Ideal S1x1x512 .f32)
    (g4 : FVec Ideal S1x256x512 .bf16) (c4 : FVec Ideal S1x1x512 .f32)
    (g5 : FVec Ideal S1x256x512 .bf16) (c5 : FVec Ideal S1x1x512 .f32)
    (g6 : FVec Ideal S1x256x512 .bf16) (c6 : FVec Ideal S1x1x512 .f32)
    (g7 : FVec Ideal S1x256x512 .bf16) (c7 : FVec Ideal S1x1x512 .f32)
    (g8 : FVec Ideal S1x256x512 .bf16) (c8 : FVec Ideal S1x1x512 .f32)
    (g9 : FVec Ideal S1x256x512 .bf16) (c9 : FVec Ideal S1x1x512 .f32)
    (w15 : FVec Ideal S256x128 .bf16) (w16 : FVec Ideal S1x128 .f32) (w17 : FVec Ideal S128x128 .bf16) (w18 : FVec Ideal S1x128 .f32)
    (w19 : FVec Ideal S128x128 .bf16) (w20 : FVec Ideal S1x128 .f32) (w21 : FVec Ideal S128x128 .bf16) (w22 : FVec Ideal S1x128 .f32) :
    FVec Ideal S1024x8 .f32 :=
  stage4 (stage3 (castA a) (stage2 (castX x) (castA a) (stage1 (castX x) w2 w3 w4 w5 w6 w7 w8 w9) w10 w11 w12)
    g1 c1 g2 c2 g3 c3 g4 c4 g5 c5 g6 c6 g7 c7 g8 c8 g9 c9) w15 w16 w17 w18 w19 w20 w21 w22

end Cert.KernelIdeal.KNet

end
-- ==== Proof.KSteps.lean ====
/-
  One layer at a time: each layer of the regrouped body, read as a matrix, is the specification's layer of the previous
  layer's matrix — given what the layer's loaded weights are, entry by entry, in terms of the parameter arrays. The
  kernel's graph convolutions use the two branches' weights side by side (columns 0..255 branch 0, columns 256..511
  branch 1) in one product of doubled width and then take the halves: a linear layer's columns are the linear layer of
  the weights' columns, so the halves are the two branches' own linear layers.
-/
import proofs.«141170_g2000409237439836_pallaspilot1_247_36_alg».proof.Proof.KNet

set_option maxRecDepth 16384

noncomputable section

namespace Cert.KernelIdeal.KNet

open Idealize.ShloMosaic Idealize.ShloMosaic.ValueIdx Cert.KernelIdeal Cert.KernelIdeal.Gen Cert.KLayer Cert.Spec

/-- A column `n ≥ 256` of 512, counted from 256. -/
def hi256 (n : Fin 512) (hn : ¬ n.val < 256) : Fin 256 := ⟨n.val - 256, by have := n.isLt; omega⟩

/-- A lane below 8 as a lane of 128. -/
def lane8 (j : Fin 8) : Fin 128 := ⟨j.val, by have := j.isLt; omega⟩

/-- A matrix of 512 columns given as two matrices of 256 columns side by side: its halves. -/
theorem cols_split {m : ℕ} (M : Mat m 512) (L R : Mat m 256)
    (h : ∀ (k : Fin m) (n : Fin 512), M k n = if hn : n.val < 256 then L k ⟨n.val, hn⟩ else R k (hi256 n hn)) :
    cols 0 256 (by norm_num) M = L ∧ cols 256 256 (by norm_num) M = R := by
  constructor
  · funext k q
    show M k ⟨0 + q.val, _⟩ = _
    rw [h, dif_pos (by show 0 + q.val < 256; have := q.isLt; omega)]
    exact congrArg (L k) (Fin.ext (by show 0 + q.val = q.val; omega))
  · funext k q
    show M k ⟨256 + q.val, _⟩ = _
    rw [h, dif_neg (by show ¬ (256 + q.val < 256); omega)]
    exact congrArg (R k) (Fin.ext (by show 256 + q.val - 256 = q.val; omega))

/-- The same for a row of 512 entries. -/
theorem row_split (r : Fin 512 → EReal) (L R : Fin 256 → EReal)
    (h : ∀ n : Fin 512, r n = if hn : n.val < 256 then L ⟨n.val, hn⟩ else R (hi256 n hn)) :
    (fun q : Fin 256 => r ⟨0 + q.val, by have := q.isLt; omega⟩) = L
      ∧ (fun q : Fin 256 => r ⟨256 + q.val, by have := q.isLt; omega⟩) = R := by
  constructor
  · funext q
    show r ⟨0 + q.val, _⟩ = _
    rw [h, dif_pos (by show 0 + q.val < 256; have := q.isLt; omega)]
    exact congrArg L (Fin.ext (by show 0 + q.val = q.val; omega))
  · funext q
    show r ⟨256 + q.val, _⟩ = _
    rw [h, dif_neg (by show ¬ (256 + q.val < 256); omega)]
    exact congrArg R (Fin.ext (by show 256 + q.val - 256 = q.val; omega))

/-- A leaky layer: the previous layer's matrix through the layer's weights and bias, as the parameter arrays give them. -/
theorem leaky_step {m k n : ℕ} (w : DotDims.WF ⟨2, ![m, k]⟩ ⟨2, ![k, n]⟩ ⟨2, ![m, n]⟩ [1] [0] [0] [1] [] [])
    (hb : (⟨2, ![1, n]⟩ : Shape).Broadcasts ⟨2, ![m, n]⟩) (hc : (⟨2, ![k, n]⟩ : Shape).ShapeCasts ⟨2, ![k, n]⟩)
    (h : V2 m k .bf16) (H : Mat m k) (hh : toM h = H) (W : V2 k n .bf16) (bb : V2 1 n .f32)
    (P : (⟨2, ![k, n]⟩ : Shape).Idx → EReal) (Pb : (⟨2, ![1, n]⟩ : Shape).Idx → EReal)
    (hW : ∀ (a : Fin k) (c : Fin n), W (ix2 a c) = P (ix2 a c)) (hbb : ∀ c : Fin n, bb (ix2 0 c) = Pb (ix2 0 c)) :
    toM (leakyLayer w hb hc h W bb) = lrelu (lin H (mat2 P) (row2 Pb)) := by
  unfold leakyLayer
  rw [toM_truncf, toM_leakyV, toM_linV, toM_shapeCast_self, hh]
  have e1 : toM W = mat2 P := funext fun a => funext fun c => hW a c
  have e2 : toM bb 0 = row2 Pb := funext fun c => hbb c
  rw [e1, e2]

/-- One of the nine later graph convolutions. -/
theorem gconv_step (adj : (⟨3, ![16, 1024, 1024]⟩ : Shape).Idx → EReal)
    (p10 : (⟨4, ![9, 2, 256, 256]⟩ : Shape).Idx → EReal) (p11 : (⟨4, ![9, 2, 1, 256]⟩ : Shape).Idx → EReal)
    (b : Fin 16) (i : Fin 9) (A : V2 1024 1024 .bf16) (hA : toM A = Spec.A adj b)
    (h : V2 1024 256 .bf16) (H : Mat 1024 256) (hh : toM h = H)
    (g : FVec Ideal S1x256x512 .bf16) (c : FVec Ideal S1x1x512 .f32)
    (hg : ∀ (k : Fin 256) (n : Fin 512), g (ix3 (0 : Fin 1) k n)
      = if hn : n.val < 256 then Wg p10 i 0 k ⟨n.val, hn⟩ else Wg p10 i 1 k (hi256 n hn))
    (hc : ∀ n : Fin 512, c (ix3 (0 : Fin 1) (0 : Fin 1) n)
      = if hn : n.val < 256 then Bg p11 i 0 ⟨n.val, hn⟩ else Bg p11 i 1 (hi256 n hn)) :
    toM (gconvLayer A h g c) = gstep adj p10 p11 b i H := by
  unfold gconvLayer
  rw [toM_truncf, toM_gmixV 256 _ _ _ _ _ _ (by norm_num) (by norm_num), toM_linV, hA, hh, toM_shapeCast_drop, toM_shapeCast_drop, cols_lin, cols_lin]
  obtain ⟨eg0, eg1⟩ := cols_split (fun p q => g (ix3 (0 : Fin 1) p q)) _ _ hg
  obtain ⟨ec0, ec1⟩ := row_split (fun q => c (ix3 (0 : Fin 1) (0 : Fin 1) q)) _ _ hc
  rw [eg0, eg1]
  unfold gstep
  exact congrArg₂ (gmix (Spec.A adj b)) (congrArg (lin H (Wg p10 i 0)) ec0) (congrArg (lin H (Wg p10 i 1)) ec1)

end Cert.KernelIdeal.KNet

end
-- ==== Proof.KBody.lean ====
/-
  One mesh of the body computes the specification's slab: with the mesh's two blocks and every loaded weight known entry
  by entry in terms of the argument arrays, the regrouped network, read as a matrix, is the first eight columns of
  `Spec.slab` of that mesh — layer after layer, by the step lemmas.
-/
import proofs.«141170_g2000409237439836_pallaspilot1_247_36_alg».proof.Proof.KSteps

set_option maxRecDepth 16384

noncomputable section

namespace Cert.KernelIdeal.KNet

open Idealize.ShloMosaic Idealize.ShloMosaic.ValueIdx Cert.KernelIdeal Cert.KernelIdeal.Gen Cert.KLayer Cert.Spec

/-- Graph convolution 0: the features and the padded coordinates through their own rows of the two branches' weights. -/
theorem g0_step (verts : (⟨3, ![16, 1024, 3]⟩ : Shape).Idx → EReal) (adj : (⟨3, ![16, 1024, 1024]⟩ : Shape).Idx → EReal)
    (p0 : (⟨2, ![128, 512]⟩ : Shape).Idx → EReal) (p1 : (⟨2, ![1, 512]⟩ : Shape).Idx → EReal)
    (p2 : (⟨2, ![512, 512]⟩ : Shape).Idx → EReal) (p3 : (⟨2, ![1, 512]⟩ : Shape).Idx → EReal)
    (p4 : (⟨2, ![512, 256]⟩ : Shape).Idx → EReal) (p5 : (⟨2, ![1, 256]⟩ : Shape).Idx → EReal)
    (p6 : (⟨2, ![256, 256]⟩ : Shape).Idx → EReal) (p7 : (⟨2, ![1, 256]⟩ : Shape).Idx → EReal)
    (p8 : (⟨3, ![2, 384, 256]⟩ : Shape).Idx → EReal) (p9 : (⟨3, ![2, 1, 256]⟩ : Shape).Idx → EReal)
    (b : Fin 16) (A : V2 1024 1024 .bf16) (hA : toM A = Spec.A adj b) (X : V2 1024 128 .bf16) (hX : toM X = Spec.X verts b)
    (h4 : V2 1024 256 .bf16) (hh : toM h4 = mlp1 verts p0 p1 p2 p3 p4 p5 p6 p7 b)
    (w10 : FVec Ideal S256x512 .bf16) (w11 : FVec Ideal S128x512 .bf16) (w12 : FVec Ideal S1x512 .f32)
    (h10 : ∀ (k : Fin 256) (n : Fin 512), w10 (ix2 k n) = if hn : n.val < 256 then W0h p8 0 k ⟨n.val, hn⟩ else W0h p8 1 k (hi256 n hn))
    (h11 : ∀ (k : Fin 128) (n : Fin 512), w11 (ix2 k n) = if hn : n.val < 256 then W0x p8 0 k ⟨n.val, hn⟩ else W0x p8 1 k (hi256 n hn))
    (h12 : ∀ n : Fin 512, w12 (ix2 (0 : Fin 1) n) = if hn : n.val < 256 then B0 p9 0 ⟨n.val, hn⟩ else B0 p9 1 (hi256 n hn)) :
    toM (truncf .bf16 (gmixV 256 slices_S1024x512_o0_0_S1024x256 slices_S1024x512_o0_256_S1024x256
      dot_S1024x1024_S1024x256_S1024x256_1_0_0_1_n_n_wf bitsLt_bf16_f32 A
      (lin2V dot_S1024x256_S256x512_S1024x512_1_0_0_1_n_n_wf dot_S1024x128_S128x512_S1024x512_1_0_0_1_n_n_wf broadcasts_S1x512_S1024x512
        h4 (shapeCast S256x512 w10 shapeCasts_S256x512_S256x512) X (shapeCast S128x512 w11 shapeCasts_S128x512_S128x512)
        (shapeCast S1x512 w12 shapeCasts_S1x512_S1x512))) bitsLt_bf16_f32 : V2 1024 256 .bf16)
      = g0 verts adj p0 p1 p2 p3 p4 p5 p6 p7 p8 p9 b := by
  rw [toM_truncf, toM_gmixV 256 _ _ _ _ _ _ (by norm_num) (by norm_num), toM_lin2V, hA, hh, hX, toM_shapeCast_self,
    toM_shapeCast_self, toM_shapeCast_self, cols_lin2, cols_lin2]
  obtain ⟨e10a, e10b⟩ := cols_split (toM w10) _ _ h10
  obtain ⟨e11a, e11b⟩ := cols_split (toM w11) _ _ h11
  obtain ⟨e12a, e12b⟩ := row_split (toM w12 0) _ _ h12
  rw [e10a, e10b, e11a, e11b, e12a, e12b]
  rfl

/-- The last layer, of which the body keeps the first eight columns. -/
theorem last_step (o3 : V2 1024 128 .bf16) (O3 : Mat 1024 128) (hh : toM o3 = O3)
    (w21 : FVec Ideal S128x128 .bf16) (w22 : FVec Ideal S1x128 .f32)
    (p18 : (⟨2, ![128, 128]⟩ : Shape).Idx → EReal) (p19 : (⟨2, ![1, 128]⟩ : Shape).Idx → EReal)
    (h21 : ∀ (k : Fin 128) (n : Fin 128), w21 (ix2 k n) = p18 (ix2 k n)) (h22 : ∀ n : Fin 128, w22 (ix2 (0 : Fin 1) n) = p19 (ix2 (0 : Fin 1) n)) :
    toM (extractStridedSlice S1024x8 ![0, 0]
      (linV dot_S1024x128_S128x128_S1024x128_1_0_0_1_n_n_wf broadcasts_S1x128_S1024x128 o3 (shapeCast S128x128 w21 shapeCasts_S128x128_S128x128) w22)
      slices_S1024x128_o0_0_S1024x8 : V2 1024 8 .f32)
      = cols 0 8 (by norm_num) (lin O3 (mat2 p18) (row2 p19)) := by
  rw [toM_slice 0 _ _ (by norm_num), toM_linV, toM_shapeCast_self, hh]
  have e1 : toM w21 = mat2 p18 := funext fun a => funext fun c => h21 a c
  have e2 : toM w22 0 = row2 p19 := funext fun c => h22 c
  rw [e1, e2]

end Cert.KernelIdeal.KNet

end
-- ==== Proof.KStages.lean ====
/-
  The stages of one mesh, read as matrices: the first four layers are the specification's `mlp1`, graph convolution 0
  its `g0` (KBody.lean), the nine later convolutions its `gall`, and the last four layers its `slab`, of which the body
  keeps the first eight columns — given the mesh's two blocks and every loaded weight entry by entry.
-/
import proofs.«141170_g2000409237439836_pallaspilot1_247_36_alg».proof.Proof.KBody

set_option maxRecDepth 16384

noncomputable section

namespace Cert.KernelIdeal.KNet

open Idealize.ShloMosaic Idealize.ShloMosaic.ValueIdx Cert.KernelIdeal Cert.KernelIdeal.Gen Cert.KLayer Cert.Spec

theorem stage1_eq (verts : (⟨3, ![16, 1024, 3]⟩ : Shape).Idx → EReal)
    (p0 : (⟨2, ![128, 512]⟩ : Shape).Idx → EReal) (p1 : (⟨2, ![1, 512]⟩ : Shape).Idx → EReal)
    (p2 : (⟨2, ![512, 512]⟩ : Shape).Idx → EReal) (p3 : (⟨2, ![1, 512]⟩ : Shape).Idx → EReal)
    (p4 : (⟨2, ![512, 256]⟩ : Shape).Idx → EReal) (p5 : (⟨2, ![1, 256]⟩ : Shape).Idx → EReal)
    (p6 : (⟨2, ![256, 256]⟩ : Shape).Idx → EReal) (p7 : (⟨2, ![1, 256]⟩ : Shape).Idx → EReal)
    (b : Fin 16) (X : V2 1024 128 .bf16) (hX : toM X = Spec.X verts b)
    (w2 : FVec Ideal S128x512 .bf16) (w3 : FVec Ideal S1x512 .f32) (w4 : FVec Ideal S512x512 .bf16) (w5 : FVec Ideal S1x512 .f32)
    (w6 : FVec Ideal S512x256 .bf16) (w7 : FVec Ideal S1x256 .f32) (w8 : FVec Ideal S256x256 .bf16) (w9 : FVec Ideal S1x256 .f32)
    (h2 : ∀ (k : Fin 128) (n : Fin 512), w2 (ix2 k n) = p0 (ix2 k n))
    (h3 : ∀ n : Fin 512, w3 (ix2 (0 : Fin 1) n) = p1 (ix2 (0 : Fin 1) n))
    (h4 : ∀ (k : Fin 512) (n : Fin 512), w4 (ix2 k n) = p2 (ix2 k n))
    (h5 : ∀ n : Fin 512, w5 (ix2 (0 : Fin 1) n) = p3 (ix2 (0 : Fin 1) n))
    (h6 : ∀ (k : Fin 512) (n : Fin 256), w6 (ix2 k n) = p4 (ix2 k n))
    (h7 : ∀ n : Fin 256, w7 (ix2 (0 : Fin 1) n) = p5 (ix2 (0 : Fin 1) n))
    (h8 : ∀ (k : Fin 256) (n : Fin 256), w8 (ix2 k n) = p6 (ix2 k n))
    (h9 : ∀ n : Fin 256, w9 (ix2 (0 : Fin 1) n) = p7 (ix2 (0 : Fin 1) n)) :
    toM (stage1 X w2 w3 w4 w5 w6 w7 w8 w9) = mlp1 verts p0 p1 p2 p3 p4 p5 p6 p7 b := by
  have s1 := leaky_step dot_S1024x128_S128x512_S1024x512_1_0_0_1_n_n_wf broadcasts_S1x512_S1024x512 shapeCasts_S128x512_S128x512 X _ hX w2 w3 p0 p1 h2 h3
  have s2 := leaky_step dot_S1024x512_S512x512_S1024x512_1_0_0_1_n_n_wf broadcasts_S1x512_S1024x512 shapeCasts_S512x512_S512x512 _ _ s1 w4 w5 p2 p3 h4 h5
  have s3 := leaky_step dot_S1024x512_S512x256_S1024x256_1_0_0_1_n_n_wf broadcasts_S1x256_S1024x256 shapeCasts_S512x256_S512x256 _ _ s2 w6 w7 p4 p5 h6 h7
  exact leaky_step dot_S1024x256_S256x256_S1024x256_1_0_0_1_n_n_wf broadcasts_S1x256_S1024x256 shapeCasts_S256x256_S256x256 _ _ s3 w8 w9 p6 p7 h8 h9

set_option maxHeartbeats 1600000 in
theorem stage3_eq (adj : (⟨3, ![16, 1024, 1024]⟩ : Shape).Idx → EReal)
    (p10 : (⟨4, ![9, 2, 256, 256]⟩ : Shape).Idx → EReal) (p11 : (⟨4, ![9, 2, 1, 256]⟩ : Shape).Idx → EReal)
    (b : Fin 16) (A : V2 1024 1024 .bf16) (hA : toM A = Spec.A adj b) (q0 : V2 1024 256 .bf16) (Q0 : Mat 1024 256) (hq : toM q0 = Q0)
    (g1 : FVec Ideal S1x256x512 .bf16) (c1 : FVec Ideal S1x1x512 .f32)
    (g2 : FVec Ideal S1x256x512 .bf16) (c2 : FVec Ideal S1x1x512 .f32)
    (g3 : FVec Ideal S1x256x512 .bf16) (c3 : FVec Ideal S1x1x512 .f32)
    (g4 : FVec Ideal S1x256x512 .bf16) (c4 : FVec Ideal S1x1x512 .f32)
    (g5 : FVec Ideal S1x256x512 .bf16) (c5 : FVec Ideal S1x1x512 .f32)
    (g6 : FVec Ideal S1x256x512 .bf16) (c6 : FVec Ideal S1x1x512 .f32)
    (g7 : FVec Ideal S1x256x512 .bf16) (c7 : FVec Ideal S1x1x512 .f32)
    (g8 : FVec Ideal S1x256x512 .bf16) (c8 : FVec Ideal S1x1x512 .f32)
    (g9 : FVec Ideal S1x256x512 .bf16) (c9 : FVec Ideal S1x1x512 .f32)
    (hg1 : ∀ (k : Fin 256) (n : Fin 512), g1 (ix3 (0 : Fin 1) k n) = if hn : n.val < 256 then Wg p10 0 0 k ⟨n.val, hn⟩ else Wg p10 0 1 k (hi256 n hn))
    (hc1 : ∀ n : Fin 512, c1 (ix3 (0 : Fin 1) (0 : Fin 1) n) = if hn : n.val < 256 then Bg p11 0 0 ⟨n.val, hn⟩ else Bg p11 0 1 (hi256 n hn))
    (hg2 : ∀ (k : Fin 256) (n : Fin 512), g2 (ix3 (0 : Fin 1) k n) = if hn : n.val < 256 then Wg p10 1 0 k ⟨n.val, hn⟩ else Wg p10 1 1 k (hi256 n hn))
    (hc2 : ∀ n : Fin 512, c2 (ix3 (0 : Fin 1) (0 : Fin 1) n) = if hn : n.val < 256 then Bg p11 1 0 ⟨n.val, hn⟩ else Bg p11 1 1 (hi256 n hn))
    (hg3 : ∀ (k : Fin 256) (n : Fin 512), g3 (ix3 (0 : Fin 1) k n) = if hn : n.val < 256 then Wg p10 2 0 k ⟨n.val, hn⟩ else Wg p10 2 1 k (hi256 n hn))
    (hc3 : ∀ n : Fin 512, c3 (ix3 (0 : Fin 1) (0 : Fin 1) n) = if hn : n.val < 256 then Bg p11 2 0 ⟨n.val, hn⟩ else Bg p11 2 1 (hi256 n hn))
    (hg4 : ∀ (k : Fin 256) (n : Fin 512), g4 (ix3 (0 : Fin 1) k n) = if hn : n.val < 256 then Wg p10 3 0 k ⟨n.val, hn⟩ else Wg p10 3 1 k (hi256 n hn))
    (hc4 : ∀ n : Fin 512, c4 (ix3 (0 : Fin 1) (0 : Fin 1) n) = if hn : n.val < 256 then Bg p11 3 0 ⟨n.val, hn⟩ else Bg p11 3 1 (hi256 n hn))
    (hg5 : ∀ (k : Fin 256) (n : Fin 512), g5 (ix3 (0 : Fin 1) k n) = if hn : n.val < 256 then Wg p10 4 0 k ⟨n.val, hn⟩ else Wg p10 4 1 k (hi256 n hn))
    (hc5 : ∀ n : Fin 512, c5 (ix3 (0 : Fin 1) (0 : Fin 1) n) = if hn : n.val < 256 then Bg p11 4 0 ⟨n.val, hn⟩ else Bg p11 4 1 (hi256 n hn))
    (hg6 : ∀ (k : Fin 256) (n : Fin 512), g6 (ix3 (0 : Fin 1) k n) = if hn : n.val < 256 then Wg p10 5 0 k ⟨n.val, hn⟩ else Wg p10 5 1 k (hi256 n hn))
    (hc6 : ∀ n : Fin 512, c6 (ix3 (0 : Fin 1) (0 : Fin 1) n) = if hn : n.val < 256 then Bg p11 5 0 ⟨n.val, hn⟩ else Bg p11 5 1 (hi256 n hn))
    (hg7 : ∀ (k : Fin 256) (n : Fin 512), g7 (ix3 (0 : Fin 1) k n) = if hn : n.val < 256 then Wg p10 6 0 k ⟨n.val, hn⟩ else Wg p10 6 1 k (hi256 n hn))
    (hc7 : ∀ n : Fin 512, c7 (ix3 (0 : Fin 1) (0 : Fin 1) n) = if hn : n.val < 256 then Bg p11 6 0 ⟨n.val, hn⟩ else Bg p11 6 1 (hi256 n hn))
    (hg8 : ∀ (k : Fin 256) (n : Fin 512), g8 (ix3 (0 : Fin 1) k n) = if hn : n.val < 256 then Wg p10 7 0 k ⟨n.val, hn⟩ else Wg p10 7 1 k (hi256 n hn))
    (hc8 : ∀ n : Fin 512, c8 (ix3 (0 : Fin 1) (0 : Fin 1) n) = if hn : n.val < 256 then Bg p11 7 0 ⟨n.val, hn⟩ else Bg p11 7 1 (hi256 n hn))
    (hg9 : ∀ (k : Fin 256) (n : Fin 512), g9 (ix3 (0 : Fin 1) k n) = if hn : n.val < 256 then Wg p10 8 0 k ⟨n.val, hn⟩ else Wg p10 8 1 k (hi256 n hn))
    (hc9 : ∀ n : Fin 512, c9 (ix3 (0 : Fin 1) (0 : Fin 1) n) = if hn : n.val < 256 then Bg p11 8 0 ⟨n.val, hn⟩ else Bg p11 8 1 (hi256 n hn)) :
    toM (stage3 A q0 g1 c1 g2 c2 g3 c3 g4 c4 g5 c5 g6 c6 g7 c7 g8 c8 g9 c9)
      = gstep adj p10 p11 b 8 (gstep adj p10 p11 b 7 (gstep adj p10 p11 b 6 (gstep adj p10 p11 b 5 (gstep adj p10 p11 b 4
          (gstep adj p10 p11 b 3 (gstep adj p10 p11 b 2 (gstep adj p10 p11 b 1 (gstep adj p10 p11 b 0 Q0)))))))) := by
  have s1 := gconv_step adj p10 p11 b 0 A hA q0 Q0 hq g1 c1 hg1 hc1
  have s2 := gconv_step adj p10 p11 b 1 A hA _ _ s1 g2 c2 hg2 hc2
  have s3 := gconv_step adj p10 p11 b 2 A hA _ _ s2 g3 c3 hg3 hc3
  have s4 := gconv_step adj p10 p11 b 3 A hA _ _ s3 g4 c4 hg4 hc4
  have s5 := gconv_step adj p10 p11 b 4 A hA _ _ s4 g5 c5 hg5 hc5
  have s6 := gconv_step adj p10 p11 b 5 A hA _ _ s5 g6 c6 hg6 hc6
  have s7 := gconv_step adj p10 p11 b 6 A hA _ _ s6 g7 c7 hg7 hc7
  have s8 := gconv_step adj p10 p11 b 7 A hA _ _ s7 g8 c8 hg8 hc8
  exact gconv_step adj p10 p11 b 8 A hA _ _ s8 g9 c9 hg9 hc9

theorem stage4_eq (q9 : V2 1024 256 .bf16) (Q9 : Mat 1024 256) (hq : toM q9 = Q9)
    (p12 : (⟨2, ![256, 128]⟩ : Shape).Idx → EReal) (p13 : (⟨2, ![1, 128]⟩ : Shape).Idx → EReal)
    (p14 : (⟨2, ![128, 128]⟩ : Shape).Idx → EReal) (p15 : (⟨2, ![1, 128]⟩ : Shape).Idx → EReal)
    (p16 : (⟨2, ![128, 128]⟩ : Shape).Idx → EReal) (p17 : (⟨2, ![1, 128]⟩ : Shape).Idx → EReal)
    (p18 : (⟨2, ![128, 128]⟩ : Shape).Idx → EReal) (p19 : (⟨2, ![1, 128]⟩ : Shape).Idx → EReal)
    (w15 : FVec Ideal S256x128 .bf16) (w16 : FVec Ideal S1x128 .f32) (w17 : FVec Ideal S128x128 .bf16) (w18 : FVec Ideal S1x128 .f32)
    (w19 : FVec Ideal S128x128 .bf16) (w20 : FVec Ideal S1x128 .f32) (w21 : FVec Ideal S128x128 .bf16) (w22 : FVec Ideal S1x128 .f32)
    (h15 : ∀ (k : Fin 256) (n : Fin 128), w15 (ix2 k n) = p12 (ix2 k n))
    (h16 : ∀ n : Fin 128, w16 (ix2 (0 : Fin 1) n) = p13 (ix2 (0 : Fin 1) n))
    (h17 : ∀ (k : Fin 128) (n : Fin 128), w17 (ix2 k n) = p14 (ix2 k n))
    (h18 : ∀ n : Fin 128, w18 (ix2 (0 : Fin 1) n) = p15 (ix2 (0 : Fin 1) n))
    (h19 : ∀ (k : Fin 128) (n : Fin 128), w19 (ix2 k n) = p16 (ix2 k n))
    (h20 : ∀ n : Fin 128, w20 (ix2 (0 : Fin 1) n) = p17 (ix2 (0 : Fin 1) n))
    (h21 : ∀ (k : Fin 128) (n : Fin 128), w21 (ix2 k n) = p18 (ix2 k n))
    (h22 : ∀ n : Fin 128, w22 (ix2 (0 : Fin 1) n) = p19 (ix2 (0 : Fin 1) n)) :
    toM (stage4 q9 w15 w16 w17 w18 w19 w20 w21 w22 : V2 1024 8 .f32)
      = cols 0 8 (by norm_num) (lin (lrelu (lin (lrelu (lin (lrelu (lin Q9 (mat2 p12) (row2 p13))) (mat2 p14) (row2 p15))) (mat2 p16) (row2 p17)))
          (mat2 p18) (row2 p19)) := by
  have s1 := leaky_step dot_S1024x256_S256x128_S1024x128_1_0_0_1_n_n_wf broadcasts_S1x128_S1024x128 shapeCasts_S256x128_S256x128 q9 Q9 hq w15 w16 p12 p13 h15 h16
  have s2 := leaky_step dot_S1024x128_S128x128_S1024x128_1_0_0_1_n_n_wf broadcasts_S1x128_S1024x128 shapeCasts_S128x128_S128x128 _ _ s1 w17 w18 p14 p15 h17 h18
  have s3 := leaky_step dot_S1024x128_S128x128_S1024x128_1_0_0_1_n_n_wf broadcasts_S1x128_S1024x128 shapeCasts_S128x128_S128x128 _ _ s2 w19 w20 p16 p17 h19 h20
  exact last_step _ _ s3 w21 w22 p18 p19 h21 h22

end Cert.KernelIdeal.KNet

end
-- ==== Proof.KMesh.lean ====
/-
  One mesh of the body computes the specification's slab: with the mesh's two blocks and every loaded weight known
  entry by entry in terms of the argument arrays, the regrouped network at (v, j) is `Spec.slab` of that mesh at (v, j) —
  stage after stage, by the stage lemmas.
-/
import proofs.«141170_g2000409237439836_pallaspilot1_247_36_alg».proof.Proof.KStages

set_option maxRecDepth 16384

noncomputable section

namespace Cert.KernelIdeal.KNet

open Idealize.ShloMosaic Idealize.ShloMosaic.ValueIdx Cert.KernelIdeal Cert.KernelIdeal.Gen Cert.KLayer Cert.Spec

set_option maxHeartbeats 4000000 in
/-- One mesh: the regrouped network at (v, j) is the specification's slab of mesh `b` at (v, j). -/
theorem kNet_slab (verts : (⟨3, ![16, 1024, 3]⟩ : Shape).Idx → EReal) (adj : (⟨3, ![16, 1024, 1024]⟩ : Shape).Idx → EReal)
    (p0 : (⟨2, ![128, 512]⟩ : Shape).Idx → EReal) (p1 : (⟨2, ![1, 512]⟩ : Shape).Idx → EReal)
    (p2 : (⟨2, ![512, 512]⟩ : Shape).Idx → EReal) (p3 : (⟨2, ![1, 512]⟩ : Shape).Idx → EReal)
    (p4 : (⟨2, ![512, 256]⟩ : Shape).Idx → EReal) (p5 : (⟨2, ![1, 256]⟩ : Shape).Idx → EReal)
    (p6 : (⟨2, ![256, 256]⟩ : Shape).Idx → EReal) (p7 : (⟨2, ![1, 256]⟩ : Shape).Idx → EReal)
    (p8 : (⟨3, ![2, 384, 256]⟩ : Shape).Idx → EReal) (p9 : (⟨3, ![2, 1, 256]⟩ : Shape).Idx → EReal)
    (p10 : (⟨4, ![9, 2, 256, 256]⟩ : Shape).Idx → EReal) (p11 : (⟨4, ![9, 2, 1, 256]⟩ : Shape).Idx → EReal)
    (p12 : (⟨2, ![256, 128]⟩ : Shape).Idx → EReal) (p13 : (⟨2, ![1, 128]⟩ : Shape).Idx → EReal)
    (p14 : (⟨2, ![128, 128]⟩ : Shape).Idx → EReal) (p15 : (⟨2, ![1, 128]⟩ : Shape).Idx → EReal)
    (p16 : (⟨2, ![128, 128]⟩ : Shape).Idx → EReal) (p17 : (⟨2, ![1, 128]⟩ : Shape).Idx → EReal)
    (p18 : (⟨2, ![128, 128]⟩ : Shape).Idx → EReal) (p19 : (⟨2, ![1, 128]⟩ : Shape).Idx → EReal)
    (b : Fin 16)
    (x : FVec Ideal S1x1024x128 .bf16) (a : FVec Ideal S1x1024x1024 .f32)
    (w2 : FVec Ideal S128x512 .bf16) (w3 : FVec Ideal S1x512 .f32) (w4 : FVec Ideal S512x512 .bf16) (w5 : FVec Ideal S1x512 .f32)
    (w6 : FVec Ideal S512x256 .bf16) (w7 : FVec Ideal S1x256 .f32) (w8 : FVec Ideal S256x256 .bf16) (w9 : FVec Ideal S1x256 .f32)
    (w10 : FVec Ideal S256x512 .bf16) (w11 : FVec Ideal S128x512 .bf16) (w12 : FVec Ideal S1x512 .f32)
    (g1 : FVec Ideal S1x256x512 .bf16) (c1 : FVec Ideal S1x1x512 .f32)
    (g2 : FVec Ideal S1x256x512 .bf16) (c2 : FVec Ideal S1x1x512 .f32)
    (g3 : FVec Ideal S1x256x512 .bf16) (c3 : FVec Ideal S1x1x512 .f32)
    (g4 : FVec Ideal S1x256x512 .bf16) (c4 : FVec Ideal S1x1x512 .f32)
    (g5 : FVec Ideal S1x256x512 .bf16) (c5 : FVec Ideal S1x1x512 .f32)
    (g6 : FVec Ideal S1x256x512 .bf16) (c6 : FVec Ideal S1x1x512 .f32)
    (g7 : FVec Ideal S1x256x512 .bf16) (c7 : FVec Ideal S1x1x512 .f32)
    (g8 : FVec Ideal S1x256x512 .bf16) (c8 : FVec Ideal S1x1x512 .f32)
    (g9 : FVec Ideal S1x256x512 .bf16) (c9 : FVec Ideal S1x1x512 .f32)
    (w15 : FVec Ideal S256x128 .bf16) (w16 : FVec Ideal S1x128 .f32) (w17 : FVec Ideal S128x128 .bf16) (w18 : FVec Ideal S1x128 .f32)
    (w19 : FVec Ideal S128x128 .bf16) (w20 : FVec Ideal S1x128 .f32) (w21 : FVec Ideal S128x128 .bf16) (w22 : FVec Ideal S1x128 .f32)
    (hx : ∀ (v : Fin 1024) (l : Fin 128), x (ix3 (0 : Fin 1) v l) = Spec.X verts b v l)
    (ha : ∀ (v u : Fin 1024), a (ix3 (0 : Fin 1) v u) = Spec.A adj b v u)
    (h2 : ∀ (k : Fin 128) (n : Fin 512), w2 (ix2 k n) = p0 (ix2 k n))
    (h3 : ∀ n : Fin 512, w3 (ix2 (0 : Fin 1) n) = p1 (ix2 (0 : Fin 1) n))
    (h4 : ∀ (k : Fin 512) (n : Fin 512), w4 (ix2 k n) = p2 (ix2 k n))
    (h5 : ∀ n : Fin 512, w5 (ix2 (0 : Fin 1) n) = p3 (ix2 (0 : Fin 1) n))
    (h6 : ∀ (k : Fin 512) (n : Fin 256), w6 (ix2 k n) = p4 (ix2 k n))
    (h7 : ∀ n : Fin 256, w7 (ix2 (0 : Fin 1) n) = p5 (ix2 (0 : Fin 1) n))
    (h8 : ∀ (k : Fin 256) (n : Fin 256), w8 (ix2 k n) = p6 (ix2 k n))
    (h9 : ∀ n : Fin 256, w9 (ix2 (0 : Fin 1) n) = p7 (ix2 (0 : Fin 1) n))
    (h10 : ∀ (k : Fin 256) (n : Fin 512), w10 (ix2 k n) = if hn : n.val < 256 then W0h p8 0 k ⟨n.val, hn⟩ else W0h p8 1 k (hi256 n hn))
    (h11 : ∀ (k : Fin 128) (n : Fin 512), w11 (ix2 k n) = if hn : n.val < 256 then W0x p8 0 k ⟨n.val, hn⟩ else W0x p8 1 k (hi256 n hn))
    (h12 : ∀ n : Fin 512, w12 (ix2 (0 : Fin 1) n) = if hn : n.val < 256 then B0 p9 0 ⟨n.val, hn⟩ else B0 p9 1 (hi256 n hn))
    (hg1 : ∀ (k : Fin 256) (n : Fin 512), g1 (ix3 (0 : Fin 1) k n) = if hn : n.val < 256 then Wg p10 0 0 k ⟨n.val, hn⟩ else Wg p10 0 1 k (hi256 n hn))
    (hc1 : ∀ n : Fin 512, c1 (ix3 (0 : Fin 1) (0 : Fin 1) n) = if hn : n.val < 256 then Bg p11 0 0 ⟨n.val, hn⟩ else Bg p11 0 1 (hi256 n hn))
    (hg2 : ∀ (k : Fin 256) (n : Fin 512), g2 (ix3 (0 : Fin 1) k n) = if hn : n.val < 256 then Wg p10 1 0 k ⟨n.val, hn⟩ else Wg p10 1 1 k (hi256 n hn))
    (hc2 : ∀ n : Fin 512, c2 (ix3 (0 : Fin 1) (0 : Fin 1) n) = if hn : n.val < 256 then Bg p11 1 0 ⟨n.val, hn⟩ else Bg p11 1 1 (hi256 n hn))
    (hg3 : ∀ (k : Fin 256) (n : Fin 512), g3 (ix3 (0 : Fin 1) k n) = if hn : n.val < 256 then Wg p10 2 0 k ⟨n.val, hn⟩ else Wg p10 2 1 k (hi256 n hn))
    (hc3 : ∀ n : Fin 512, c3 (ix3 (0 : Fin 1) (0 : Fin 1) n) = if hn : n.val < 256 then Bg p11 2 0 ⟨n.val, hn⟩ else Bg p11 2 1 (hi256 n hn))
    (hg4 : ∀ (k : Fin 256) (n : Fin 512), g4 (ix3 (0 : Fin 1) k n) = if hn : n.val < 256 then Wg p10 3 0 k ⟨n.val, hn⟩ else Wg p10 3 1 k (hi256 n hn))
    (hc4 : ∀ n : Fin 512, c4 (ix3 (0 : Fin 1) (0 : Fin 1) n) = if hn : n.val < 256 then Bg p11 3 0 ⟨n.val, hn⟩ else Bg p11 3 1 (hi256 n hn))
    (hg5 : ∀ (k : Fin 256) (n : Fin 512), g5 (ix3 (0 : Fin 1) k n) = if hn : n.val < 256 then Wg p10 4 0 k ⟨n.val, hn⟩ else Wg p10 4 1 k (hi256 n hn))
    (hc5 : ∀ n : Fin 512, c5 (ix3 (0 : Fin 1) (0 : Fin 1) n) = if hn : n.val < 256 then Bg p11 4 0 ⟨n.val, hn⟩ else Bg p11 4 1 (hi256 n hn))
    (hg6 : ∀ (k : Fin 256) (n : Fin 512), g6 (ix3 (0 : Fin 1) k n) = if hn : n.val < 256 then Wg p10 5 0 k ⟨n.val, hn⟩ else Wg p10 5 1 k (hi256 n hn))
    (hc6 : ∀ n : Fin 512, c6 (ix3 (0 : Fin 1) (0 : Fin 1) n) = if hn : n.val < 256 then Bg p11 5 0 ⟨n.val, hn⟩ else Bg p11 5 1 (hi256 n hn))
    (hg7 : ∀ (k : Fin 256) (n : Fin 512), g7 (ix3 (0 : Fin 1) k n) = if hn : n.val < 256 then Wg p10 6 0 k ⟨n.val, hn⟩ else Wg p10 6 1 k (hi256 n hn))
    (hc7 : ∀ n : Fin 512, c7 (ix3 (0 : Fin 1) (0 : Fin 1) n) = if hn : n.val < 256 then Bg p11 6 0 ⟨n.val, hn⟩ else Bg p11 6 1 (hi256 n hn))
    (hg8 : ∀ (k : Fin 256) (n : Fin 512), g8 (ix3 (0 : Fin 1) k n) = if hn : n.val < 256 then Wg p10 7 0 k ⟨n.val, hn⟩ else Wg p10 7 1 k (hi256 n hn))
    (hc8 : ∀ n : Fin 512, c8 (ix3 (0 : Fin 1) (0 : Fin 1) n) = if hn : n.val < 256 then Bg p11 7 0 ⟨n.val, hn⟩ else Bg p11 7 1 (hi256 n hn))
    (hg9 : ∀ (k : Fin 256) (n : Fin 512), g9 (ix3 (0 : Fin 1) k n) = if hn : n.val < 256 then Wg p10 8 0 k ⟨n.val, hn⟩ else Wg p10 8 1 k (hi256 n hn))
    (hc9 : ∀ n : Fin 512, c9 (ix3 (0 : Fin 1) (0 : Fin 1) n) = if hn : n.val < 256 then Bg p11 8 0 ⟨n.val, hn⟩ else Bg p11 8 1 (hi256 n hn))
    (h15 : ∀ (k : Fin 256) (n : Fin 128), w15 (ix2 k n) = p12 (ix2 k n))
    (h16 : ∀ n : Fin 128, w16 (ix2 (0 : Fin 1) n) = p13 (ix2 (0 : Fin 1) n))
    (h17 : ∀ (k : Fin 128) (n : Fin 128), w17 (ix2 k n) = p14 (ix2 k n))
    (h18 : ∀ n : Fin 128, w18 (ix2 (0 : Fin 1) n) = p15 (ix2 (0 : Fin 1) n))
    (h19 : ∀ (k : Fin 128) (n : Fin 128), w19 (ix2 k n) = p16 (ix2 k n))
    (h20 : ∀ n : Fin 128, w20 (ix2 (0 : Fin 1) n) = p17 (ix2 (0 : Fin 1) n))
    (h21 : ∀ (k : Fin 128) (n : Fin 128), w21 (ix2 k n) = p18 (ix2 k n))
    (h22 : ∀ n : Fin 128, w22 (ix2 (0 : Fin 1) n) = p19 (ix2 (0 : Fin 1) n))
    (v : Fin 1024) (j : Fin 8) :
    kNet x a w2 w3 w4 w5 w6 w7 w8 w9 w10 w11 w12 g1 c1 g2 c2 g3 c3 g4 c4 g5 c5 g6 c6 g7 c7 g8 c8 g9 c9 w15 w16 w17 w18 w19 w20 w21 w22 (ix2 v j) = slab verts adj p0 p1 p2 p3 p4 p5 p6 p7 p8 p9 p10 p11 p12 p13 p14 p15 p16 p17 p18 p19 b v (lane8 j) := by
  have eX : toM (castX x) = Spec.X verts b := by
    unfold castX; rw [toM_shapeCast_drop]; funext v l; exact hx v l
  have eA : toM (castA a) = Spec.A adj b := by
    unfold castA; rw [toM_truncf, toM_shapeCast_drop]; funext v u; exact ha v u
  have e1 := stage1_eq verts p0 p1 p2 p3 p4 p5 p6 p7 b (castX x) eX w2 w3 w4 w5 w6 w7 w8 w9 h2 h3 h4 h5 h6 h7 h8 h9
  have e2 : toM (stage2 (castX x) (castA a) (stage1 (castX x) w2 w3 w4 w5 w6 w7 w8 w9) w10 w11 w12)
      = g0 verts adj p0 p1 p2 p3 p4 p5 p6 p7 p8 p9 b :=
    g0_step verts adj p0 p1 p2 p3 p4 p5 p6 p7 p8 p9 b (castA a) eA (castX x) eX _ e1 w10 w11 w12 h10 h11 h12
  have e3 := stage3_eq adj p10 p11 b (castA a) eA _ _ e2 g1 c1 g2 c2 g3 c3 g4 c4 g5 c5 g6 c6 g7 c7 g8 c8 g9 c9
    hg1 hc1 hg2 hc2 hg3 hc3 hg4 hc4 hg5 hc5 hg6 hc6 hg7 hc7 hg8 hc8 hg9 hc9
  have e4 := stage4_eq _ _ e3 p12 p13 p14 p15 p16 p17 p18 p19 w15 w16 w17 w18 w19 w20 w21 w22 h15 h16 h17 h18 h19 h20 h21 h22
  have e5 := congrFun (congrFun e4 v) j
  refine e5.trans ?_
  show slab verts adj p0 p1 p2 p3 p4 p5 p6 p7 p8 p9 p10 p11 p12 p13 p14 p15 p16 p17 p18 p19 b v ⟨0 + j.val, _⟩ = _
  exact congrArg (slab verts adj p0 p1 p2 p3 p4 p5 p6 p7 p8 p9 p10 p11 p12 p13 p14 p15 p16 p17 p18 p19 b v) (Fin.ext (by show 0 + j.val = j.val; omega))

end Cert.KernelIdeal.KNet

end
-- ==== Proof.KRegroup.lean ====
/-
  The body's stored values are the regrouped network of each mesh's loads: window 23's buffer after the body is the
  canonical contents of two stores — mesh 1's [1,1024,8] value through the rectangle at row-block 1, mesh 0's through
  the rectangle at row-block 0 — and each value is `kNet` of that mesh's loads with a unit axis put in front. Nothing is
  computed: both sides unfold to the same operations.
-/
import proofs.«141170_g2000409237439836_pallaspilot1_247_36_alg».proof.Proof.KNet

set_option maxRecDepth 16384

noncomputable section

namespace Cert.KernelIdeal.KNet

open Idealize.ShloMosaic Idealize.ShloMosaic.ValueIdx Cert.KernelIdeal Cert.KernelIdeal.Gen Cert.KLayer

/-- Mesh `μ`'s stored value from the input windows' blocks. -/
def meshVal0 (x0 : Vec Ideal S2x1024x128 .bf16) (x1 : Vec Ideal S2x1024x1024 .f32) (x2 : Vec Ideal S128x512 .bf16) (x3 : Vec Ideal S1x512 .f32) (x4 : Vec Ideal S512x512 .bf16) (x5 : Vec Ideal S1x512 .f32) (x6 : Vec Ideal S512x256 .bf16) (x7 : Vec Ideal S1x256 .f32) (x8 : Vec Ideal S256x256 .bf16) (x9 : Vec Ideal S1x256 .f32) (x10 : Vec Ideal S256x512 .bf16) (x11 : Vec Ideal S128x512 .bf16) (x12 : Vec Ideal S1x512 .f32) (x13 : Vec Ideal S9x256x512 .bf16) (x14 : Vec Ideal S9x1x512 .f32) (x15 : Vec Ideal S256x128 .bf16) (x16 : Vec Ideal S1x128 .f32) (x17 : Vec Ideal S128x128 .bf16) (x18 : Vec Ideal S1x128 .f32) (x19 : Vec Ideal S128x128 .bf16) (x20 : Vec Ideal S1x128 .f32) (x21 : Vec Ideal S128x128 .bf16) (x22 : Vec Ideal S1x128 .f32) : FVec Ideal S1x1024x8 .f32 :=
  shapeCast S1x1024x8 (kNet (View.ld x0 r0_0) (View.ld x1 r0_2) (View.ld x2 r0_4) (View.ld x3 r0_5) (View.ld x4 r0_6) (View.ld x5 r0_5) (View.ld x6 r0_7) (View.ld x7 r0_8) (View.ld x8 r0_9) (View.ld x9 r0_8) (View.ld x10 r0_10) (View.ld x11 r0_4) (View.ld x12 r0_5) (View.ld x13 r0_11) (View.ld x14 r0_12) (View.ld x13 r0_13) (View.ld x14 r0_14) (View.ld x13 r0_15) (View.ld x14 r0_16) (View.ld x13 r0_17) (View.ld x14 r0_18) (View.ld x13 r0_19) (View.ld x14 r0_20) (View.ld x13 r0_21) (View.ld x14 r0_22) (View.ld x13 r0_23) (View.ld x14 r0_24) (View.ld x13 r0_25) (View.ld x14 r0_26) (View.ld x13 r0_27) (View.ld x14 r0_28) (View.ld x15 r0_29) (View.ld x16 r0_30) (View.ld x17 r0_31) (View.ld x18 r0_30) (View.ld x19 r0_31) (View.ld x20 r0_30) (View.ld x21 r0_31) (View.ld x22 r0_30)) shapeCasts_S1024x8_S1x1024x8
def meshVal1 (x0 : Vec Ideal S2x1024x128 .bf16) (x1 : Vec Ideal S2x1024x1024 .f32) (x2 : Vec Ideal S128x512 .bf16) (x3 : Vec Ideal S1x512 .f32) (x4 : Vec Ideal S512x512 .bf16) (x5 : Vec Ideal S1x512 .f32) (x6 : Vec Ideal S512x256 .bf16) (x7 : Vec Ideal S1x256 .f32) (x8 : Vec Ideal S256x256 .bf16) (x9 : Vec Ideal S1x256 .f32) (x10 : Vec Ideal S256x512 .bf16) (x11 : Vec Ideal S128x512 .bf16) (x12 : Vec Ideal S1x512 .f32) (x13 : Vec Ideal S9x256x512 .bf16) (x14 : Vec Ideal S9x1x512 .f32) (x15 : Vec Ideal S256x128 .bf16) (x16 : Vec Ideal S1x128 .f32) (x17 : Vec Ideal S128x128 .bf16) (x18 : Vec Ideal S1x128 .f32) (x19 : Vec Ideal S128x128 .bf16) (x20 : Vec Ideal S1x128 .f32) (x21 : Vec Ideal S128x128 .bf16) (x22 : Vec Ideal S1x128 .f32) : FVec Ideal S1x1024x8 .f32 :=
  shapeCast S1x1024x8 (kNet (View.ld x0 r0_1) (View.ld x1 r0_3) (View.ld x2 r0_4) (View.ld x3 r0_5) (View.ld x4 r0_6) (View.ld x5 r0_5) (View.ld x6 r0_7) (View.ld x7 r0_8) (View.ld x8 r0_9) (View.ld x9 r0_8) (View.ld x10 r0_10) (View.ld x11 r0_4) (View.ld x12 r0_5) (View.ld x13 r0_11) (View.ld x14 r0_12) (View.ld x13 r0_13) (View.ld x14 r0_14) (View.ld x13 r0_15) (View.ld x14 r0_16) (View.ld x13 r0_17) (View.ld x14 r0_18) (View.ld x13 r0_19) (View.ld x14 r0_20) (View.ld x13 r0_21) (View.ld x14 r0_22) (View.ld x13 r0_23) (View.ld x14 r0_24) (View.ld x13 r0_25) (View.ld x14 r0_26) (View.ld x13 r0_27) (View.ld x14 r0_28) (View.ld x15 r0_29) (View.ld x16 r0_30) (View.ld x17 r0_31) (View.ld x18 r0_30) (View.ld x19 r0_31) (View.ld x20 r0_30) (View.ld x21 r0_31) (View.ld x22 r0_30)) shapeCasts_S1024x8_S1x1024x8

set_option maxHeartbeats 1000000 in
theorem out_eq (x0 : Vec Ideal S2x1024x128 .bf16) (x1 : Vec Ideal S2x1024x1024 .f32) (x2 : Vec Ideal S128x512 .bf16) (x3 : Vec Ideal S1x512 .f32) (x4 : Vec Ideal S512x512 .bf16) (x5 : Vec Ideal S1x512 .f32) (x6 : Vec Ideal S512x256 .bf16) (x7 : Vec Ideal S1x256 .f32) (x8 : Vec Ideal S256x256 .bf16) (x9 : Vec Ideal S1x256 .f32) (x10 : Vec Ideal S256x512 .bf16) (x11 : Vec Ideal S128x512 .bf16) (x12 : Vec Ideal S1x512 .f32) (x13 : Vec Ideal S9x256x512 .bf16) (x14 : Vec Ideal S9x1x512 .f32) (x15 : Vec Ideal S256x128 .bf16) (x16 : Vec Ideal S1x128 .f32) (x17 : Vec Ideal S128x128 .bf16) (x18 : Vec Ideal S1x128 .f32) (x19 : Vec Ideal S128x128 .bf16) (x20 : Vec Ideal S1x128 .f32) (x21 : Vec Ideal S128x128 .bf16) (x22 : Vec Ideal S1x128 .f32) :
    out0_23 (F := Ideal) x0 x1 x2 x3 x4 x5 x6 x7 x8 x9 x10 x11 x12 x13 x14 x15 x16 x17 x18 x19 x20 x21 x22
      = View.canon [⟨r0_33, meshVal1 x0 x1 x2 x3 x4 x5 x6 x7 x8 x9 x10 x11 x12 x13 x14 x15 x16 x17 x18 x19 x20 x21 x22⟩, ⟨r0_32, meshVal0 x0 x1 x2 x3 x4 x5 x6 x7 x8 x9 x10 x11 x12 x13 x14 x15 x16 x17 x18 x19 x20 x21 x22⟩] := rfl

end Cert.KernelIdeal.KNet

end
-- ==== Proof.KApply.lean ====
/-
  The body's result block at an index. Window 23's buffer after the body holds, at (μ, v, j), mesh μ's stored value at
  (v, j): the two stores go through the rectangles at row-blocks 1 and 0, which do not meet; and a load of one row-block
  of a stack reads that row.
-/
import proofs.«141170_g2000409237439836_pallaspilot1_247_36_alg».proof.Proof.KRegroup

set_option maxRecDepth 16384

noncomputable section

namespace Cert.KernelIdeal.KNet

open Idealize.ShloMosaic Idealize.ShloMosaic.ValueIdx Cert.KernelIdeal Cert.KernelIdeal.Gen Cert.KLayer Cert.Spec

/-- A load of row-block `i` of a rank-3 array (one row, the other axes whole) at (0, k, n) reads the array at (i, k, n). -/
theorem ld_block3 {Val : EltTy → Type} {e : EltTy} {n0 n1 n2 : ℕ} (X : (⟨3, ![n0, n1, n2]⟩ : Shape).Idx → Val e) (i : ℕ) (hi : i < n0)
    (inb : ∀ a, (![i, 0, 0] : Fin 3 → ℕ) a + (![1, n1, n2] : Fin 3 → ℕ) a ≤ (⟨3, ![n0, n1, n2]⟩ : Shape).size a)
    (k : Fin n1) (n : Fin n2) :
    View.ld X (Rect.unit (s := ⟨3, ![n0, n1, n2]⟩) ![i, 0, 0] ![1, n1, n2] inb) (ix3 (0 : Fin 1) k n) = X (ix3 ⟨i, hi⟩ k n) := by
  show X _ = X _
  refine congrArg X (funext fun a => Fin.ext ?_)
  match a with
  | ⟨0, _⟩ => show i + 1 * 0 = i; omega
  | ⟨1, _⟩ => show 0 + 1 * k.val = k.val; omega
  | ⟨2, _⟩ => show 0 + 1 * n.val = n.val; omega

/-- The zero offsets of a rank-2 rectangle, however spelt. -/
theorem hz2 : (![0, 0] : Fin 2 → ℕ) = fun _ => 0 := by
  funext a; match a with | ⟨0, _⟩ => rfl | ⟨1, _⟩ => rfl

/-- Window 23's buffer after the body at (1, v, j): mesh 1's stored value. -/
theorem out_apply1 (x0 : Vec Ideal S2x1024x128 .bf16) (x1 : Vec Ideal S2x1024x1024 .f32) (x2 : Vec Ideal S128x512 .bf16) (x3 : Vec Ideal S1x512 .f32) (x4 : Vec Ideal S512x512 .bf16) (x5 : Vec Ideal S1x512 .f32) (x6 : Vec Ideal S512x256 .bf16) (x7 : Vec Ideal S1x256 .f32) (x8 : Vec Ideal S256x256 .bf16) (x9 : Vec Ideal S1x256 .f32) (x10 : Vec Ideal S256x512 .bf16) (x11 : Vec Ideal S128x512 .bf16) (x12 : Vec Ideal S1x512 .f32) (x13 : Vec Ideal S9x256x512 .bf16) (x14 : Vec Ideal S9x1x512 .f32) (x15 : Vec Ideal S256x128 .bf16) (x16 : Vec Ideal S1x128 .f32) (x17 : Vec Ideal S128x128 .bf16) (x18 : Vec Ideal S1x128 .f32) (x19 : Vec Ideal S128x128 .bf16) (x20 : Vec Ideal S1x128 .f32) (x21 : Vec Ideal S128x128 .bf16) (x22 : Vec Ideal S1x128 .f32) (v : Fin 1024) (j : Fin 8) :
    out0_23 (F := Ideal) x0 x1 x2 x3 x4 x5 x6 x7 x8 x9 x10 x11 x12 x13 x14 x15 x16 x17 x18 x19 x20 x21 x22 (ix3 (1 : Fin 2) v j) = kNet (View.ld x0 r0_1) (View.ld x1 r0_3) (View.ld x2 r0_4) (View.ld x3 r0_5) (View.ld x4 r0_6) (View.ld x5 r0_5) (View.ld x6 r0_7) (View.ld x7 r0_8) (View.ld x8 r0_9) (View.ld x9 r0_8) (View.ld x10 r0_10) (View.ld x11 r0_4) (View.ld x12 r0_5) (View.ld x13 r0_11) (View.ld x14 r0_12) (View.ld x13 r0_13) (View.ld x14 r0_14) (View.ld x13 r0_15) (View.ld x14 r0_16) (View.ld x13 r0_17) (View.ld x14 r0_18) (View.ld x13 r0_19) (View.ld x14 r0_20) (View.ld x13 r0_21) (View.ld x14 r0_22) (View.ld x13 r0_23) (View.ld x14 r0_24) (View.ld x13 r0_25) (View.ld x14 r0_26) (View.ld x13 r0_27) (View.ld x14 r0_28) (View.ld x15 r0_29) (View.ld x16 r0_30) (View.ld x17 r0_31) (View.ld x18 r0_30) (View.ld x19 r0_31) (View.ld x20 r0_30) (View.ld x21 r0_31) (View.ld x22 r0_30) (ix2 v j) := by
  rw [out_eq]
  have e : (ix3 (1 : Fin 2) v j : S2x1024x8.Idx) = r0_33.emb (ix3 (0 : Fin 1) v j) := by
    funext a; apply Fin.ext
    match a with
    | ⟨0, _⟩ => rfl
    | ⟨1, _⟩ => show v.val = 0 + 1 * v.val; omega
    | ⟨2, _⟩ => show j.val = 0 + 1 * j.val; omega
  rw [e, View.canon_cons_emb]
  unfold meshVal1
  exact shapeCast_ab_1ab_apply _ _ 0 v j

/-- … and at (0, v, j): mesh 0's, the later store not reaching row-block 0. -/
theorem out_apply0 (x0 : Vec Ideal S2x1024x128 .bf16) (x1 : Vec Ideal S2x1024x1024 .f32) (x2 : Vec Ideal S128x512 .bf16) (x3 : Vec Ideal S1x512 .f32) (x4 : Vec Ideal S512x512 .bf16) (x5 : Vec Ideal S1x512 .f32) (x6 : Vec Ideal S512x256 .bf16) (x7 : Vec Ideal S1x256 .f32) (x8 : Vec Ideal S256x256 .bf16) (x9 : Vec Ideal S1x256 .f32) (x10 : Vec Ideal S256x512 .bf16) (x11 : Vec Ideal S128x512 .bf16) (x12 : Vec Ideal S1x512 .f32) (x13 : Vec Ideal S9x256x512 .bf16) (x14 : Vec Ideal S9x1x512 .f32) (x15 : Vec Ideal S256x128 .bf16) (x16 : Vec Ideal S1x128 .f32) (x17 : Vec Ideal S128x128 .bf16) (x18 : Vec Ideal S1x128 .f32) (x19 : Vec Ideal S128x128 .bf16) (x20 : Vec Ideal S1x128 .f32) (x21 : Vec Ideal S128x128 .bf16) (x22 : Vec Ideal S1x128 .f32) (v : Fin 1024) (j : Fin 8) :
    out0_23 (F := Ideal) x0 x1 x2 x3 x4 x5 x6 x7 x8 x9 x10 x11 x12 x13 x14 x15 x16 x17 x18 x19 x20 x21 x22 (ix3 (0 : Fin 2) v j) = kNet (View.ld x0 r0_0) (View.ld x1 r0_2) (View.ld x2 r0_4) (View.ld x3 r0_5) (View.ld x4 r0_6) (View.ld x5 r0_5) (View.ld x6 r0_7) (View.ld x7 r0_8) (View.ld x8 r0_9) (View.ld x9 r0_8) (View.ld x10 r0_10) (View.ld x11 r0_4) (View.ld x12 r0_5) (View.ld x13 r0_11) (View.ld x14 r0_12) (View.ld x13 r0_13) (View.ld x14 r0_14) (View.ld x13 r0_15) (View.ld x14 r0_16) (View.ld x13 r0_17) (View.ld x14 r0_18) (View.ld x13 r0_19) (View.ld x14 r0_20) (View.ld x13 r0_21) (View.ld x14 r0_22) (View.ld x13 r0_23) (View.ld x14 r0_24) (View.ld x13 r0_25) (View.ld x14 r0_26) (View.ld x13 r0_27) (View.ld x14 r0_28) (View.ld x15 r0_29) (View.ld x16 r0_30) (View.ld x17 r0_31) (View.ld x18 r0_30) (View.ld x19 r0_31) (View.ld x20 r0_30) (View.ld x21 r0_31) (View.ld x22 r0_30) (ix2 v j) := by
  rw [out_eq, View.canon_cons_of_not_mem]
  · have e : (ix3 (0 : Fin 2) v j : S2x1024x8.Idx) = r0_32.emb (ix3 (0 : Fin 1) v j) := by
      funext a; apply Fin.ext
      match a with
      | ⟨0, _⟩ => rfl
      | ⟨1, _⟩ => show v.val = 0 + 1 * v.val; omega
      | ⟨2, _⟩ => show j.val = 0 + 1 * j.val; omega
    rw [e, View.canon_cons_emb]
    unfold meshVal0
    exact shapeCast_ab_1ab_apply _ _ 0 v j
  · intro hm
    have h0 := ((Rect.mem_set_unit (s := S2x1024x8) (off := ![1, 0, 0]) (size := S1x1024x8.size)
      (inb := inb_S2x1024x8_S1x1024x8_1_0_0)).mp hm) 0
    exact absurd h0.1 (by show ¬ (1 ≤ 0); omega)

end Cert.KernelIdeal.KNet

end
-- ==== Proof.KOut.lean ====
/-
  The body's result block is the specification's slab, mesh by mesh: mesh μ's stored value is the regrouped network of
  the mesh's loads — the rows μ of the two data blocks, the weights whole, graph convolution i's fused weights as row i of
  their stacks — hence the slab of the mesh that the blocks hold.
-/
import proofs.«141170_g2000409237439836_pallaspilot1_247_36_alg».proof.Proof.KMesh
import proofs.«141170_g2000409237439836_pallaspilot1_247_36_alg».proof.Proof.KApply

set_option maxRecDepth 16384

noncomputable section

namespace Cert.KernelIdeal.KNet

open Idealize.ShloMosaic Idealize.ShloMosaic.ValueIdx Cert.KernelIdeal Cert.KernelIdeal.Gen Cert.KLayer Cert.Spec

set_option maxHeartbeats 4000000 in
/-- The body's result block is the specification's slab, mesh by mesh. -/
theorem out_slab (verts : (⟨3, ![16, 1024, 3]⟩ : Shape).Idx → EReal) (adj : (⟨3, ![16, 1024, 1024]⟩ : Shape).Idx → EReal)
    (p0 : (⟨2, ![128, 512]⟩ : Shape).Idx → EReal) (p1 : (⟨2, ![1, 512]⟩ : Shape).Idx → EReal)
    (p2 : (⟨2, ![512, 512]⟩ : Shape).Idx → EReal) (p3 : (⟨2, ![1, 512]⟩ : Shape).Idx → EReal)
    (p4 : (⟨2, ![512, 256]⟩ : Shape).Idx → EReal) (p5 : (⟨2, ![1, 256]⟩ : Shape).Idx → EReal)
    (p6 : (⟨2, ![256, 256]⟩ : Shape).Idx → EReal) (p7 : (⟨2, ![1, 256]⟩ : Shape).Idx → EReal)
    (p8 : (⟨3, ![2, 384, 256]⟩ : Shape).Idx → EReal) (p9 : (⟨3, ![2, 1, 256]⟩ : Shape).Idx → EReal)
    (p10 : (⟨4, ![9, 2, 256, 256]⟩ : Shape).Idx → EReal) (p11 : (⟨4, ![9, 2, 1, 256]⟩ : Shape).Idx → EReal)
    (p12 : (⟨2, ![256, 128]⟩ : Shape).Idx → EReal) (p13 : (⟨2, ![1, 128]⟩ : Shape).Idx → EReal)
    (p14 : (⟨2, ![128, 128]⟩ : Shape).Idx → EReal) (p15 : (⟨2, ![1, 128]⟩ : Shape).Idx → EReal)
    (p16 : (⟨2, ![128, 128]⟩ : Shape).Idx → EReal) (p17 : (⟨2, ![1, 128]⟩ : Shape).Idx → EReal)
    (p18 : (⟨2, ![128, 128]⟩ : Shape).Idx → EReal) (p19 : (⟨2, ![1, 128]⟩ : Shape).Idx → EReal)
    (bof : Fin 2 → Fin 16)
    (x0 : Vec Ideal S2x1024x128 .bf16) (x1 : Vec Ideal S2x1024x1024 .f32) (x2 : Vec Ideal S128x512 .bf16) (x3 : Vec Ideal S1x512 .f32) (x4 : Vec Ideal S512x512 .bf16) (x5 : Vec Ideal S1x512 .f32) (x6 : Vec Ideal S512x256 .bf16) (x7 : Vec Ideal S1x256 .f32) (x8 : Vec Ideal S256x256 .bf16) (x9 : Vec Ideal S1x256 .f32) (x10 : Vec Ideal S256x512 .bf16) (x11 : Vec Ideal S128x512 .bf16) (x12 : Vec Ideal S1x512 .f32) (x13 : Vec Ideal S9x256x512 .bf16) (x14 : Vec Ideal S9x1x512 .f32) (x15 : Vec Ideal S256x128 .bf16) (x16 : Vec Ideal S1x128 .f32) (x17 : Vec Ideal S128x128 .bf16) (x18 : Vec Ideal S1x128 .f32) (x19 : Vec Ideal S128x128 .bf16) (x20 : Vec Ideal S1x128 .f32) (x21 : Vec Ideal S128x128 .bf16) (x22 : Vec Ideal S1x128 .f32)
    (H0 : ∀ (μ : Fin 2) (v : Fin 1024) (l : Fin 128), x0 (ix3 μ v l) = Spec.X verts (bof μ) v l)
    (H1 : ∀ (μ : Fin 2) (v u : Fin 1024), x1 (ix3 μ v u) = Spec.A adj (bof μ) v u)
    (H2 : ∀ (k : Fin 128) (n : Fin 512), x2 (ix2 k n) = p0 (ix2 k n))
    (H3 : ∀ n : Fin 512, x3 (ix2 (0 : Fin 1) n) = p1 (ix2 (0 : Fin 1) n))
    (H4 : ∀ (k : Fin 512) (n : Fin 512), x4 (ix2 k n) = p2 (ix2 k n))
    (H5 : ∀ n : Fin 512, x5 (ix2 (0 : Fin 1) n) = p3 (ix2 (0 : Fin 1) n))
    (H6 : ∀ (k : Fin 512) (n : Fin 256), x6 (ix2 k n) = p4 (ix2 k n))
    (H7 : ∀ n : Fin 256, x7 (ix2 (0 : Fin 1) n) = p5 (ix2 (0 : Fin 1) n))
    (H8 : ∀ (k : Fin 256) (n : Fin 256), x8 (ix2 k n) = p6 (ix2 k n))
    (H9 : ∀ n : Fin 256, x9 (ix2 (0 : Fin 1) n) = p7 (ix2 (0 : Fin 1) n))
    (H10 : ∀ (k : Fin 256) (n : Fin 512), x10 (ix2 k n) = if hn : n.val < 256 then W0h p8 0 k ⟨n.val, hn⟩ else W0h p8 1 k (hi256 n hn))
    (H11 : ∀ (k : Fin 128) (n : Fin 512), x11 (ix2 k n) = if hn : n.val < 256 then W0x p8 0 k ⟨n.val, hn⟩ else W0x p8 1 k (hi256 n hn))
    (H12 : ∀ n : Fin 512, x12 (ix2 (0 : Fin 1) n) = if hn : n.val < 256 then B0 p9 0 ⟨n.val, hn⟩ else B0 p9 1 (hi256 n hn))
    (H13 : ∀ (i : Fin 9) (k : Fin 256) (n : Fin 512), x13 (ix3 i k n) = if hn : n.val < 256 then Wg p10 i 0 k ⟨n.val, hn⟩ else Wg p10 i 1 k (hi256 n hn))
    (H14 : ∀ (i : Fin 9) (n : Fin 512), x14 (ix3 i (0 : Fin 1) n) = if hn : n.val < 256 then Bg p11 i 0 ⟨n.val, hn⟩ else Bg p11 i 1 (hi256 n hn))
    (H15 : ∀ (k : Fin 256) (n : Fin 128), x15 (ix2 k n) = p12 (ix2 k n))
    (H16 : ∀ n : Fin 128, x16 (ix2 (0 : Fin 1) n) = p13 (ix2 (0 : Fin 1) n))
    (H17 : ∀ (k : Fin 128) (n : Fin 128), x17 (ix2 k n) = p14 (ix2 k n))
    (H18 : ∀ n : Fin 128, x18 (ix2 (0 : Fin 1) n) = p15 (ix2 (0 : Fin 1) n))
    (H19 : ∀ (k : Fin 128) (n : Fin 128), x19 (ix2 k n) = p16 (ix2 k n))
    (H20 : ∀ n : Fin 128, x20 (ix2 (0 : Fin 1) n) = p17 (ix2 (0 : Fin 1) n))
    (H21 : ∀ (k : Fin 128) (n : Fin 128), x21 (ix2 k n) = p18 (ix2 k n))
    (H22 : ∀ n : Fin 128, x22 (ix2 (0 : Fin 1) n) = p19 (ix2 (0 : Fin 1) n))
    (μ : Fin 2) (v : Fin 1024) (j : Fin 8) :
    out0_23 (F := Ideal) x0 x1 x2 x3 x4 x5 x6 x7 x8 x9 x10 x11 x12 x13 x14 x15 x16 x17 x18 x19 x20 x21 x22 (ix3 μ v j) = slab verts adj p0 p1 p2 p3 p4 p5 p6 p7 p8 p9 p10 p11 p12 p13 p14 p15 p16 p17 p18 p19 (bof μ) v (lane8 j) := by
  match μ with
  | ⟨0, _⟩ =>
    rw [show (⟨0, by norm_num⟩ : Fin 2) = 0 from rfl, out_apply0]
    exact kNet_slab verts adj p0 p1 p2 p3 p4 p5 p6 p7 p8 p9 p10 p11 p12 p13 p14 p15 p16 p17 p18 p19 (bof 0) _ _ _ _ _ _ _ _ _ _ _ _ _ _ _ _ _ _ _ _ _ _ _ _ _ _ _ _ _ _ _ _ _ _ _ _ _ _ _
      (fun v l => (ld_block3 x0 0 (by norm_num) _ v l).trans (H0 ⟨0, by norm_num⟩ v l))
      (fun v u => (ld_block3 x1 0 (by norm_num) _ v u).trans (H1 ⟨0, by norm_num⟩ v u))
      (fun k n => (congrFun (View.ld_unit_zero hz2 _ x2) (ix2 k n)).trans (H2 k n))
      (fun n => (congrFun (View.ld_unit_zero hz2 _ x3) (ix2 (0 : Fin 1) n)).trans (H3 n))
      (fun k n => (congrFun (View.ld_unit_zero hz2 _ x4) (ix2 k n)).trans (H4 k n))
      (fun n => (congrFun (View.ld_unit_zero hz2 _ x5) (ix2 (0 : Fin 1) n)).trans (H5 n))
      (fun k n => (congrFun (View.ld_unit_zero hz2 _ x6) (ix2 k n)).trans (H6 k n))
      (fun n => (congrFun (View.ld_unit_zero hz2 _ x7) (ix2 (0 : Fin 1) n)).trans (H7 n))
      (fun k n => (congrFun (View.ld_unit_zero hz2 _ x8) (ix2 k n)).trans (H8 k n))
      (fun n => (congrFun (View.ld_unit_zero hz2 _ x9) (ix2 (0 : Fin 1) n)).trans (H9 n))
      (fun k n => (congrFun (View.ld_unit_zero hz2 _ x10) (ix2 k n)).trans (H10 k n))
      (fun k n => (congrFun (View.ld_unit_zero hz2 _ x11) (ix2 k n)).trans (H11 k n))
      (fun n => (congrFun (View.ld_unit_zero hz2 _ x12) (ix2 (0 : Fin 1) n)).trans (H12 n))
      (fun k n => (ld_block3 x13 0 (by norm_num) _ k n).trans (H13 ⟨0, by norm_num⟩ k n))
      (fun n => (ld_block3 x14 0 (by norm_num) _ (0 : Fin 1) n).trans (H14 ⟨0, by norm_num⟩ n))
      (fun k n => (ld_block3 x13 1 (by norm_num) _ k n).trans (H13 ⟨1, by norm_num⟩ k n))
      (fun n => (ld_block3 x14 1 (by norm_num) _ (0 : Fin 1) n).trans (H14 ⟨1, by norm_num⟩ n))
      (fun k n => (ld_block3 x13 2 (by norm_num) _ k n).trans (H13 ⟨2, by norm_num⟩ k n))
      (fun n => (ld_block3 x14 2 (by norm_num) _ (0 : Fin 1) n).trans (H14 ⟨2, by norm_num⟩ n))
      (fun k n => (ld_block3 x13 3 (by norm_num) _ k n).trans (H13 ⟨3, by norm_num⟩ k n))
      (fun n => (ld_block3 x14 3 (by norm_num) _ (0 : Fin 1) n).trans (H14 ⟨3, by norm_num⟩ n))
      (fun k n => (ld_block3 x13 4 (by norm_num) _ k n).trans (H13 ⟨4, by norm_num⟩ k n))
      (fun n => (ld_block3 x14 4 (by norm_num) _ (0 : Fin 1) n).trans (H14 ⟨4, by norm_num⟩ n))
      (fun k n => (ld_block3 x13 5 (by norm_num) _ k n).trans (H13 ⟨5, by norm_num⟩ k n))
      (fun n => (ld_block3 x14 5 (by norm_num) _ (0 : Fin 1) n).trans (H14 ⟨5, by norm_num⟩ n))
      (fun k n => (ld_block3 x13 6 (by norm_num) _ k n).trans (H13 ⟨6, by norm_num⟩ k n))
      (fun n => (ld_block3 x14 6 (by norm_num) _ (0 : Fin 1) n).trans (H14 ⟨6, by norm_num⟩ n))
      (fun k n => (ld_block3 x13 7 (by norm_num) _ k n).trans (H13 ⟨7, by norm_num⟩ k n))
      (fun n => (ld_block3 x14 7 (by norm_num) _ (0 : Fin 1) n).trans (H14 ⟨7, by norm_num⟩ n))
      (fun k n => (ld_block3 x13 8 (by norm_num) _ k n).trans (H13 ⟨8, by norm_num⟩ k n))
      (fun n => (ld_block3 x14 8 (by norm_num) _ (0 : Fin 1) n).trans (H14 ⟨8, by norm_num⟩ n))
      (fun k n => (congrFun (View.ld_unit_zero hz2 _ x15) (ix2 k n)).trans (H15 k n))
      (fun n => (congrFun (View.ld_unit_zero hz2 _ x16) (ix2 (0 : Fin 1) n)).trans (H16 n))
      (fun k n => (congrFun (View.ld_unit_zero hz2 _ x17) (ix2 k n)).trans (H17 k n))
      (fun n => (congrFun (View.ld_unit_zero hz2 _ x18) (ix2 (0 : Fin 1) n)).trans (H18 n))
      (fun k n => (congrFun (View.ld_unit_zero hz2 _ x19) (ix2 k n)).trans (H19 k n))
      (fun n => (congrFun (View.ld_unit_zero hz2 _ x20) (ix2 (0 : Fin 1) n)).trans (H20 n))
      (fun k n => (congrFun (View.ld_unit_zero hz2 _ x21) (ix2 k n)).trans (H21 k n))
      (fun n => (congrFun (View.ld_unit_zero hz2 _ x22) (ix2 (0 : Fin 1) n)).trans (H22 n))
      v j
  | ⟨1, _⟩ =>
    rw [show (⟨1, by norm_num⟩ : Fin 2) = 1 from rfl, out_apply1]
    exact kNet_slab verts adj p0 p1 p2 p3 p4 p5 p6 p7 p8 p9 p10 p11 p12 p13 p14 p15 p16 p17 p18 p19 (bof 1) _ _ _ _ _ _ _ _ _ _ _ _ _ _ _ _ _ _ _ _ _ _ _ _ _ _ _ _ _ _ _ _ _ _ _ _ _ _ _
      (fun v l => (ld_block3 x0 1 (by norm_num) _ v l).trans (H0 ⟨1, by norm_num⟩ v l))
      (fun v u => (ld_block3 x1 1 (by norm_num) _ v u).trans (H1 ⟨1, by norm_num⟩ v u))
      (fun k n => (congrFun (View.ld_unit_zero hz2 _ x2) (ix2 k n)).trans (H2 k n))
      (fun n => (congrFun (View.ld_unit_zero hz2 _ x3) (ix2 (0 : Fin 1) n)).trans (H3 n))
      (fun k n => (congrFun (View.ld_unit_zero hz2 _ x4) (ix2 k n)).trans (H4 k n))
      (fun n => (congrFun (View.ld_unit_zero hz2 _ x5) (ix2 (0 : Fin 1) n)).trans (H5 n))
      (fun k n => (congrFun (View.ld_unit_zero hz2 _ x6) (ix2 k n)).trans (H6 k n))
      (fun n => (congrFun (View.ld_unit_zero hz2 _ x7) (ix2 (0 : Fin 1) n)).trans (H7 n))
      (fun k n => (congrFun (View.ld_unit_zero hz2 _ x8) (ix2 k n)).trans (H8 k n))
      (fun n => (congrFun (View.ld_unit_zero hz2 _ x9) (ix2 (0 : Fin 1) n)).trans (H9 n))
      (fun k n => (congrFun (View.ld_unit_zero hz2 _ x10) (ix2 k n)).trans (H10 k n))
      (fun k n => (congrFun (View.ld_unit_zero hz2 _ x11) (ix2 k n)).trans (H11 k n))
      (fun n => (congrFun (View.ld_unit_zero hz2 _ x12) (ix2 (0 : Fin 1) n)).trans (H12 n))
      (fun k n => (ld_block3 x13 0 (by norm_num) _ k n).trans (H13 ⟨0, by norm_num⟩ k n))
      (fun n => (ld_block3 x14 0 (by norm_num) _ (0 : Fin 1) n).trans (H14 ⟨0, by norm_num⟩ n))
      (fun k n => (ld_block3 x13 1 (by norm_num) _ k n).trans (H13 ⟨1, by norm_num⟩ k n))
      (fun n => (ld_block3 x14 1 (by norm_num) _ (0 : Fin 1) n).trans (H14 ⟨1, by norm_num⟩ n))
      (fun k n => (ld_block3 x13 2 (by norm_num) _ k n).trans (H13 ⟨2, by norm_num⟩ k n))
      (fun n => (ld_block3 x14 2 (by norm_num) _ (0 : Fin 1) n).trans (H14 ⟨2, by norm_num⟩ n))
      (fun k n => (ld_block3 x13 3 (by norm_num) _ k n).trans (H13 ⟨3, by norm_num⟩ k n))
      (fun n => (ld_block3 x14 3 (by norm_num) _ (0 : Fin 1) n).trans (H14 ⟨3, by norm_num⟩ n))
      (fun k n => (ld_block3 x13 4 (by norm_num) _ k n).trans (H13 ⟨4, by norm_num⟩ k n))
      (fun n => (ld_block3 x14 4 (by norm_num) _ (0 : Fin 1) n).trans (H14 ⟨4, by norm_num⟩ n))
      (fun k n => (ld_block3 x13 5 (by norm_num) _ k n).trans (H13 ⟨5, by norm_num⟩ k n))
      (fun n => (ld_block3 x14 5 (by norm_num) _ (0 : Fin 1) n).trans (H14 ⟨5, by norm_num⟩ n))
      (fun k n => (ld_block3 x13 6 (by norm_num) _ k n).trans (H13 ⟨6, by norm_num⟩ k n))
      (fun n => (ld_block3 x14 6 (by norm_num) _ (0 : Fin 1) n).trans (H14 ⟨6, by norm_num⟩ n))
      (fun k n => (ld_block3 x13 7 (by norm_num) _ k n).trans (H13 ⟨7, by norm_num⟩ k n))
      (fun n => (ld_block3 x14 7 (by norm_num) _ (0 : Fin 1) n).trans (H14 ⟨7, by norm_num⟩ n))
      (fun k n => (ld_block3 x13 8 (by norm_num) _ k n).trans (H13 ⟨8, by norm_num⟩ k n))
      (fun n => (ld_block3 x14 8 (by norm_num) _ (0 : Fin 1) n).trans (H14 ⟨8, by norm_num⟩ n))
      (fun k n => (congrFun (View.ld_unit_zero hz2 _ x15) (ix2 k n)).trans (H15 k n))
      (fun n => (congrFun (View.ld_unit_zero hz2 _ x16) (ix2 (0 : Fin 1) n)).trans (H16 n))
      (fun k n => (congrFun (View.ld_unit_zero hz2 _ x17) (ix2 k n)).trans (H17 k n))
      (fun n => (congrFun (View.ld_unit_zero hz2 _ x18) (ix2 (0 : Fin 1) n)).trans (H18 n))
      (fun k n => (congrFun (View.ld_unit_zero hz2 _ x19) (ix2 k n)).trans (H19 k n))
      (fun n => (congrFun (View.ld_unit_zero hz2 _ x20) (ix2 (0 : Fin 1) n)).trans (H20 n))
      (fun k n => (congrFun (View.ld_unit_zero hz2 _ x21) (ix2 k n)).trans (H21 k n))
      (fun n => (congrFun (View.ld_unit_zero hz2 _ x22) (ix2 (0 : Fin 1) n)).trans (H22 n))
      v j

end Cert.KernelIdeal.KNet

end
-- ==== Proof.KWinV.lean ====
/-
  The arrays the host operations before the region write, each as a term of the argument arrays: the vertices padded to
  128 lanes, the weights through the format change, and the graph convolutions' two branches cut out, reshaped and set
  side by side along the last axis.
-/
import proofs.«141170_g2000409237439836_pallaspilot1_247_36_alg».proof.Proof.Gen.KernelIdeal.Frame
import proofs.«141170_g2000409237439836_pallaspilot1_247_36_alg».proof.Proof.Spec
import Idealize.ShloMosaic.Lib.Pipeline.Value
import Idealize.ShloMosaic.Lib.ValueLayout
import Idealize.ShloMosaic.Lib.KernelVsHost

noncomputable section

namespace Cert.KernelIdeal.KWin

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The grid has 8 points. -/
theorem hN : cfg0.N = 8 := N_0

/-- `main_v1`: the vertices padded with the converted zero word to 128 lanes, through the format change. -/
theorem V_v1 (c : Dev nD) : @Eq (FVec Ideal S16x1024x128 .bf16) (V m c main_v1) (truncf .bf16 (pad S16x1024x128 ![0, 0, 0] ![0, 0, 125] ![0, 0, 0] (m ((c.tc : Thread nD τ).loc main_arg0) : FVec Ideal S16x1024x3 .f32)
      (sitofp (F := Ideal) .f32 (constantI S_ 32 0#32)) pads_S16x1024x3_S16x1024x128_000_000_01250 h_S_) bitsLt_bf16_f32) := by
  dsimp only [V, V0]
  simp only [hostOps0, hostOps0_1, hostOps0_2, List.flatten_cons, List.flatten_nil, List.append_nil, List.cons_append, List.nil_append]
  after_results
  all_goals rfl

/-- `main_v30`: argument 2 through the format change. -/
theorem V_v30 (c : Dev nD) : @Eq (FVec Ideal S128x512 .bf16) (V m c main_v30) (truncf .bf16 (m ((c.tc : Thread nD τ).loc main_arg2) : FVec Ideal S128x512 .f32) bitsLt_bf16_f32) := by
  dsimp only [V, V0]
  simp only [hostOps0, hostOps0_1, hostOps0_2, List.flatten_cons, List.flatten_nil, List.append_nil, List.cons_append, List.nil_append]
  after_results
  all_goals rfl

/-- `main_v31`: argument 4 through the format change. -/
theorem V_v31 (c : Dev nD) : @Eq (FVec Ideal S512x512 .bf16) (V m c main_v31) (truncf .bf16 (m ((c.tc : Thread nD τ).loc main_arg4) : FVec Ideal S512x512 .f32) bitsLt_bf16_f32) := by
  dsimp only [V, V0]
  simp only [hostOps0, hostOps0_1, hostOps0_2, List.flatten_cons, List.flatten_nil, List.append_nil, List.cons_append, List.nil_append]
  after_results
  all_goals rfl

/-- `main_v32`: argument 6 through the format change. -/
theorem V_v32 (c : Dev nD) : @Eq (FVec Ideal S512x256 .bf16) (V m c main_v32) (truncf .bf16 (m ((c.tc : Thread nD τ).loc main_arg6) : FVec Ideal S512x256 .f32) bitsLt_bf16_f32) := by
  dsimp only [V, V0]
  simp only [hostOps0, hostOps0_1, hostOps0_2, List.flatten_cons, List.flatten_nil, List.append_nil, List.cons_append, List.nil_append]
  after_results
  all_goals rfl

/-- `main_v33`: argument 8 through the format change. -/
theorem V_v33 (c : Dev nD) : @Eq (FVec Ideal S256x256 .bf16) (V m c main_v33) (truncf .bf16 (m ((c.tc : Thread nD τ).loc main_arg8) : FVec Ideal S256x256 .f32) bitsLt_bf16_f32) := by
  dsimp only [V, V0]
  simp only [hostOps0, hostOps0_1, hostOps0_2, List.flatten_cons, List.flatten_nil, List.append_nil, List.cons_append, List.nil_append]
  after_results
  all_goals rfl

/-- `main_v34`: argument 14 through the format change. -/
theorem V_v34 (c : Dev nD) : @Eq (FVec Ideal S256x128 .bf16) (V m c main_v34) (truncf .bf16 (m ((c.tc : Thread nD τ).loc main_arg14) : FVec Ideal S256x128 .f32) bitsLt_bf16_f32) := by
  dsimp only [V, V0]
  simp only [hostOps0, hostOps0_1, hostOps0_2, List.flatten_cons, List.flatten_nil, List.append_nil, List.cons_append, List.nil_append]
  after_results
  all_goals rfl

/-- `main_v35`: argument 16 through the format change. -/
theorem V_v35 (c : Dev nD) : @Eq (FVec Ideal S128x128 .bf16) (V m c main_v35) (truncf .bf16 (m ((c.tc : Thread nD τ).loc main_arg16) : FVec Ideal S128x128 .f32) bitsLt_bf16_f32) := by
  dsimp only [V, V0]
  simp only [hostOps0, hostOps0_1, hostOps0_2, List.flatten_cons, List.flatten_nil, List.append_nil, List.cons_append, List.nil_append]
  after_results
  all_goals rfl

/-- `main_v36`: argument 18 through the format change. -/
theorem V_v36 (c : Dev nD) : @Eq (FVec Ideal S128x128 .bf16) (V m c main_v36) (truncf .bf16 (m ((c.tc : Thread nD τ).loc main_arg18) : FVec Ideal S128x128 .f32) bitsLt_bf16_f32) := by
  dsimp only [V, V0]
  simp only [hostOps0, hostOps0_1, hostOps0_2, List.flatten_cons, List.flatten_nil, List.append_nil, List.cons_append, List.nil_append]
  after_results
  all_goals rfl

/-- `main_v37`: argument 20 through the format change. -/
theorem V_v37 (c : Dev nD) : @Eq (FVec Ideal S128x128 .bf16) (V m c main_v37) (truncf .bf16 (m ((c.tc : Thread nD τ).loc main_arg20) : FVec Ideal S128x128 .f32) bitsLt_bf16_f32) := by
  dsimp only [V, V0]
  simp only [hostOps0, hostOps0_1, hostOps0_2, List.flatten_cons, List.flatten_nil, List.append_nil, List.cons_append, List.nil_append]
  after_results
  all_goals rfl

/-- `main_v7`: graph convolution 0's feature rows of the two branches side by side. -/
theorem V_v7 (c : Dev nD) : @Eq (FVec Ideal S256x512 .bf16) (V m c main_v7) (truncf .bf16 (concatenate S256x512 1
      [⟨S256x256, shapeCast S256x256 (extractStridedSlice S1x256x256 ![0, 0, 0] (m ((c.tc : Thread nD τ).loc main_arg10) : FVec Ideal S2x384x256 .f32) slices_S2x384x256_S1x256x256_0_0_0) shapeCasts_S1x256x256_S256x256⟩,
       ⟨S256x256, shapeCast S256x256 (extractStridedSlice S1x256x256 ![1, 0, 0] (m ((c.tc : Thread nD τ).loc main_arg10) : FVec Ideal S2x384x256 .f32) slices_S2x384x256_S1x256x256_1_0_0) shapeCasts_S1x256x256_S256x256⟩]
      concatenates_S256x256_S256x256_S256x512_d1) bitsLt_bf16_f32) := by
  dsimp only [V, V0]
  simp only [hostOps0, hostOps0_1, hostOps0_2, List.flatten_cons, List.flatten_nil, List.append_nil, List.cons_append, List.nil_append]
  after_results
  all_goals rfl

/-- `main_v13`: graph convolution 0's coordinate rows of the two branches side by side. -/
theorem V_v13 (c : Dev nD) : @Eq (FVec Ideal S128x512 .bf16) (V m c main_v13) (truncf .bf16 (concatenate S128x512 1
      [⟨S128x256, shapeCast S128x256 (extractStridedSlice S1x128x256 ![0, 256, 0] (m ((c.tc : Thread nD τ).loc main_arg10) : FVec Ideal S2x384x256 .f32) slices_S2x384x256_S1x128x256_0_256_0) shapeCasts_S1x128x256_S128x256⟩,
       ⟨S128x256, shapeCast S128x256 (extractStridedSlice S1x128x256 ![1, 256, 0] (m ((c.tc : Thread nD τ).loc main_arg10) : FVec Ideal S2x384x256 .f32) slices_S2x384x256_S1x128x256_1_256_0) shapeCasts_S1x128x256_S128x256⟩]
      concatenates_S128x256_S128x256_S128x512_d1) bitsLt_bf16_f32) := by
  dsimp only [V, V0]
  simp only [hostOps0, hostOps0_1, hostOps0_2, List.flatten_cons, List.flatten_nil, List.append_nil, List.cons_append, List.nil_append]
  after_results
  all_goals rfl

/-- `main_v18`: graph convolution 0's two biases side by side. -/
theorem V_v18 (c : Dev nD) : @Eq (FVec Ideal S1x512 .f32) (V m c main_v18) (concatenate S1x512 1
      [⟨S1x256, shapeCast S1x256 (extractStridedSlice S1x1x256 ![0, 0, 0] (m ((c.tc : Thread nD τ).loc main_arg11) : FVec Ideal S2x1x256 .f32) slices_S2x1x256_S1x1x256_0_0_0) shapeCasts_S1x1x256_S1x256⟩,
       ⟨S1x256, shapeCast S1x256 (extractStridedSlice S1x1x256 ![1, 0, 0] (m ((c.tc : Thread nD τ).loc main_arg11) : FVec Ideal S2x1x256 .f32) slices_S2x1x256_S1x1x256_1_0_0) shapeCasts_S1x1x256_S1x256⟩]
      concatenates_S1x256_S1x256_S1x512_d1) := by
  dsimp only [V, V0]
  simp only [hostOps0, hostOps0_1, hostOps0_2, List.flatten_cons, List.flatten_nil, List.append_nil, List.cons_append, List.nil_append]
  after_results
  all_goals rfl

/-- `main_v24`: the nine later graph convolutions' two weight matrices side by side. -/
theorem V_v24 (c : Dev nD) : @Eq (FVec Ideal S9x256x512 .bf16) (V m c main_v24) (truncf .bf16 (concatenate S9x256x512 2
      [⟨S9x256x256, shapeCast S9x256x256 (extractStridedSlice S9x1x256x256 ![0, 0, 0, 0] (m ((c.tc : Thread nD τ).loc main_arg12) : FVec Ideal S9x2x256x256 .f32) slices_S9x2x256x256_S9x1x256x256_0_0_0_0) shapeCasts_S9x1x256x256_S9x256x256⟩,
       ⟨S9x256x256, shapeCast S9x256x256 (extractStridedSlice S9x1x256x256 ![0, 1, 0, 0] (m ((c.tc : Thread nD τ).loc main_arg12) : FVec Ideal S9x2x256x256 .f32) slices_S9x2x256x256_S9x1x256x256_0_1_0_0) shapeCasts_S9x1x256x256_S9x256x256⟩]
      concatenates_S9x256x256_S9x256x256_S9x256x512_d2) bitsLt_bf16_f32) := by
  dsimp only [V, V0]
  simp only [hostOps0, hostOps0_1, hostOps0_2, List.flatten_cons, List.flatten_nil, List.append_nil, List.cons_append, List.nil_append]
  after_results_simp
  all_goals rfl

/-- `main_v29`: the nine later graph convolutions' two biases side by side. -/
theorem V_v29 (c : Dev nD) : @Eq (FVec Ideal S9x1x512 .f32) (V m c main_v29) (concatenate S9x1x512 2
      [⟨S9x1x256, shapeCast S9x1x256 (extractStridedSlice S9x1x1x256 ![0, 0, 0, 0] (m ((c.tc : Thread nD τ).loc main_arg13) : FVec Ideal S9x2x1x256 .f32) slices_S9x2x1x256_S9x1x1x256_0_0_0_0) shapeCasts_S9x1x1x256_S9x1x256⟩,
       ⟨S9x1x256, shapeCast S9x1x256 (extractStridedSlice S9x1x1x256 ![0, 1, 0, 0] (m ((c.tc : Thread nD τ).loc main_arg13) : FVec Ideal S9x2x1x256 .f32) slices_S9x2x1x256_S9x1x1x256_0_1_0_0) shapeCasts_S9x1x1x256_S9x1x256⟩]
      concatenates_S9x1x256_S9x1x256_S9x1x512_d2) := by
  dsimp only [V, V0]
  simp only [hostOps0, hostOps0_1, hostOps0_2, List.flatten_cons, List.flatten_nil, List.append_nil, List.cons_append, List.nil_append]
  after_results_simp
  all_goals rfl

end Cert.KernelIdeal.KWin

end
-- ==== Proof.KWinA.lean ====
/-
  Input windows 0 to 9 of the kernel's one region, each block read at coordinates as the specification's arrays: the
  padded vertices and the adjacency of meshes 2t and 2t + 1 at point t (a block's coordinate is its index times its size
  plus the coordinate inside it, the index maps decided over the eight points), and the first four linear layers' weights
  and biases, whole at every point.
-/
import proofs.«141170_g2000409237439836_pallaspilot1_247_36_alg».proof.Proof.Gen.KernelIdeal.Frame
import proofs.«141170_g2000409237439836_pallaspilot1_247_36_alg».proof.Proof.Spec
import Idealize.ShloMosaic.Lib.Pipeline.Value
import Idealize.ShloMosaic.Lib.ValueLayout
import Idealize.ShloMosaic.Lib.KernelVsHost
import proofs.«141170_g2000409237439836_pallaspilot1_247_36_alg».proof.Proof.KWinV

noncomputable section

namespace Cert.KernelIdeal.KWin

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The two mesh windows -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 0 at point t: meshes 2t and 2t + 1 of the vertices padded with zeros to 128 lanes. -/
theorem iblk0 (c : Dev nD) (t : Fin cfg0.N) (μ : Fin 2) (v : Fin 1024) (l : Fin 128) :
    @Eq EReal (iblk m c 0 t (ix3 μ v l))
      (Cert.Spec.X (m ((c.tc : Thread nD τ).loc main_arg0)) ⟨2 * t.val + μ.val, by have := t.isLt; have := hN; have := μ.isLt; omega⟩ v l) := by
  obtain ⟨e0, e1, e2⟩ := idx0 t
  unfold iblk
  rw [View.read_apply]
  show (V m c main_v1 : FVec Ideal S16x1024x128 .bf16) _ = _
  rw [V_v1]
  show pad S16x1024x128 ![0, 0, 0] ![0, 0, 125] ![0, 0, 0] (m ((c.tc : Thread nD τ).loc main_arg0) : FVec Ideal S16x1024x3 .f32)
      (sitofp (F := Ideal) .f32 (constantI S_ 32 0#32)) pads_S16x1024x3_S16x1024x128_000_000_01250 h_S_
      (((cfg0.win 0).blk t).view.emb (ix3 μ v l)) = _
  unfold Cert.Spec.X
  by_cases h : l.val < 3
  · rw [dif_pos h]
    refine pad_apply_of_inside _ _ _ _ _ _ _ _
      (ix3 (⟨2 * t.val + μ.val, by have := t.isLt; have := hN; have := μ.isLt; omega⟩ : Fin 16) v (⟨l.val, h⟩ : Fin 3)) ?_
    intro ax
    match ax with
    | ⟨0, _⟩ => show win0_0.index t (0 : Fin 3) * 2 + 1 * μ.val = 0 + (2 * t.val + μ.val) * (0 + 1); rw [e0]; omega
    | ⟨1, _⟩ => show win0_0.index t (1 : Fin 3) * 1024 + 1 * v.val = 0 + v.val * (0 + 1); rw [e1]; omega
    | ⟨2, _⟩ => show win0_0.index t (2 : Fin 3) * 128 + 1 * l.val = 0 + l.val * (0 + 1); rw [e2]; omega
  · rw [dif_neg h]
    refine (pad_apply_of_not_inside _ _ _ _ _ _ _ _ (2 : Fin 3) ?_).trans ?_
    · show ¬(0 ≤ win0_0.index t (2 : Fin 3) * 128 + 1 * l.val
        ∧ (win0_0.index t (2 : Fin 3) * 128 + 1 * l.val - 0) % (0 + 1) = 0
        ∧ (win0_0.index t (2 : Fin 3) * 128 + 1 * l.val - 0) / (0 + 1) < 3)
      rw [e2]; omega
    · exact sitofp_zero (φ := .f32)

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 1 at point t: meshes 2t and 2t + 1 of the adjacency. -/
theorem iblk1 (c : Dev nD) (t : Fin cfg0.N) (μ : Fin 2) (v : Fin 1024) (u : Fin 1024) :
    @Eq EReal (iblk m c 1 t (ix3 μ v u))
      (Cert.Spec.A (m ((c.tc : Thread nD τ).loc main_arg1)) ⟨2 * t.val + μ.val, by have := t.isLt; have := hN; have := μ.isLt; omega⟩ v u) := by
  obtain ⟨e0, e1, e2⟩ := idx1 t
  unfold iblk
  rw [View.read_apply]
  show (V m c main_arg1 : FVec Ideal S16x1024x1024 .f32) _ = _
  rw [V_main_arg1]
  show (m ((c.tc : Thread nD τ).loc main_arg1) : FVec Ideal S16x1024x1024 .f32) (((cfg0.win 1).blk t).view.emb (ix3 μ v u))
    = (m ((c.tc : Thread nD τ).loc main_arg1) : FVec Ideal S16x1024x1024 .f32) (ix3 (⟨2 * t.val + μ.val, by have := t.isLt; have := hN; have := μ.isLt; omega⟩ : Fin 16) v u)
  congr 1
  funext ax
  apply Fin.ext
  match ax with
  | ⟨0, _⟩ => show win0_1.index t (0 : Fin 3) * 2 + 1 * μ.val = 2 * t.val + μ.val; rw [e0]; omega
  | ⟨1, _⟩ => show win0_1.index t (1 : Fin 3) * 1024 + 1 * v.val = v.val; rw [e1]; omega
  | ⟨2, _⟩ => show win0_1.index t (2 : Fin 3) * 1024 + 1 * u.val = u.val; rw [e2]; omega

/-! ## The first four linear layers -/

theorem idx2 : ∀ t : Fin cfg0.N, win0_2.index t (0 : Fin 2) = 0 ∧ win0_2.index t (1 : Fin 2) = 0 :=
  (by decide +kernel : ∀ t : Fin grid0.N, _)

/-- Window 2: the first layer's weights. -/
theorem iblk2 (c : Dev nD) (t : Fin cfg0.N) (k : Fin 128) (n : Fin 512) :
    @Eq EReal (iblk m c 2 t (ix2 k n)) ((m ((c.tc : Thread nD τ).loc main_arg2)) (ix2 k n)) := by
  obtain ⟨e0, e1⟩ := idx2 t
  unfold iblk
  rw [View.read_apply]
  show (V m c main_v30 : FVec Ideal S128x512 .bf16) _ = _
  rw [V_v30]
  show (m ((c.tc : Thread nD τ).loc main_arg2) : FVec Ideal S128x512 .f32) (((cfg0.win 2).blk t).view.emb (ix2 k n)) = _
  congr 1
  funext ax
  apply Fin.ext
  match ax with
  | ⟨0, _⟩ => show win0_2.index t (0 : Fin 2) * 128 + 1 * k.val = k.val; rw [e0]; omega
  | ⟨1, _⟩ => show win0_2.index t (1 : Fin 2) * 512 + 1 * n.val = n.val; rw [e1]; omega

theorem idx3 : ∀ t : Fin cfg0.N, win0_3.index t (0 : Fin 2) = 0 ∧ win0_3.index t (1 : Fin 2) = 0 :=
  (by decide +kernel : ∀ t : Fin grid0.N, _)

/-- Window 3: the first layer's bias. -/
theorem iblk3 (c : Dev nD) (t : Fin cfg0.N) (k : Fin 1) (n : Fin 512) :
    @Eq EReal (iblk m c 3 t (ix2 k n)) ((m ((c.tc : Thread nD τ).loc main_arg3)) (ix2 k n)) := by
  obtain ⟨e0, e1⟩ := idx3 t
  unfold iblk
  rw [View.read_apply]
  show (V m c main_arg3 : FVec Ideal S1x512 .f32) _ = _
  rw [V_main_arg3]
  show (m ((c.tc : Thread nD τ).loc main_arg3) : FVec Ideal S1x512 .f32) (((cfg0.win 3).blk t).view.emb (ix2 k n)) = _
  congr 1
  funext ax
  apply Fin.ext
  match ax with
  | ⟨0, _⟩ => show win0_3.index t (0 : Fin 2) * 1 + 1 * k.val = k.val; rw [e0]; omega
  | ⟨1, _⟩ => show win0_3.index t (1 : Fin 2) * 512 + 1 * n.val = n.val; rw [e1]; omega

theorem idx4 : ∀ t : Fin cfg0.N, win0_4.index t (0 : Fin 2) = 0 ∧ win0_4.index t (1 : Fin 2) = 0 :=
  (by decide +kernel : ∀ t : Fin grid0.N, _)

/-- Window 4: the second layer's weights. -/
theorem iblk4 (c : Dev nD) (t : Fin cfg0.N) (k : Fin 512) (n : Fin 512) :
    @Eq EReal (iblk m c 4 t (ix2 k n)) ((m ((c.tc : Thread nD τ).loc main_arg4)) (ix2 k n)) := by
  obtain ⟨e0, e1⟩ := idx4 t
  unfold iblk
  rw [View.read_apply]
  show (V m c main_v31 : FVec Ideal S512x512 .bf16) _ = _
  rw [V_v31]
  show (m ((c.tc : Thread nD τ).loc main_arg4) : FVec Ideal S512x512 .f32) (((cfg0.win 4).blk t).view.emb (ix2 k n)) = _
  congr 1
  funext ax
  apply Fin.ext
  match ax with
  | ⟨0, _⟩ => show win0_4.index t (0 : Fin 2) * 512 + 1 * k.val = k.val; rw [e0]; omega
  | ⟨1, _⟩ => show win0_4.index t (1 : Fin 2) * 512 + 1 * n.val = n.val; rw [e1]; omega

theorem idx5 : ∀ t : Fin cfg0.N, win0_5.index t (0 : Fin 2) = 0 ∧ win0_5.index t (1 : Fin 2) = 0 :=
  (by decide +kernel : ∀ t : Fin grid0.N, _)

/-- Window 5: the second layer's bias. -/
theorem iblk5 (c : Dev nD) (t : Fin cfg0.N) (k : Fin 1) (n : Fin 512) :
    @Eq EReal (iblk m c 5 t (ix2 k n)) ((m ((c.tc : Thread nD τ).loc main_arg5)) (ix2 k n)) := by
  obtain ⟨e0, e1⟩ := idx5 t
  unfold iblk
  rw [View.read_apply]
  show (V m c main_arg5 : FVec Ideal S1x512 .f32) _ = _
  rw [V_main_arg5]
  show (m ((c.tc : Thread nD τ).loc main_arg5) : FVec Ideal S1x512 .f32) (((cfg0.win 5).blk t).view.emb (ix2 k n)) = _
  congr 1
  funext ax
  apply Fin.ext
  match ax with
  | ⟨0, _⟩ => show win0_5.index t (0 : Fin 2) * 1 + 1 * k.val = k.val; rw [e0]; omega
  | ⟨1, _⟩ => show win0_5.index t (1 : Fin 2) * 512 + 1 * n.val = n.val; rw [e1]; omega

theorem idx6 : ∀ t : Fin cfg0.N, win0_6.index t (0 : Fin 2) = 0 ∧ win0_6.index t (1 : Fin 2) = 0 :=
  (by decide +kernel : ∀ t : Fin grid0.N, _)

/-- Window 6: the third layer's weights. -/
theorem iblk6 (c : Dev nD) (t : Fin cfg0.N) (k : Fin 512) (n : Fin 256) :
    @Eq EReal (iblk m c 6 t (ix2 k n)) ((m ((c.tc : Thread nD τ).loc main_arg6)) (ix2 k n)) := by
  obtain ⟨e0, e1⟩ := idx6 t
  unfold iblk
  rw [View.read_apply]
  show (V m c main_v32 : FVec Ideal S512x256 .bf16) _ = _
  rw [V_v32]
  show (m ((c.tc : Thread nD τ).loc main_arg6) : FVec Ideal S512x256 .f32) (((cfg0.win 6).blk t).view.emb (ix2 k n)) = _
  congr 1
  funext ax
  apply Fin.ext
  match ax with
  | ⟨0, _⟩ => show win0_6.index t (0 : Fin 2) * 512 + 1 * k.val = k.val; rw [e0]; omega
  | ⟨1, _⟩ => show win0_6.index t (1 : Fin 2) * 256 + 1 * n.val = n.val; rw [e1]; omega

theorem idx7 : ∀ t : Fin cfg0.N, win0_7.index t (0 : Fin 2) = 0 ∧ win0_7.index t (1 : Fin 2) = 0 :=
  (by decide +kernel : ∀ t : Fin grid0.N, _)

/-- Window 7: the third layer's bias. -/
theorem iblk7 (c : Dev nD) (t : Fin cfg0.N) (k : Fin 1) (n : Fin 256) :
    @Eq EReal (iblk m c 7 t (ix2 k n)) ((m ((c.tc : Thread nD τ).loc main_arg7)) (ix2 k n)) := by
  obtain ⟨e0, e1⟩ := idx7 t
  unfold iblk
  rw [View.read_apply]
  show (V m c main_arg7 : FVec Ideal S1x256 .f32) _ = _
  rw [V_main_arg7]
  show (m ((c.tc : Thread nD τ).loc main_arg7) : FVec Ideal S1x256 .f32) (((cfg0.win 7).blk t).view.emb (ix2 k n)) = _
  congr 1
  funext ax
  apply Fin.ext
  match ax with
  | ⟨0, _⟩ => show win0_7.index t (0 : Fin 2) * 1 + 1 * k.val = k.val; rw [e0]; omega
  | ⟨1, _⟩ => show win0_7.index t (1 : Fin 2) * 256 + 1 * n.val = n.val; rw [e1]; omega

theorem idx8 : ∀ t : Fin cfg0.N, win0_8.index t (0 : Fin 2) = 0 ∧ win0_8.index t (1 : Fin 2) = 0 :=
  (by decide +kernel : ∀ t : Fin grid0.N, _)

/-- Window 8: the fourth layer's weights. -/
theorem iblk8 (c : Dev nD) (t : Fin cfg0.N) (k : Fin 256) (n : Fin 256) :
    @Eq EReal (iblk m c 8 t (ix2 k n)) ((m ((c.tc : Thread nD τ).loc main_arg8)) (ix2 k n)) := by
  obtain ⟨e0, e1⟩ := idx8 t
  unfold iblk
  rw [View.read_apply]
  show (V m c main_v33 : FVec Ideal S256x256 .bf16) _ = _
  rw [V_v33]
  show (m ((c.tc : Thread nD τ).loc main_arg8) : FVec Ideal S256x256 .f32) (((cfg0.win 8).blk t).view.emb (ix2 k n)) = _
  congr 1
  funext ax
  apply Fin.ext
  match ax with
  | ⟨0, _⟩ => show win0_8.index t (0 : Fin 2) * 256 + 1 * k.val = k.val; rw [e0]; omega
  | ⟨1, _⟩ => show win0_8.index t (1 : Fin 2) * 256 + 1 * n.val = n.val; rw [e1]; omega

theorem idx9 : ∀ t : Fin cfg0.N, win0_9.index t (0 : Fin 2) = 0 ∧ win0_9.index t (1 : Fin 2) = 0 :=
  (by decide +kernel : ∀ t : Fin grid0.N, _)

/-- Window 9: the fourth layer's bias. -/
theorem iblk9 (c : Dev nD) (t : Fin cfg0.N) (k : Fin 1) (n : Fin 256) :
    @Eq EReal (iblk m c 9 t (ix2 k n)) ((m ((c.tc : Thread nD τ).loc main_arg9)) (ix2 k n)) := by
  obtain ⟨e0, e1⟩ := idx9 t
  unfold iblk
  rw [View.read_apply]
  show (V m c main_arg9 : FVec Ideal S1x256 .f32) _ = _
  rw [V_main_arg9]
  show (m ((c.tc : Thread nD τ).loc main_arg9) : FVec Ideal S1x256 .f32) (((cfg0.win 9).blk t).view.emb (ix2 k n)) = _
  congr 1
  funext ax
  apply Fin.ext
  match ax with
  | ⟨0, _⟩ => show win0_9.index t (0 : Fin 2) * 1 + 1 * k.val = k.val; rw [e0]; omega
  | ⟨1, _⟩ => show win0_9.index t (1 : Fin 2) * 256 + 1 * n.val = n.val; rw [e1]; omega

end Cert.KernelIdeal.KWin

end
-- ==== Proof.KWinB.lean ====
/-
  Input windows 10 to 14 of the kernel's one region: the graph convolutions' weights and biases with the two branches side
  by side along the last axis. Each is a concatenation of two pieces cut from an argument array and reshaped; read at a
  column n it is branch 0's column n when n < 256 and branch 1's column n − 256 otherwise, which is how the specification
  names the branches' matrices and rows.
-/
import proofs.«141170_g2000409237439836_pallaspilot1_247_36_alg».proof.Proof.Gen.KernelIdeal.Frame
import proofs.«141170_g2000409237439836_pallaspilot1_247_36_alg».proof.Proof.Spec
import Idealize.ShloMosaic.Lib.Pipeline.Value
import Idealize.ShloMosaic.Lib.ValueLayout
import Idealize.ShloMosaic.Lib.KernelVsHost
import proofs.«141170_g2000409237439836_pallaspilot1_247_36_alg».proof.Proof.KWinV

noncomputable section

namespace Cert.KernelIdeal.KWin

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## Two pieces side by side, read at an index -/

/-- Rows 0 to 255 of the two branches of a [2, 384, 256] array, each a [256, 256] matrix, side by side: column n < 256 is branch 0's column n, column n ≥ 256 branch 1's column n − 256. -/
theorem fused_rows256 (P : (⟨3, ![2, 384, 256]⟩ : Shape).Idx → EReal) (k : Fin 256) (n : Fin 512) :
    concatenate S256x512 1
      [⟨S256x256, shapeCast S256x256 (extractStridedSlice S1x256x256 ![0, 0, 0] P slices_S2x384x256_S1x256x256_0_0_0) shapeCasts_S1x256x256_S256x256⟩,
       ⟨S256x256, shapeCast S256x256 (extractStridedSlice S1x256x256 ![1, 0, 0] P slices_S2x384x256_S1x256x256_1_0_0) shapeCasts_S1x256x256_S256x256⟩]
      concatenates_S256x256_S256x256_S256x512_d1 (ix2 k n)
      = if h : n.val < 256 then P (ix3 (0 : Fin 2) (⟨k.val, by have := k.isLt; omega⟩ : Fin 384) (⟨n.val, h⟩ : Fin 256))
        else P (ix3 (1 : Fin 2) (⟨k.val, by have := k.isLt; omega⟩ : Fin 384) (⟨n.val - 256, by have := n.isLt; omega⟩ : Fin 256)) := by
  have hr : k.val < 256 := k.isLt
  have hn : n.val < 512 := n.isLt
  by_cases h : n.val < 256
  · rw [dif_pos h]
    refine (concatenate_pair_apply_left (t := S256x512) (s₁ := S256x256) (s₂ := S256x256) (1 : Fin 2) _ _ concatenates_S256x256_S256x256_S256x512_d1 (ix2 k n) rfl
      (ix2 k (⟨n.val, h⟩ : Fin 256)) ?_).trans ?_
    · intro b
      match b with
      | ⟨0, _⟩ => rfl
      | ⟨1, _⟩ => rfl
    refine (shapeCast_1ab_ab_apply _ shapeCasts_S1x256x256_S256x256 k (⟨n.val, h⟩ : Fin 256)).trans ?_
    refine extractStridedSlice_apply _ _ slices_S2x384x256_S1x256x256_0_0_0 _ _ ?_
    intro ax
    match ax with
    | ⟨0, _⟩ => rfl
    | ⟨1, _⟩ => show k.val = 0 + k.val; omega
    | ⟨2, _⟩ => show n.val = 0 + n.val; omega
  · rw [dif_neg h]
    refine (concatenate_pair_apply_right (t := S256x512) (s₁ := S256x256) (s₂ := S256x256) (1 : Fin 2) _ _ concatenates_S256x256_S256x256_S256x512_d1 (ix2 k n) rfl rfl
      (ix2 k (⟨n.val - 256, by omega⟩ : Fin 256)) ?_ ?_).trans ?_
    · intro b hb
      match b with
      | ⟨0, _⟩ => rfl
      | ⟨1, _⟩ => exact absurd rfl hb
    · show n.val - 256 + 256 = n.val; omega
    refine (shapeCast_1ab_ab_apply _ shapeCasts_S1x256x256_S256x256 k (⟨n.val - 256, by omega⟩ : Fin 256)).trans ?_
    refine extractStridedSlice_apply _ _ slices_S2x384x256_S1x256x256_1_0_0 _ _ ?_
    intro ax
    match ax with
    | ⟨0, _⟩ => rfl
    | ⟨1, _⟩ => show k.val = 0 + k.val; omega
    | ⟨2, _⟩ => show n.val - 256 = 0 + (n.val - 256); omega

/-- Rows 256 to 383 of the two branches of a [2, 384, 256] array, each a [128, 256] matrix, side by side. -/
theorem fused_rows128 (P : (⟨3, ![2, 384, 256]⟩ : Shape).Idx → EReal) (k : Fin 128) (n : Fin 512) :
    concatenate S128x512 1
      [⟨S128x256, shapeCast S128x256 (extractStridedSlice S1x128x256 ![0, 256, 0] P slices_S2x384x256_S1x128x256_0_256_0) shapeCasts_S1x128x256_S128x256⟩,
       ⟨S128x256, shapeCast S128x256 (extractStridedSlice S1x128x256 ![1, 256, 0] P slices_S2x384x256_S1x128x256_1_256_0) shapeCasts_S1x128x256_S128x256⟩]
      concatenates_S128x256_S128x256_S128x512_d1 (ix2 k n)
      = if h : n.val < 256 then P (ix3 (0 : Fin 2) (⟨256 + k.val, by have := k.isLt; omega⟩ : Fin 384) (⟨n.val, h⟩ : Fin 256))
        else P (ix3 (1 : Fin 2) (⟨256 + k.val, by have := k.isLt; omega⟩ : Fin 384) (⟨n.val - 256, by have := n.isLt; omega⟩ : Fin 256)) := by
  have hr : k.val < 128 := k.isLt
  have hn : n.val < 512 := n.isLt
  by_cases h : n.val < 256
  · rw [dif_pos h]
    refine (concatenate_pair_apply_left (t := S128x512) (s₁ := S128x256) (s₂ := S128x256) (1 : Fin 2) _ _ concatenates_S128x256_S128x256_S128x512_d1 (ix2 k n) rfl
      (ix2 k (⟨n.val, h⟩ : Fin 256)) ?_).trans ?_
    · intro b
      match b with
      | ⟨0, _⟩ => rfl
      | ⟨1, _⟩ => rfl
    refine (shapeCast_1ab_ab_apply _ shapeCasts_S1x128x256_S128x256 k (⟨n.val, h⟩ : Fin 256)).trans ?_
    refine extractStridedSlice_apply _ _ slices_S2x384x256_S1x128x256_0_256_0 _ _ ?_
    intro ax
    match ax with
    | ⟨0, _⟩ => rfl
    | ⟨1, _⟩ => show 256 + k.val = 256 + k.val; rfl
    | ⟨2, _⟩ => show n.val = 0 + n.val; omega
  · rw [dif_neg h]
    refine (concatenate_pair_apply_right (t := S128x512) (s₁ := S128x256) (s₂ := S128x256) (1 : Fin 2) _ _ concatenates_S128x256_S128x256_S128x512_d1 (ix2 k n) rfl rfl
      (ix2 k (⟨n.val - 256, by omega⟩ : Fin 256)) ?_ ?_).trans ?_
    · intro b hb
      match b with
      | ⟨0, _⟩ => rfl
      | ⟨1, _⟩ => exact absurd rfl hb
    · show n.val - 256 + 256 = n.val; omega
    refine (shapeCast_1ab_ab_apply _ shapeCasts_S1x128x256_S128x256 k (⟨n.val - 256, by omega⟩ : Fin 256)).trans ?_
    refine extractStridedSlice_apply _ _ slices_S2x384x256_S1x128x256_1_256_0 _ _ ?_
    intro ax
    match ax with
    | ⟨0, _⟩ => rfl
    | ⟨1, _⟩ => show 256 + k.val = 256 + k.val; rfl
    | ⟨2, _⟩ => show n.val - 256 = 0 + (n.val - 256); omega

/-- The two branches' rows of a [2, 1, 256] array side by side. -/
theorem fused_bias (P : (⟨3, ![2, 1, 256]⟩ : Shape).Idx → EReal) (k : Fin 1) (n : Fin 512) :
    concatenate S1x512 1
      [⟨S1x256, shapeCast S1x256 (extractStridedSlice S1x1x256 ![0, 0, 0] P slices_S2x1x256_S1x1x256_0_0_0) shapeCasts_S1x1x256_S1x256⟩,
       ⟨S1x256, shapeCast S1x256 (extractStridedSlice S1x1x256 ![1, 0, 0] P slices_S2x1x256_S1x1x256_1_0_0) shapeCasts_S1x1x256_S1x256⟩]
      concatenates_S1x256_S1x256_S1x512_d1 (ix2 k n)
      = if h : n.val < 256 then P (ix3 (0 : Fin 2) k (⟨n.val, h⟩ : Fin 256))
        else P (ix3 (1 : Fin 2) k (⟨n.val - 256, by have := n.isLt; omega⟩ : Fin 256)) := by
  have hr : k.val < 1 := k.isLt
  have hn : n.val < 512 := n.isLt
  by_cases h : n.val < 256
  · rw [dif_pos h]
    refine (concatenate_pair_apply_left (t := S1x512) (s₁ := S1x256) (s₂ := S1x256) (1 : Fin 2) _ _ concatenates_S1x256_S1x256_S1x512_d1 (ix2 k n) rfl
      (ix2 k (⟨n.val, h⟩ : Fin 256)) ?_).trans ?_
    · intro b
      match b with
      | ⟨0, _⟩ => rfl
      | ⟨1, _⟩ => rfl
    refine (shapeCast_1ab_ab_apply _ shapeCasts_S1x1x256_S1x256 k (⟨n.val, h⟩ : Fin 256)).trans ?_
    refine extractStridedSlice_apply _ _ slices_S2x1x256_S1x1x256_0_0_0 _ _ ?_
    intro ax
    match ax with
    | ⟨0, _⟩ => rfl
    | ⟨1, _⟩ => show k.val = 0 + k.val; omega
    | ⟨2, _⟩ => show n.val = 0 + n.val; omega
  · rw [dif_neg h]
    refine (concatenate_pair_apply_right (t := S1x512) (s₁ := S1x256) (s₂ := S1x256) (1 : Fin 2) _ _ concatenates_S1x256_S1x256_S1x512_d1 (ix2 k n) rfl rfl
      (ix2 k (⟨n.val - 256, by omega⟩ : Fin 256)) ?_ ?_).trans ?_
    · intro b hb
      match b with
      | ⟨0, _⟩ => rfl
      | ⟨1, _⟩ => exact absurd rfl hb
    · show n.val - 256 + 256 = n.val; omega
    refine (shapeCast_1ab_ab_apply _ shapeCasts_S1x1x256_S1x256 k (⟨n.val - 256, by omega⟩ : Fin 256)).trans ?_
    refine extractStridedSlice_apply _ _ slices_S2x1x256_S1x1x256_1_0_0 _ _ ?_
    intro ax
    match ax with
    | ⟨0, _⟩ => rfl
    | ⟨1, _⟩ => show k.val = 0 + k.val; omega
    | ⟨2, _⟩ => show n.val - 256 = 0 + (n.val - 256); omega

/-- The two branches of a [9, 2, 256, 256] array, each a stack of nine [256, 256] matrices, side by side along the last axis. -/
theorem fused_stack (P : (⟨4, ![9, 2, 256, 256]⟩ : Shape).Idx → EReal) (i : Fin 9) (k : Fin 256) (n : Fin 512) :
    concatenate S9x256x512 2
      [⟨S9x256x256, shapeCast S9x256x256 (extractStridedSlice S9x1x256x256 ![0, 0, 0, 0] P slices_S9x2x256x256_S9x1x256x256_0_0_0_0) shapeCasts_S9x1x256x256_S9x256x256⟩,
       ⟨S9x256x256, shapeCast S9x256x256 (extractStridedSlice S9x1x256x256 ![0, 1, 0, 0] P slices_S9x2x256x256_S9x1x256x256_0_1_0_0) shapeCasts_S9x1x256x256_S9x256x256⟩]
      concatenates_S9x256x256_S9x256x256_S9x256x512_d2 (ix3 i k n)
      = if h : n.val < 256 then P (ix4 i (0 : Fin 2) k (⟨n.val, h⟩ : Fin 256))
        else P (ix4 i (1 : Fin 2) k (⟨n.val - 256, by have := n.isLt; omega⟩ : Fin 256)) := by
  have hi : i.val < 9 := i.isLt
  have hr : k.val < 256 := k.isLt
  have hn : n.val < 512 := n.isLt
  by_cases h : n.val < 256
  · rw [dif_pos h]
    refine (concatenate_pair_apply_left (t := S9x256x512) (s₁ := S9x256x256) (s₂ := S9x256x256) (2 : Fin 3) _ _ concatenates_S9x256x256_S9x256x256_S9x256x512_d2 (ix3 i k n) rfl
      (ix3 i k (⟨n.val, h⟩ : Fin 256)) ?_).trans ?_
    · intro b
      match b with
      | ⟨0, _⟩ => rfl
      | ⟨1, _⟩ => rfl
      | ⟨2, _⟩ => rfl
    refine (shapeCast_apply _ shapeCasts_S9x1x256x256_S9x256x256 (ix3 i k (⟨n.val, h⟩ : Fin 256)) (ix4 i (0 : Fin 1) k (⟨n.val, h⟩ : Fin 256)) ?_).trans ?_
    · rw [Shape.rowMajor_val_four, Shape.rowMajor_val_three]
      show ((i.val * 1 + 0) * 256 + k.val) * 256 + n.val = (i.val * 256 + k.val) * 256 + n.val
      omega
    refine extractStridedSlice_apply _ _ slices_S9x2x256x256_S9x1x256x256_0_0_0_0 _ _ ?_
    intro ax
    match ax with
    | ⟨0, _⟩ => show i.val = 0 + i.val; omega
    | ⟨1, _⟩ => rfl
    | ⟨2, _⟩ => show k.val = 0 + k.val; omega
    | ⟨3, _⟩ => show n.val = 0 + n.val; omega
  · rw [dif_neg h]
    refine (concatenate_pair_apply_right (t := S9x256x512) (s₁ := S9x256x256) (s₂ := S9x256x256) (2 : Fin 3) _ _ concatenates_S9x256x256_S9x256x256_S9x256x512_d2 (ix3 i k n) rfl rfl
      (ix3 i k (⟨n.val - 256, by omega⟩ : Fin 256)) ?_ ?_).trans ?_
    · intro b hb
      match b with
      | ⟨0, _⟩ => rfl
      | ⟨1, _⟩ => rfl
      | ⟨2, _⟩ => exact absurd rfl hb
    · show n.val - 256 + 256 = n.val; omega
    refine (shapeCast_apply _ shapeCasts_S9x1x256x256_S9x256x256 (ix3 i k (⟨n.val - 256, by omega⟩ : Fin 256)) (ix4 i (0 : Fin 1) k (⟨n.val - 256, by omega⟩ : Fin 256)) ?_).trans ?_
    · rw [Shape.rowMajor_val_four, Shape.rowMajor_val_three]
      show ((i.val * 1 + 0) * 256 + k.val) * 256 + (n.val - 256) = (i.val * 256 + k.val) * 256 + (n.val - 256)
      omega
    refine extractStridedSlice_apply _ _ slices_S9x2x256x256_S9x1x256x256_0_1_0_0 _ _ ?_
    intro ax
    match ax with
    | ⟨0, _⟩ => show i.val = 0 + i.val; omega
    | ⟨1, _⟩ => rfl
    | ⟨2, _⟩ => show k.val = 0 + k.val; omega
    | ⟨3, _⟩ => show n.val - 256 = 0 + (n.val - 256); omega

/-- The two branches of a [9, 2, 1, 256] array, each a stack of nine rows, side by side along the last axis. -/
theorem fused_stack_bias (P : (⟨4, ![9, 2, 1, 256]⟩ : Shape).Idx → EReal) (i : Fin 9) (k : Fin 1) (n : Fin 512) :
    concatenate S9x1x512 2
      [⟨S9x1x256, shapeCast S9x1x256 (extractStridedSlice S9x1x1x256 ![0, 0, 0, 0] P slices_S9x2x1x256_S9x1x1x256_0_0_0_0) shapeCasts_S9x1x1x256_S9x1x256⟩,
       ⟨S9x1x256, shapeCast S9x1x256 (extractStridedSlice S9x1x1x256 ![0, 1, 0, 0] P slices_S9x2x1x256_S9x1x1x256_0_1_0_0) shapeCasts_S9x1x1x256_S9x1x256⟩]
      concatenates_S9x1x256_S9x1x256_S9x1x512_d2 (ix3 i k n)
      = if h : n.val < 256 then P (ix4 i (0 : Fin 2) k (⟨n.val, h⟩ : Fin 256))
        else P (ix4 i (1 : Fin 2) k (⟨n.val - 256, by have := n.isLt; omega⟩ : Fin 256)) := by
  have hi : i.val < 9 := i.isLt
  have hr : k.val < 1 := k.isLt
  have hn : n.val < 512 := n.isLt
  by_cases h : n.val < 256
  · rw [dif_pos h]
    refine (concatenate_pair_apply_left (t := S9x1x512) (s₁ := S9x1x256) (s₂ := S9x1x256) (2 : Fin 3) _ _ concatenates_S9x1x256_S9x1x256_S9x1x512_d2 (ix3 i k n) rfl
      (ix3 i k (⟨n.val, h⟩ : Fin 256)) ?_).trans ?_
    · intro b
      match b with
      | ⟨0, _⟩ => rfl
      | ⟨1, _⟩ => rfl
      | ⟨2, _⟩ => rfl
    refine (shapeCast_apply _ shapeCasts_S9x1x1x256_S9x1x256 (ix3 i k (⟨n.val, h⟩ : Fin 256)) (ix4 i (0 : Fin 1) k (⟨n.val, h⟩ : Fin 256)) ?_).trans ?_
    · rw [Shape.rowMajor_val_four, Shape.rowMajor_val_three]
      show ((i.val * 1 + 0) * 1 + k.val) * 256 + n.val = (i.val * 1 + k.val) * 256 + n.val
      omega
    refine extractStridedSlice_apply _ _ slices_S9x2x1x256_S9x1x1x256_0_0_0_0 _ _ ?_
    intro ax
    match ax with
    | ⟨0, _⟩ => show i.val = 0 + i.val; omega
    | ⟨1, _⟩ => rfl
    | ⟨2, _⟩ => show k.val = 0 + k.val; omega
    | ⟨3, _⟩ => show n.val = 0 + n.val; omega
  · rw [dif_neg h]
    refine (concatenate_pair_apply_right (t := S9x1x512) (s₁ := S9x1x256) (s₂ := S9x1x256) (2 : Fin 3) _ _ concatenates_S9x1x256_S9x1x256_S9x1x512_d2 (ix3 i k n) rfl rfl
      (ix3 i k (⟨n.val - 256, by omega⟩ : Fin 256)) ?_ ?_).trans ?_
    · intro b hb
      match b with
      | ⟨0, _⟩ => rfl
      | ⟨1, _⟩ => rfl
      | ⟨2, _⟩ => exact absurd rfl hb
    · show n.val - 256 + 256 = n.val; omega
    refine (shapeCast_apply _ shapeCasts_S9x1x1x256_S9x1x256 (ix3 i k (⟨n.val - 256, by omega⟩ : Fin 256)) (ix4 i (0 : Fin 1) k (⟨n.val - 256, by omega⟩ : Fin 256)) ?_).trans ?_
    · rw [Shape.rowMajor_val_four, Shape.rowMajor_val_three]
      show ((i.val * 1 + 0) * 1 + k.val) * 256 + (n.val - 256) = (i.val * 1 + k.val) * 256 + (n.val - 256)
      omega
    refine extractStridedSlice_apply _ _ slices_S9x2x1x256_S9x1x1x256_0_1_0_0 _ _ ?_
    intro ax
    match ax with
    | ⟨0, _⟩ => show i.val = 0 + i.val; omega
    | ⟨1, _⟩ => rfl
    | ⟨2, _⟩ => show k.val = 0 + k.val; omega
    | ⟨3, _⟩ => show n.val - 256 = 0 + (n.val - 256); omega

/-! ## The windows -/

theorem idx10 : ∀ t : Fin cfg0.N, win0_10.index t (0 : Fin 2) = 0 ∧ win0_10.index t (1 : Fin 2) = 0 :=
  (by decide +kernel : ∀ t : Fin grid0.N, _)

/-- Window 10: graph convolution 0's feature weights, the two branches side by side. -/
theorem iblk10 (c : Dev nD) (t : Fin cfg0.N) (k : Fin 256) (n : Fin 512) :
    @Eq EReal (iblk m c 10 t (ix2 k n))
      (if h : n.val < 256 then Cert.Spec.W0h (m ((c.tc : Thread nD τ).loc main_arg10)) 0 k ⟨n.val, h⟩
       else Cert.Spec.W0h (m ((c.tc : Thread nD τ).loc main_arg10)) 1 k ⟨n.val - 256, by have := n.isLt; omega⟩) := by
  obtain ⟨e0, e1⟩ := idx10 t
  have he : ((cfg0.win 10).blk t).view.emb (ix2 k n) = (ix2 k n : S256x512.Idx) := by
    funext ax
    apply Fin.ext
    match ax with
    | ⟨0, _⟩ => show win0_10.index t (0 : Fin 2) * 256 + 1 * (k : Fin 256).val = (k : Fin 256).val; rw [e0]; omega
    | ⟨1, _⟩ => show win0_10.index t (1 : Fin 2) * 512 + 1 * n.val = n.val; rw [e1]; omega
  unfold iblk
  rw [View.read_apply]
  show (V m c main_v7 : FVec Ideal S256x512 .bf16) _ = _
  rw [V_v7, he]
  exact fused_rows256 (m ((c.tc : Thread nD τ).loc main_arg10) : FVec Ideal S2x384x256 .f32) k n

theorem idx11 : ∀ t : Fin cfg0.N, win0_11.index t (0 : Fin 2) = 0 ∧ win0_11.index t (1 : Fin 2) = 0 :=
  (by decide +kernel : ∀ t : Fin grid0.N, _)

/-- Window 11: graph convolution 0's coordinate weights, the two branches side by side. -/
theorem iblk11 (c : Dev nD) (t : Fin cfg0.N) (k : Fin 128) (n : Fin 512) :
    @Eq EReal (iblk m c 11 t (ix2 k n))
      (if h : n.val < 256 then Cert.Spec.W0x (m ((c.tc : Thread nD τ).loc main_arg10)) 0 k ⟨n.val, h⟩
       else Cert.Spec.W0x (m ((c.tc : Thread nD τ).loc main_arg10)) 1 k ⟨n.val - 256, by have := n.isLt; omega⟩) := by
  obtain ⟨e0, e1⟩ := idx11 t
  have he : ((cfg0.win 11).blk t).view.emb (ix2 k n) = (ix2 k n : S128x512.Idx) := by
    funext ax
    apply Fin.ext
    match ax with
    | ⟨0, _⟩ => show win0_11.index t (0 : Fin 2) * 128 + 1 * (k : Fin 128).val = (k : Fin 128).val; rw [e0]; omega
    | ⟨1, _⟩ => show win0_11.index t (1 : Fin 2) * 512 + 1 * n.val = n.val; rw [e1]; omega
  unfold iblk
  rw [View.read_apply]
  show (V m c main_v13 : FVec Ideal S128x512 .bf16) _ = _
  rw [V_v13, he]
  exact fused_rows128 (m ((c.tc : Thread nD τ).loc main_arg10) : FVec Ideal S2x384x256 .f32) k n

theorem idx12 : ∀ t : Fin cfg0.N, win0_12.index t (0 : Fin 2) = 0 ∧ win0_12.index t (1 : Fin 2) = 0 :=
  (by decide +kernel : ∀ t : Fin grid0.N, _)

/-- Window 12: graph convolution 0's biases, the two branches side by side. -/
theorem iblk12 (c : Dev nD) (t : Fin cfg0.N) (n : Fin 512) :
    @Eq EReal (iblk m c 12 t (ix2 (0 : Fin 1) n))
      (if h : n.val < 256 then Cert.Spec.B0 (m ((c.tc : Thread nD τ).loc main_arg11)) 0 ⟨n.val, h⟩
       else Cert.Spec.B0 (m ((c.tc : Thread nD τ).loc main_arg11)) 1 ⟨n.val - 256, by have := n.isLt; omega⟩) := by
  obtain ⟨e0, e1⟩ := idx12 t
  have he : ((cfg0.win 12).blk t).view.emb (ix2 (0 : Fin 1) n) = (ix2 (0 : Fin 1) n : S1x512.Idx) := by
    funext ax
    apply Fin.ext
    match ax with
    | ⟨0, _⟩ => show win0_12.index t (0 : Fin 2) * 1 + 1 * ((0 : Fin 1) : Fin 1).val = ((0 : Fin 1) : Fin 1).val; rw [e0]; omega
    | ⟨1, _⟩ => show win0_12.index t (1 : Fin 2) * 512 + 1 * n.val = n.val; rw [e1]; omega
  unfold iblk
  rw [View.read_apply]
  show (V m c main_v18 : FVec Ideal S1x512 .f32) _ = _
  rw [V_v18, he]
  exact fused_bias (m ((c.tc : Thread nD τ).loc main_arg11) : FVec Ideal S2x1x256 .f32) (0 : Fin 1) n

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

/-- Window 13: the nine later graph convolutions' weights, the two branches side by side. -/
theorem iblk13 (c : Dev nD) (t : Fin cfg0.N) (i : Fin 9) (k : Fin 256) (n : Fin 512) :
    @Eq EReal (iblk m c 13 t (ix3 i k n))
      (if h : n.val < 256 then Cert.Spec.Wg (m ((c.tc : Thread nD τ).loc main_arg12)) i 0 k ⟨n.val, h⟩
       else Cert.Spec.Wg (m ((c.tc : Thread nD τ).loc main_arg12)) i 1 k ⟨n.val - 256, by have := n.isLt; omega⟩) := by
  obtain ⟨e0, e1, e2⟩ := idx13 t
  have he : ((cfg0.win 13).blk t).view.emb (ix3 i k n) = (ix3 i k n : S9x256x512.Idx) := by
    funext ax
    apply Fin.ext
    match ax with
    | ⟨0, _⟩ => show win0_13.index t (0 : Fin 3) * 9 + 1 * i.val = i.val; rw [e0]; omega
    | ⟨1, _⟩ => show win0_13.index t (1 : Fin 3) * 256 + 1 * (k : Fin 256).val = (k : Fin 256).val; rw [e1]; omega
    | ⟨2, _⟩ => show win0_13.index t (2 : Fin 3) * 512 + 1 * n.val = n.val; rw [e2]; omega
  unfold iblk
  rw [View.read_apply]
  show (V m c main_v24 : FVec Ideal S9x256x512 .bf16) _ = _
  rw [V_v24, he]
  exact fused_stack (m ((c.tc : Thread nD τ).loc main_arg12) : FVec Ideal S9x2x256x256 .f32) i k n

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)

/-- Window 14: the nine later graph convolutions' biases, the two branches side by side. -/
theorem iblk14 (c : Dev nD) (t : Fin cfg0.N) (i : Fin 9) (n : Fin 512) :
    @Eq EReal (iblk m c 14 t (ix3 i (0 : Fin 1) n))
      (if h : n.val < 256 then Cert.Spec.Bg (m ((c.tc : Thread nD τ).loc main_arg13)) i 0 ⟨n.val, h⟩
       else Cert.Spec.Bg (m ((c.tc : Thread nD τ).loc main_arg13)) i 1 ⟨n.val - 256, by have := n.isLt; omega⟩) := by
  obtain ⟨e0, e1, e2⟩ := idx14 t
  have he : ((cfg0.win 14).blk t).view.emb (ix3 i (0 : Fin 1) n) = (ix3 i (0 : Fin 1) n : S9x1x512.Idx) := by
    funext ax
    apply Fin.ext
    match ax with
    | ⟨0, _⟩ => show win0_14.index t (0 : Fin 3) * 9 + 1 * i.val = i.val; rw [e0]; omega
    | ⟨1, _⟩ => show win0_14.index t (1 : Fin 3) * 1 + 1 * ((0 : Fin 1) : Fin 1).val = ((0 : Fin 1) : Fin 1).val; rw [e1]; omega
    | ⟨2, _⟩ => show win0_14.index t (2 : Fin 3) * 512 + 1 * n.val = n.val; rw [e2]; omega
  unfold iblk
  rw [View.read_apply]
  show (V m c main_v29 : FVec Ideal S9x1x512 .f32) _ = _
  rw [V_v29, he]
  exact fused_stack_bias (m ((c.tc : Thread nD τ).loc main_arg13) : FVec Ideal S9x2x1x256 .f32) i (0 : Fin 1) n

end Cert.KernelIdeal.KWin

end
-- ==== Proof.KWinC.lean ====
/-
  Input windows 15 to 22 of the kernel's one region: the last four linear layers' weights and biases, whole at every
  point, each block read at coordinates as the argument array it stages.
-/
import proofs.«141170_g2000409237439836_pallaspilot1_247_36_alg».proof.Proof.Gen.KernelIdeal.Frame
import proofs.«141170_g2000409237439836_pallaspilot1_247_36_alg».proof.Proof.Spec
import Idealize.ShloMosaic.Lib.Pipeline.Value
import Idealize.ShloMosaic.Lib.ValueLayout
import Idealize.ShloMosaic.Lib.KernelVsHost
import proofs.«141170_g2000409237439836_pallaspilot1_247_36_alg».proof.Proof.KWinV

noncomputable section

namespace Cert.KernelIdeal.KWin

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem idx15 : ∀ t : Fin cfg0.N, win0_15.index t (0 : Fin 2) = 0 ∧ win0_15.index t (1 : Fin 2) = 0 :=
  (by decide +kernel : ∀ t : Fin grid0.N, _)

/-- Window 15: the fifth linear layer's weights. -/
theorem iblk15 (c : Dev nD) (t : Fin cfg0.N) (k : Fin 256) (n : Fin 128) :
    @Eq EReal (iblk m c 15 t (ix2 k n)) ((m ((c.tc : Thread nD τ).loc main_arg14)) (ix2 k n)) := by
  obtain ⟨e0, e1⟩ := idx15 t
  unfold iblk
  rw [View.read_apply]
  show (V m c main_v34 : FVec Ideal S256x128 .bf16) _ = _
  rw [V_v34]
  show (m ((c.tc : Thread nD τ).loc main_arg14) : FVec Ideal S256x128 .f32) (((cfg0.win 15).blk t).view.emb (ix2 k n)) = _
  congr 1
  funext ax
  apply Fin.ext
  match ax with
  | ⟨0, _⟩ => show win0_15.index t (0 : Fin 2) * 256 + 1 * k.val = k.val; rw [e0]; omega
  | ⟨1, _⟩ => show win0_15.index t (1 : Fin 2) * 128 + 1 * n.val = n.val; rw [e1]; omega

theorem idx16 : ∀ t : Fin cfg0.N, win0_16.index t (0 : Fin 2) = 0 ∧ win0_16.index t (1 : Fin 2) = 0 :=
  (by decide +kernel : ∀ t : Fin grid0.N, _)

/-- Window 16: the fifth linear layer's bias. -/
theorem iblk16 (c : Dev nD) (t : Fin cfg0.N) (k : Fin 1) (n : Fin 128) :
    @Eq EReal (iblk m c 16 t (ix2 k n)) ((m ((c.tc : Thread nD τ).loc main_arg15)) (ix2 k n)) := by
  obtain ⟨e0, e1⟩ := idx16 t
  unfold iblk
  rw [View.read_apply]
  show (V m c main_arg15 : FVec Ideal S1x128 .f32) _ = _
  rw [V_main_arg15]
  show (m ((c.tc : Thread nD τ).loc main_arg15) : FVec Ideal S1x128 .f32) (((cfg0.win 16).blk t).view.emb (ix2 k n)) = _
  congr 1
  funext ax
  apply Fin.ext
  match ax with
  | ⟨0, _⟩ => show win0_16.index t (0 : Fin 2) * 1 + 1 * k.val = k.val; rw [e0]; omega
  | ⟨1, _⟩ => show win0_16.index t (1 : Fin 2) * 128 + 1 * n.val = n.val; rw [e1]; omega

theorem idx17 : ∀ t : Fin cfg0.N, win0_17.index t (0 : Fin 2) = 0 ∧ win0_17.index t (1 : Fin 2) = 0 :=
  (by decide +kernel : ∀ t : Fin grid0.N, _)

/-- Window 17: the sixth linear layer's weights. -/
theorem iblk17 (c : Dev nD) (t : Fin cfg0.N) (k : Fin 128) (n : Fin 128) :
    @Eq EReal (iblk m c 17 t (ix2 k n)) ((m ((c.tc : Thread nD τ).loc main_arg16)) (ix2 k n)) := by
  obtain ⟨e0, e1⟩ := idx17 t
  unfold iblk
  rw [View.read_apply]
  show (V m c main_v35 : FVec Ideal S128x128 .bf16) _ = _
  rw [V_v35]
  show (m ((c.tc : Thread nD τ).loc main_arg16) : FVec Ideal S128x128 .f32) (((cfg0.win 17).blk t).view.emb (ix2 k n)) = _
  congr 1
  funext ax
  apply Fin.ext
  match ax with
  | ⟨0, _⟩ => show win0_17.index t (0 : Fin 2) * 128 + 1 * k.val = k.val; rw [e0]; omega
  | ⟨1, _⟩ => show win0_17.index t (1 : Fin 2) * 128 + 1 * n.val = n.val; rw [e1]; omega

theorem idx18 : ∀ t : Fin cfg0.N, win0_18.index t (0 : Fin 2) = 0 ∧ win0_18.index t (1 : Fin 2) = 0 :=
  (by decide +kernel : ∀ t : Fin grid0.N, _)

/-- Window 18: the sixth linear layer's bias. -/
theorem iblk18 (c : Dev nD) (t : Fin cfg0.N) (k : Fin 1) (n : Fin 128) :
    @Eq EReal (iblk m c 18 t (ix2 k n)) ((m ((c.tc : Thread nD τ).loc main_arg17)) (ix2 k n)) := by
  obtain ⟨e0, e1⟩ := idx18 t
  unfold iblk
  rw [View.read_apply]
  show (V m c main_arg17 : FVec Ideal S1x128 .f32) _ = _
  rw [V_main_arg17]
  show (m ((c.tc : Thread nD τ).loc main_arg17) : FVec Ideal S1x128 .f32) (((cfg0.win 18).blk t).view.emb (ix2 k n)) = _
  congr 1
  funext ax
  apply Fin.ext
  match ax with
  | ⟨0, _⟩ => show win0_18.index t (0 : Fin 2) * 1 + 1 * k.val = k.val; rw [e0]; omega
  | ⟨1, _⟩ => show win0_18.index t (1 : Fin 2) * 128 + 1 * n.val = n.val; rw [e1]; omega

theorem idx19 : ∀ t : Fin cfg0.N, win0_19.index t (0 : Fin 2) = 0 ∧ win0_19.index t (1 : Fin 2) = 0 :=
  (by decide +kernel : ∀ t : Fin grid0.N, _)

/-- Window 19: the seventh linear layer's weights. -/
theorem iblk19 (c : Dev nD) (t : Fin cfg0.N) (k : Fin 128) (n : Fin 128) :
    @Eq EReal (iblk m c 19 t (ix2 k n)) ((m ((c.tc : Thread nD τ).loc main_arg18)) (ix2 k n)) := by
  obtain ⟨e0, e1⟩ := idx19 t
  unfold iblk
  rw [View.read_apply]
  show (V m c main_v36 : FVec Ideal S128x128 .bf16) _ = _
  rw [V_v36]
  show (m ((c.tc : Thread nD τ).loc main_arg18) : FVec Ideal S128x128 .f32) (((cfg0.win 19).blk t).view.emb (ix2 k n)) = _
  congr 1
  funext ax
  apply Fin.ext
  match ax with
  | ⟨0, _⟩ => show win0_19.index t (0 : Fin 2) * 128 + 1 * k.val = k.val; rw [e0]; omega
  | ⟨1, _⟩ => show win0_19.index t (1 : Fin 2) * 128 + 1 * n.val = n.val; rw [e1]; omega

theorem idx20 : ∀ t : Fin cfg0.N, win0_20.index t (0 : Fin 2) = 0 ∧ win0_20.index t (1 : Fin 2) = 0 :=
  (by decide +kernel : ∀ t : Fin grid0.N, _)

/-- Window 20: the seventh linear layer's bias. -/
theorem iblk20 (c : Dev nD) (t : Fin cfg0.N) (k : Fin 1) (n : Fin 128) :
    @Eq EReal (iblk m c 20 t (ix2 k n)) ((m ((c.tc : Thread nD τ).loc main_arg19)) (ix2 k n)) := by
  obtain ⟨e0, e1⟩ := idx20 t
  unfold iblk
  rw [View.read_apply]
  show (V m c main_arg19 : FVec Ideal S1x128 .f32) _ = _
  rw [V_main_arg19]
  show (m ((c.tc : Thread nD τ).loc main_arg19) : FVec Ideal S1x128 .f32) (((cfg0.win 20).blk t).view.emb (ix2 k n)) = _
  congr 1
  funext ax
  apply Fin.ext
  match ax with
  | ⟨0, _⟩ => show win0_20.index t (0 : Fin 2) * 1 + 1 * k.val = k.val; rw [e0]; omega
  | ⟨1, _⟩ => show win0_20.index t (1 : Fin 2) * 128 + 1 * n.val = n.val; rw [e1]; omega

theorem idx21 : ∀ t : Fin cfg0.N, win0_21.index t (0 : Fin 2) = 0 ∧ win0_21.index t (1 : Fin 2) = 0 :=
  (by decide +kernel : ∀ t : Fin grid0.N, _)

/-- Window 21: the last linear layer's weights. -/
theorem iblk21 (c : Dev nD) (t : Fin cfg0.N) (k : Fin 128) (n : Fin 128) :
    @Eq EReal (iblk m c 21 t (ix2 k n)) ((m ((c.tc : Thread nD τ).loc main_arg20)) (ix2 k n)) := by
  obtain ⟨e0, e1⟩ := idx21 t
  unfold iblk
  rw [View.read_apply]
  show (V m c main_v37 : FVec Ideal S128x128 .bf16) _ = _
  rw [V_v37]
  show (m ((c.tc : Thread nD τ).loc main_arg20) : FVec Ideal S128x128 .f32) (((cfg0.win 21).blk t).view.emb (ix2 k n)) = _
  congr 1
  funext ax
  apply Fin.ext
  match ax with
  | ⟨0, _⟩ => show win0_21.index t (0 : Fin 2) * 128 + 1 * k.val = k.val; rw [e0]; omega
  | ⟨1, _⟩ => show win0_21.index t (1 : Fin 2) * 128 + 1 * n.val = n.val; rw [e1]; omega

theorem idx22 : ∀ t : Fin cfg0.N, win0_22.index t (0 : Fin 2) = 0 ∧ win0_22.index t (1 : Fin 2) = 0 :=
  (by decide +kernel : ∀ t : Fin grid0.N, _)

/-- Window 22: the last linear layer's bias. -/
theorem iblk22 (c : Dev nD) (t : Fin cfg0.N) (k : Fin 1) (n : Fin 128) :
    @Eq EReal (iblk m c 22 t (ix2 k n)) ((m ((c.tc : Thread nD τ).loc main_arg21)) (ix2 k n)) := by
  obtain ⟨e0, e1⟩ := idx22 t
  unfold iblk
  rw [View.read_apply]
  show (V m c main_arg21 : FVec Ideal S1x128 .f32) _ = _
  rw [V_main_arg21]
  show (m ((c.tc : Thread nD τ).loc main_arg21) : FVec Ideal S1x128 .f32) (((cfg0.win 22).blk t).view.emb (ix2 k n)) = _
  congr 1
  funext ax
  apply Fin.ext
  match ax with
  | ⟨0, _⟩ => show win0_22.index t (0 : Fin 2) * 1 + 1 * k.val = k.val; rw [e0]; omega
  | ⟨1, _⟩ => show win0_22.index t (1 : Fin 2) * 128 + 1 * n.val = n.val; rw [e1]; omega

end Cert.KernelIdeal.KWin

end
-- ==== Proof.KWin.lean ====
/-
  The kernel's input windows read at coordinates, all 23 of them: `KWinA` windows 0 to 9, `KWinB` windows 10 to 14,
  `KWinC` windows 15 to 22 (lemmas `Cert.KernelIdeal.KWin.iblk0` … `iblk22`).
-/
import proofs.«141170_g2000409237439836_pallaspilot1_247_36_alg».proof.Proof.KWinA
import proofs.«141170_g2000409237439836_pallaspilot1_247_36_alg».proof.Proof.KWinB
import proofs.«141170_g2000409237439836_pallaspilot1_247_36_alg».proof.Proof.KWinC
-- ==== Proof.KFinal.lean ====
/-
  The body's part of the kernel's run: at every grid point t the two stores leave, at (μ, v, j), the specification's slab
  of mesh 2t + μ at (v, j). The window blocks at point t are, entry by entry, the argument arrays' meshes 2t and 2t + 1
  and the (fused) weights; the body's result block over such blocks is the slab, mesh by mesh.
-/
import proofs.«141170_g2000409237439836_pallaspilot1_247_36_alg».proof.Proof.KOut
import proofs.«141170_g2000409237439836_pallaspilot1_247_36_alg».proof.Proof.KRun
import proofs.«141170_g2000409237439836_pallaspilot1_247_36_alg».proof.Proof.KWin

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

set_option maxHeartbeats 4000000 in
theorem slabHyp : SlabHyp := by
  intro m c t μ v j
  exact Cert.KernelIdeal.KNet.out_slab (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (fun μ => ⟨2 * t.val + μ.val, by have := t.isLt; have := hN; have := μ.isLt; omega⟩)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    (fun μ v l => KWin.iblk0 m c t μ v l) (fun μ v u => KWin.iblk1 m c t μ v u)
    (fun k n => KWin.iblk2 m c t k n) (fun n => KWin.iblk3 m c t (0 : Fin 1) n) (fun k n => KWin.iblk4 m c t k n) (fun n => KWin.iblk5 m c t (0 : Fin 1) n) (fun k n => KWin.iblk6 m c t k n) (fun n => KWin.iblk7 m c t (0 : Fin 1) n) (fun k n => KWin.iblk8 m c t k n) (fun n => KWin.iblk9 m c t (0 : Fin 1) n)
    (fun k n => KWin.iblk10 m c t k n) (fun k n => KWin.iblk11 m c t k n) (fun n => KWin.iblk12 m c t n)
    (fun i k n => KWin.iblk13 m c t i k n) (fun i n => KWin.iblk14 m c t i n)
    (fun k n => KWin.iblk15 m c t k n) (fun n => KWin.iblk16 m c t (0 : Fin 1) n) (fun k n => KWin.iblk17 m c t k n) (fun n => KWin.iblk18 m c t (0 : Fin 1) n) (fun k n => KWin.iblk19 m c t k n) (fun n => KWin.iblk20 m c t (0 : Fin 1) n) (fun k n => KWin.iblk21 m c t k n) (fun n => KWin.iblk22 m c t (0 : Fin 1) n)
    μ v j

end Cert.KernelIdeal.KValue

end
-- ==== Proof.lean ====
/-
  The certificate of the fused graph network (kernel: two meshes per grid step, narrow-format matrix operands, the two
  branches' weights of every graph convolution side by side in one product of doubled width; reference: one mesh per
  grid step, the branches' products apart, leaky ReLU by comparison and selection).

  At the ideal values both programs compute ONE function of the argument arrays, `Spec.G` (Proof/Spec.lean): per mesh,
  four linear layers with leaky ReLU, ten graph convolutions relu (h·W0 + b0 + A·(h·W1 + b1)), four more linear layers,
  of which the result keeps three lanes, the meshes' rows stacked. What makes the two sides equal is re-indexing only:
  a change of float format is the identity on the extended reals; a product with weights [W0 | W1] followed by the two
  halves of its columns is the pair of products with W0 and with W1 (each column of a product depends on that column
  of the weights alone); the maximum of x and slope·x is x where x ≥ 0 and slope·x elsewhere because 0 ≤ slope ≤ 1,
  on every extended real; and the kernel's block of two meshes at point t is the reference's blocks at points 2t and
  2t + 1. No law that needs finiteness is used, so the precondition is never opened.

  The kernel side: Proof/KLayers.lean (layers as matrices), KNet.lean and KRegroup.lean (the body regrouped by
  layers), KSteps.lean, KBody.lean, KStages.lean, KMesh.lean (one mesh computes the specification's slab), KApply.lean,
  KOut.lean (the body's result block), KWin*.lean (the windows' blocks in terms of the arguments), KRun.lean (blocks to
  the array, the slice and reshape after the region, the run), KFinal.lean. The reference side: Proof/Ref*.lean.
  Proof/Assemble.lean joins the two runs. The three frame claims are the generated frames; the idealization rewrote no
  operation, so `preserves` is trivial.
-/
import proofs.«141170_g2000409237439836_pallaspilot1_247_36_alg».proof.Defs
import proofs.«141170_g2000409237439836_pallaspilot1_247_36_alg».proof.Proof.Gen.Kernel
import proofs.«141170_g2000409237439836_pallaspilot1_247_36_alg».proof.Proof.Gen.Kernel.Skeleton
import proofs.«141170_g2000409237439836_pallaspilot1_247_36_alg».proof.Proof.Gen.Kernel.Launch
import proofs.«141170_g2000409237439836_pallaspilot1_247_36_alg».proof.Proof.Gen.Kernel.Points
import proofs.«141170_g2000409237439836_pallaspilot1_247_36_alg».proof.Proof.Gen.Kernel.Frame
import proofs.«141170_g2000409237439836_pallaspilot1_247_36_alg».proof.Proof.Gen.KernelIdeal
import proofs.«141170_g2000409237439836_pallaspilot1_247_36_alg».proof.Proof.Gen.KernelIdeal.Skeleton
import proofs.«141170_g2000409237439836_pallaspilot1_247_36_alg».proof.Proof.Gen.KernelIdeal.Launch
import proofs.«141170_g2000409237439836_pallaspilot1_247_36_alg».proof.Proof.Gen.KernelIdeal.Points
import proofs.«141170_g2000409237439836_pallaspilot1_247_36_alg».proof.Proof.Gen.KernelIdeal.Frame
import proofs.«141170_g2000409237439836_pallaspilot1_247_36_alg».proof.Proof.Gen.ReferenceIdeal
import proofs.«141170_g2000409237439836_pallaspilot1_247_36_alg».proof.Proof.Gen.ReferenceIdeal.Skeleton
import proofs.«141170_g2000409237439836_pallaspilot1_247_36_alg».proof.Proof.Gen.ReferenceIdeal.Launch
import proofs.«141170_g2000409237439836_pallaspilot1_247_36_alg».proof.Proof.Gen.ReferenceIdeal.Points
import proofs.«141170_g2000409237439836_pallaspilot1_247_36_alg».proof.Proof.Gen.ReferenceIdeal.Frame
import proofs.«141170_g2000409237439836_pallaspilot1_247_36_alg».proof.Proof.Gen.Pre_finite_inputs
import proofs.«141170_g2000409237439836_pallaspilot1_247_36_alg».proof.Proof.Assemble
import proofs.«141170_g2000409237439836_pallaspilot1_247_36_alg».proof.Proof.KFinal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, Cert.Proof.Parts.preserves,
  Cert.Proof.Parts.algebraic_of Cert.KernelIdeal.KValue.slabHyp⟩

end Cert.Proof

end
